-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x192x1024 : Shape := ⟨3, ![8, 192, 1024]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x192x1024 : S_.BroadcastsInDim S8x192x1024 (![] : Fin 0 → Fin S8x192x1024.rank)
  reducesTo_S8x192x1024_S_d0_1_2 : S8x192x1024.ReducesTo [0, 1, 2] S_

variable [Facts]

def fn {F : FTy → Type} [FloatOps F] (main_arg0 : FVec F S8x4096x3 .f32) (main_arg1 : FVec F S8x4096x3 .f32) (main_arg2 : FVec F S8x192x1024 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x192x1024 .f32 := Host.absf main_arg2
  let main_cst_2 : FVec F S_ .f32 := constant S_ .f32 0x7F800000#32
  let main_v10 : FVec F S8x192x1024 .f32 := broadcastInDim S8x192x1024 ![] bcast_S_S8x192x1024 main_cst_2
  let main_v11 : IVec S8x192x1024 1 := cmpf .olt main_v9 main_v10
  let main_c_3 : IVec S_ 1 := constantI S_ 1 1#1
  let main_v12 : IVec S_ 1 := (fun x v => Host.reduce IntOp.andi x v reducesTo_S8x192x1024_S_d0_1_2 h_S_) main_v11 main_c_3
  let main_v13 : IVec S_ 1 := andi main_v8 main_v12
  main_v13
-- ==== Kernel.lean ====
abbrev S8x4096x3 : Shape := ⟨3, ![8, 4096, 3]⟩
abbrev S8x192x1024 : Shape := ⟨3, ![8, 192, 1024]⟩
abbrev S_ : Shape := ⟨0, ![]⟩
abbrev S8x4096 : Shape := ⟨2, ![8, 4096]⟩
abbrev S8x256x3 : Shape := ⟨3, ![8, 256, 3]⟩
abbrev S8x256 : Shape := ⟨2, ![8, 256]⟩
abbrev S8x256x1 : Shape := ⟨3, ![8, 256, 1]⟩
abbrev S8x256x256 : Shape := ⟨3, ![8, 256, 256]⟩
abbrev S8x1x256 : Shape := ⟨3, ![8, 1, 256]⟩
abbrev S8 : Shape := ⟨1, ![8]⟩

abbrev nBuf : Space → Nat
  | .hbm => 35
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x192x1024, .f32⟩
  | .hbm, ⟨3, _⟩ => ⟨S8x192x1024, .f32⟩
  | .hbm, ⟨4, _⟩ => ⟨S_, .f32⟩
  | .hbm, ⟨5, _⟩ => ⟨S_, .f32⟩
  | .hbm, ⟨6, _⟩ => ⟨S8x192x1024, .f32⟩
  | .hbm, ⟨7, _⟩ => ⟨S8x192x1024, .f32⟩
  | .hbm, ⟨8, _⟩ => ⟨S8x192x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S8x256x3, .f32⟩
  | .local _ .vmem, ⟨1, _⟩ => ⟨S8x256x3, .f32⟩
  | .local _ .vmem, ⟨2, _⟩ => ⟨S8x256x3, .f32⟩
  | .local _ .vmem, ⟨3, _⟩ => ⟨S8x256x3, .f32⟩
  | .local _ .vmem, ⟨4, _⟩ => ⟨S8x256, .f32⟩
  | .local _ .vmem, ⟨5, _⟩ => ⟨S8x256, .f32⟩
  | .local _ .vmem, ⟨6, _⟩ => ⟨S8x4096, .f32⟩
  | .local _ .vmem, ⟨7, _⟩ => ⟨S8x256, .f32⟩
  | .local _ .vmem, ⟨8, _⟩ => ⟨S8x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_cst_8 : Ref sig .tc := ⟨.hbm, 30, rfl⟩
abbrev main_v17 : Ref sig .tc := ⟨.hbm, 31, rfl⟩
abbrev main_cst_9 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c256_i32 : BitVec 32 := 256#32
  let v33 : BitVec 32 := Scalar.muli arg1 c256_i32
  v33
def k0_off1 (i : grid0.Coords) : Fin 2 → Nat :=
  let c0_18 : Index := 0#32
  let arg1 : BitVec 32 := BitVec.ofNat 32 (i 1).val
  let c256_i32 : BitVec 32 := 256#32
  let v33 : BitVec 32 := Scalar.muli arg1 c256_i32
  let v34 : BitVec 32 := v33
  let v35 : Index := Scalar.indexCast v34
  ![0, v35.toNat]
def k0_cond3 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_14 : BitVec 32 := 0#32
  let v27 : BitVec 1 := Scalar.cmpi .ne v26 c0_i32_14
  v27

def k0_cond5 (i : grid0.Coords) : BitVec 1 :=
  let arg0 : BitVec 32 := BitVec.ofNat 32 (i 0).val
  let c15_i32_20 : BitVec 32 := 15#32
  let v42 : BitVec 1 := Scalar.cmpi .eq arg0 c15_i32_20
  let arg1 : BitVec 32 := BitVec.ofNat 32 (i 1).val
  let c15_i32_21 : BitVec 32 := 15#32
  let v43 : BitVec 1 := Scalar.cmpi .eq arg1 c15_i32_21
  let v44 : BitVec 1 := Scalar.andi v42 v43
  let v45 : BitVec 32 := Scalar.extui v44
  let c0_i32_22 : BitVec 32 := 0#32
  let v46 : BitVec 1 := Scalar.cmpi .ne v45 c0_i32_22
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  bcast_S_S8x192x1024 : S_.BroadcastsInDim S8x192x1024 (![] : Fin 0 → Fin S8x192x1024.rank)
  reducesTo_S8x192x1024_S_d0_1_2 : S8x192x1024.ReducesTo [0, 1, 2] S_
  h_S_ : 0 < S_.numel
  inb_S8x256x3_S8x256x3_0_0_0 : ∀ a, (![0, 0, 0] : Fin 3 → Nat) a + S8x256x3.size a ≤ S8x256x3.size a
  h_S8x256x3 : 0 < S8x256x3.numel
  reduces_S8x256x3_S8x256 : S8x256x3.Reduces [2] S8x256
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  reduces_S8x256x256_S8x256 : S8x256x256.Reduces [2] S8x256
  reduces_S8x256x256_S8x256_2 : S8x256x256.Reduces [1] S8x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x256x3_S8x256x3_S8x256x256_2_2_1_1_0_0_wf : DotDims.WF S8x256x3 S8x256x3 S8x256x256 [2] [2] [1] [1] [0] [0]
  hrank0 : 0 < grid0.rank
  k0_mult1_dvd : ∀ i : grid0.Coords, 128 ∣ (k0_mult1 i).toNat
  k0_off1_inb : ∀ i : grid0.Coords, ∀ a, (k0_off1 i) a + S8x256.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x3.size a ≤ S8x4096x3.size a
  hwx0_0 : ∀ i : grid0.Coords, EltTy.bits .f32 = 32 ∨ (Rect.block (s := S8x4096x3) S8x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x3.size a ≤ S8x4096x3.size a
  hwx0_1 : ∀ i : grid0.Coords, EltTy.bits .f32 = 32 ∨ (Rect.block (s := S8x4096x3) S8x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x4096.size a
  hwx0_2 : ∀ i : grid0.Coords, EltTy.bits .f32 = 32 ∨ (Rect.block (s := S8x4096) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S8x4096.size a
  hwx0_3 : ∀ i : grid0.Coords, EltTy.bits .f32 = 32 ∨ (Rect.block (s := S8x4096) S8x4096.size (cc0_transform_3 i) (hinb0_3 i)).WholeWords (EltTy.packing .f32)

variable [Facts₀]

def dot_S8x256x3_S8x256x3_S8x256x256_2_2_1_1_0_0 : DotDims S8x256x3 S8x256x3 S8x256x256 where
  lhsContracting := [2]
  rhsContracting := [2]
  lhsNonContracting := [1]
  rhsNonContracting := [1]
  lhsBatch := [0]
  rhsBatch := [0]
  wf := dot_S8x256x3_S8x256x3_S8x256x256_2_2_1_1_0_0_wf

abbrev win0_0 : Pipeline.Window sig grid0 :=
  Pipeline.Window.ofSpec (Memref.whole main_arg0) S8x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S8x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond5 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x192x1024 : Shape := ⟨3, ![8, 192, 1024]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x192x1024, .f32⟩
  | .hbm, ⟨3, _⟩ => ⟨S8x192x1024, .f32⟩
  | .hbm, ⟨4, _⟩ => ⟨S_, .f32⟩
  | .hbm, ⟨5, _⟩ => ⟨S_, .f32⟩
  | .hbm, ⟨6, _⟩ => ⟨S8x192x1024, .f32⟩
  | .hbm, ⟨7, _⟩ => ⟨S8x192x1024, .f32⟩
  | .hbm, ⟨8, _⟩ => ⟨S8x192x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x4096x3, .f32⟩
  | .hbm, ⟨14, _⟩ => ⟨S_, .f32⟩
  | .hbm, ⟨15, _⟩ => ⟨S8x4096, .f32⟩
  | .hbm, ⟨16, _⟩ => ⟨S8x4096x3, .f32⟩
  | .hbm, ⟨17, _⟩ => ⟨S_, .f32⟩
  | .hbm, ⟨18, _⟩ => ⟨S8x4096, .f32⟩
  | .hbm, ⟨19, _⟩ => ⟨S8x4096x4096, .f32⟩
  | .hbm, ⟨20, _⟩ => ⟨S8x4096x1, .f32⟩
  | .hbm, ⟨21, _⟩ => ⟨S8x1x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_cst_11 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_12 : Ref sig .tc := ⟨.hbm, 47, rfl⟩
abbrev main_v31 : Ref sig .tc := ⟨.hbm, 48, rfl⟩
abbrev main_cst_13 : Ref sig .tc := ⟨.hbm, 49, rfl⟩
abbrev main_v32 : Ref sig .tc := ⟨.hbm, 50, rfl⟩
abbrev main_cst_14 : Ref sig .tc := ⟨.hbm, 51, rfl⟩
abbrev main_v33 : Ref sig .tc := ⟨.hbm, 52, rfl⟩
abbrev main_cst_15 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  bcast_S_S8x192x1024 : S_.BroadcastsInDim S8x192x1024 (![] : Fin 0 → Fin S8x192x1024.rank)
  reducesTo_S8x192x1024_S_d0_1_2 : S8x192x1024.ReducesTo [0, 1, 2] S_
  h_S_ : 0 < S_.numel
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Kernel.Cases.lean ====
/-
  The grid of the fused nearest-neighbour kernel is 16 row tiles by 16 column tiles, walked row-major: point
  t is row tile t / 16 and column tile t % 16. The body branches five times on the coordinates:
  on the first column tile of a row (the running row minimum is started), on the other column tiles (it is
  lowered), on the last column tile (it is written out), at the very first point (the running column minimum
  is filled with +inf) and at the very last (it is written out). This module states the five conditions as
  the body computes them, decides each over the 256 points in closed form, says where the two result windows
  are idle, and opens the region's invariant to the two scratch arrays the body carries between points.
-/
import proofs.«130830_j11184094838808_2_alg».proof.Proof.Gen.Kernel.Frame
import proofs.«130830_j11184094838808_2_alg».proof.Proof.Gen.Kernel.Skeleton

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The five branch conditions, as the body computes them from the coordinates -/

/-- The column tile is the first of its row. -/
abbrev firstCol (i : grid0.Coords) : Prop :=
  (Scalar.cmpi .ne (Scalar.extui (Scalar.cmpi .eq (BitVec.ofNat 32 (i 1).val) 0#32)) 0#32) = 1#1
/-- The column tile is not the first of its row. -/
abbrev laterCol (i : grid0.Coords) : Prop :=
  (Scalar.cmpi .ne (Scalar.extui (Scalar.cmpi .ne (BitVec.ofNat 32 (i 1).val) 0#32)) 0#32) = 1#1
/-- The column tile is the last of its row. -/
abbrev lastCol (i : grid0.Coords) : Prop := k0_cond3 i = 1#1
/-- The point is the first of the grid. -/
abbrev firstPoint (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The point is the last of the grid. -/
abbrev lastPoint (i : grid0.Coords) : Prop := k0_cond5 i = 1#1

theorem firstCol_iff : ∀ t : Fin cfg0.N, firstCol (grid0.coords t) ↔ t.val % 16 = 0 :=
  (by decide +kernel : ∀ t : Fin grid0.N, firstCol (grid0.coords t) ↔ t.val % 16 = 0)
theorem laterCol_iff : ∀ t : Fin cfg0.N, laterCol (grid0.coords t) ↔ t.val % 16 ≠ 0 :=
  (by decide +kernel : ∀ t : Fin grid0.N, laterCol (grid0.coords t) ↔ t.val % 16 ≠ 0)
theorem lastCol_iff : ∀ t : Fin cfg0.N, lastCol (grid0.coords t) ↔ t.val % 16 = 15 :=
  (by decide +kernel : ∀ t : Fin grid0.N, lastCol (grid0.coords t) ↔ t.val % 16 = 15)
theorem firstPoint_iff : ∀ t : Fin cfg0.N, firstPoint (grid0.coords t) ↔ t.val = 0 :=
  (by decide +kernel : ∀ t : Fin grid0.N, firstPoint (grid0.coords t) ↔ t.val = 0)
theorem lastPoint_iff : ∀ t : Fin cfg0.N, lastPoint (grid0.coords t) ↔ t.val = 255 :=
  (by decide +kernel : ∀ t : Fin grid0.N, lastPoint (grid0.coords t) ↔ t.val = 255)

/-! ## Where the windows are idle and where they are written back -/

/-- The two input windows are never idle. -/
theorem live_0 : ∀ t : Fin cfg0.N, cfg0.idle 0 (grid0.coords t) = false := by decide +kernel
theorem live_1 : ∀ t : Fin cfg0.N, cfg0.idle 1 (grid0.coords t) = false := by decide +kernel
/-- The row-minimum window is stored on the last column tile only, and written back exactly there. -/
theorem idle_2 : ∀ t : Fin cfg0.N, ¬ t.val % 16 = 15 → cfg0.idle 2 (grid0.coords t) = true := by decide +kernel
theorem live_2 : ∀ t : Fin cfg0.N, t.val % 16 = 15 → cfg0.idle 2 (grid0.coords t) = false := by decide +kernel
theorem noFlush_2 : ∀ t : Fin cfg0.N, ¬ t.val % 16 = 15 → (cfg0.win 2).flush t = false := by decide +kernel
/-- The column-minimum window is stored at the last point only, and written back exactly there. -/
theorem idle_3 : ∀ t : Fin cfg0.N, ¬ t.val = 255 → cfg0.idle 3 (grid0.coords t) = true := by decide +kernel
theorem live_3 : ∀ t : Fin cfg0.N, t.val = 255 → cfg0.idle 3 (grid0.coords t) = false := by decide +kernel
theorem noFlush_3 : ∀ t : Fin cfg0.N, ¬ t.val = 255 → (cfg0.win 3).flush t = false := by decide +kernel

/-! ## The memrefs the body is called with -/

abbrev ms0 (t : Fin cfg0.N) : Memref sig .tc .vmem S8x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x4096 .f32 := win0_3.stage (cfg0.slots t 3)
abbrev hs3 (t : Fin cfg0.N) : (ms3 t).IsWhole := hstage0_3 ((cfg0.slots t 3).cast nbuf0_3)
/-- The running row minimum of the current row tile: one value per batch and row of the tile. -/
abbrev rowAcc : Memref sig .tc .vmem S8x256 .f32 := Memref.whole cc0_scratch0
/-- The running column minimum: one value per batch and column of the whole array. -/
abbrev colAcc : Memref sig .tc .vmem S8x4096 .f32 := Memref.whole cc0_scratch1
/-- Views through which the contents of the result windows and of the two scratch arrays are stated. -/
abbrev VO2 : View sig .tc .vmem S8x256 .f32 := (Memref.whole cc0_stg2_0 : Memref sig .tc .vmem S8x256 .f32).view
abbrev VO3 : View sig .tc .vmem S8x4096 .f32 := (Memref.whole cc0_stg3_0 : Memref sig .tc .vmem S8x4096 .f32).view
abbrev VR : View sig .tc .vmem S8x256 .f32 := rowAcc.view
abbrev VC : View sig .tc .vmem S8x4096 .f32 := colAcc.view

/-- What the region holds beside its windows: the two scratch arrays at some contents and the generator register. -/
theorem PhiA_eq (c : Dev nD) :
    (Pipeline.ΦA spec0 c : sProp 𝕄)
      = iprop(iprop((∃ d, owns (c : Thread nD τ) rowAcc fullShare d) ∗ (∃ d, owns (c : Thread nD τ) colAcc fullShare d)) ∗ (∃ r, prngReg c r)) := by
  unfold Pipeline.ΦA; rw [scopedRest0_eq]; simp only [rowAcc, colAcc, owns_whole]; try rfl

end Cert.Kernel.Tile

end
-- ==== Proof.Kernel.RunFirst.lean ====
/-
  The body at the first point of the grid: the running row minimum is started from this tile's row minima,
  the running column minimum is filled with +inf everywhere and then lowered, under this column tile, by this
  tile's column minima; neither result window is touched. Nothing is read of what the scratch arrays held.
-/
import proofs.«130830_j11184094838808_2_alg».proof.Proof.Kernel.Cases

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the two scratch arrays at the first point, with the run: both scratch arrays may hold anything before, and end overwritten by the pieces. -/
noncomputable def runFirst (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (arg6 : Memref sig .tc .vmem S8x256 .f32) (harg6 : arg6.IsWhole) (arg7 : Memref sig .tc .vmem S8x4096 .f32) (harg7 : arg7.IsWhole)
    (h1 : firstCol i) (h2 : ¬laterCol i) (h3 : ¬lastCol i) (h4 : firstPoint i) (h5 : ¬lastPoint i)
    (x0 x1 : Vec F S8x256x3 .f32) :
    Σ' (LR : List (View.Piece (Elt F) S8x256 .f32)), { LC : List (View.Piece (Elt F) S8x4096 .f32) //
      ∀ (xi2 : Vec F S8x256 .f32) (xi3 : Vec F S8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ owns (c : Thread nD τ) arg5 fullShare xi3
                ∗ (∃ f, arg6.view.loc (c : Thread nD τ) ↦[arg6.view.set]{fullShare} arg6.view.writes (Elt F) f LR)
                ∗ (∃ f, arg7.view.loc (c : Thread nD τ) ↦[arg7.view.set]{fullShare} arg7.view.writes (Elt F) f LC)) -∗ K ⟨⟩))
          ⊢ wp frame (wpE (defs₀ (F := F)) Variants.none c none) E (cc0__fused_min_kernel i arg2 harg2 arg3 harg3 arg4 harg4 arg5 harg5 arg6 harg6 arg7 harg7) K } := by
  refine ⟨?_, ?_, fun xi2 xi3 E K => ?run⟩
  case run =>
    simp only [cc0__fused_min_kernel_eq_skeleton]; unfold cc0__fused_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact h1 | exact h2 | exact h3 | exact h4 | exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Tile

end
-- ==== Proof.Kernel.RunMid.lean ====
/-
  The body at a point in the middle of a row of the grid (neither the first nor the last column tile): the
  running row minimum is lowered by this tile's row minima, the slice of the running column minimum under
  this column tile is lowered by this tile's column minima, and neither result window is touched.
-/
import proofs.«130830_j11184094838808_2_alg».proof.Proof.Kernel.Cases

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the two scratch arrays at a middle point, with the run: from the two
    input tiles at `x0`, `x1`, the result windows at any contents (handed back as found) and the scratch arrays
    at `xs0`, `xs1`, the body ends with the scratch arrays at their former contents overwritten by the pieces. -/
noncomputable def runMid (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (arg6 : Memref sig .tc .vmem S8x256 .f32) (harg6 : arg6.IsWhole) (arg7 : Memref sig .tc .vmem S8x4096 .f32) (harg7 : arg7.IsWhole)
    (h1 : ¬firstCol i) (h2 : laterCol i) (h3 : ¬lastCol i) (h4 : ¬firstPoint i) (h5 : ¬lastPoint i)
    (x0 x1 : Vec F S8x256x3 .f32) (xs0 : Vec F S8x256 .f32) (xs1 : Vec F S8x4096 .f32) :
    Σ' (LR : List (View.Piece (Elt F) S8x256 .f32)), { LC : List (View.Piece (Elt F) S8x4096 .f32) //
      ∀ (xi2 : Vec F S8x256 .f32) (xi3 : Vec F S8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (arg6.view.loc (c : Thread nD τ) ↦[arg6.view.set]{fullShare} arg6.view.writes (Elt F) (harg6.unread xs0) LR)
                ∗ (arg7.view.loc (c : Thread nD τ) ↦[arg7.view.set]{fullShare} arg7.view.writes (Elt F) (harg7.unread xs1) LC)) -∗ K ⟨⟩))
          ⊢ wp frame (wpE (defs₀ (F := F)) Variants.none c none) E (cc0__fused_min_kernel i arg2 harg2 arg3 harg3 arg4 harg4 arg5 harg5 arg6 harg6 arg7 harg7) K } := by
  refine ⟨?_, ?_, fun xi2 xi3 E K => ?run⟩
  case run =>
    simp only [cc0__fused_min_kernel_eq_skeleton]; unfold cc0__fused_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact h1 | exact h2 | exact h3 | exact h4 | exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexact HS0
    iexact HS1

end Cert.Kernel.Tile

end
-- ==== Proof.Kernel.RunRowStart.lean ====
/-
  The body at the first column tile of a row other than the first: the running row minimum is started
  afresh from this tile's row minima (what it held is not read), the slice of the running column minimum under
  this column tile is lowered by this tile's column minima; neither result window is touched.
-/
import proofs.«130830_j11184094838808_2_alg».proof.Proof.Kernel.Cases

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the two scratch arrays at the start of a later row, with the run: the row scratch may hold anything before, the column scratch holds `xs1`. -/
noncomputable def runRowStart (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (arg6 : Memref sig .tc .vmem S8x256 .f32) (harg6 : arg6.IsWhole) (arg7 : Memref sig .tc .vmem S8x4096 .f32) (harg7 : arg7.IsWhole)
    (h1 : firstCol i) (h2 : ¬laterCol i) (h3 : ¬lastCol i) (h4 : ¬firstPoint i) (h5 : ¬lastPoint i)
    (x0 x1 : Vec F S8x256x3 .f32) (xs1 : Vec F S8x4096 .f32) :
    Σ' (LR : List (View.Piece (Elt F) S8x256 .f32)), { LC : List (View.Piece (Elt F) S8x4096 .f32) //
      ∀ (xi2 : Vec F S8x256 .f32) (xi3 : Vec F S8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ owns (c : Thread nD τ) arg7 fullShare xs1
            ∗ (iprop(owns (c : Thread nD τ) arg2 fullShare x0 ∗ owns (c : Thread nD τ) arg3 fullShare x1 ∗ owns (c : Thread nD τ) arg4 fullShare xi2
                ∗ owns (c : Thread nD τ) arg5 fullShare xi3
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs1) LC)) -∗ K ⟨⟩))
          ⊢ wp frame (wpE (defs₀ (F := F)) Variants.none c none) E (cc0__fused_min_kernel i arg2 harg2 arg3 harg3 arg4 harg4 arg5 harg5 arg6 harg6 arg7 harg7) K } := by
  refine ⟨?_, ?_, fun xi2 xi3 E K => ?run⟩
  case run =>
    simp only [cc0__fused_min_kernel_eq_skeleton]; unfold cc0__fused_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%fs1, %hfs1, HS1⟩, Hk⟩
    obtain rfl := harg2.eq_unread hf0; obtain rfl := harg3.eq_unread hf1
    obtain rfl := harg4.eq_unread hf2; obtain rfl := harg5.eq_unread hf3; obtain rfl := harg7.eq_unread hfs1
    sl_exec (disch := first | exact h1 | exact h2 | exact h3 | exact h4 | exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexact HS1

end Cert.Kernel.Tile

end
-- ==== Proof.Kernel.RunRowEnd.lean ====
/-
  The body at the last column tile of a row other than the last: the running row minimum is lowered by this
  tile's row minima and copied into the row-minimum window, the slice of the running column minimum under this
  column tile is lowered by this tile's column minima; the column-minimum window is not touched.
-/
import proofs.«130830_j11184094838808_2_alg».proof.Proof.Kernel.Cases

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the row-minimum window and in the two scratch arrays at the end of a row, with the run: the window may hold anything before, the scratch arrays hold `xs0`, `xs1`. -/
noncomputable def runRowEnd (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (arg6 : Memref sig .tc .vmem S8x256 .f32) (harg6 : arg6.IsWhole) (arg7 : Memref sig .tc .vmem S8x4096 .f32) (harg7 : arg7.IsWhole)
    (h1 : ¬firstCol i) (h2 : laterCol i) (h3 : lastCol i) (h4 : ¬firstPoint i) (h5 : ¬lastPoint i)
    (x0 x1 : Vec F S8x256x3 .f32) (xs0 : Vec F S8x256 .f32) (xs1 : Vec F S8x4096 .f32) :
    Σ' (L2 : List (View.Piece (Elt F) S8x256 .f32)) (LR : List (View.Piece (Elt F) S8x256 .f32)), { LC : List (View.Piece (Elt F) S8x4096 .f32) //
      ∀ (xi3 : Vec F S8x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ owns (c : Thread nD τ) arg5 fullShare xi3
                ∗ (arg6.view.loc (c : Thread nD τ) ↦[arg6.view.set]{fullShare} arg6.view.writes (Elt F) (harg6.unread xs0) LR)
                ∗ (arg7.view.loc (c : Thread nD τ) ↦[arg7.view.set]{fullShare} arg7.view.writes (Elt F) (harg7.unread xs1) LC)) -∗ K ⟨⟩))
          ⊢ wp frame (wpE (defs₀ (F := F)) Variants.none c none) E (cc0__fused_min_kernel i arg2 harg2 arg3 harg3 arg4 harg4 arg5 harg5 arg6 harg6 arg7 harg7) K } := by
  refine ⟨?_, ?_, ?_, fun xi3 E K => ?run⟩
  case run =>
    simp only [cc0__fused_min_kernel_eq_skeleton]; unfold cc0__fused_min_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg5.eq_unread hf3; obtain rfl := harg6.eq_unread hfs0; obtain rfl := harg7.eq_unread hfs1
    sl_exec (disch := first | exact h1 | exact h2 | exact h3 | exact h4 | exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [HS0]; · iexact HS0
    iexact HS1

end Cert.Kernel.Tile

end
-- ==== Proof.Kernel.RunLast.lean ====
/-
  The body at the last point of the grid: the running row minimum is lowered by this tile's row minima and
  copied into the row-minimum window, the slice of the running column minimum under this column tile is lowered
  by this tile's column minima, and the whole running column minimum is copied into the column-minimum window.
-/
import proofs.«130830_j11184094838808_2_alg».proof.Proof.Kernel.Cases

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the two result windows and in the two scratch arrays at the last point, with the run: the windows may hold anything before, the scratch arrays hold `xs0`, `xs1`. -/
noncomputable def runLast (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (arg6 : Memref sig .tc .vmem S8x256 .f32) (harg6 : arg6.IsWhole) (arg7 : Memref sig .tc .vmem S8x4096 .f32) (harg7 : arg7.IsWhole)
    (h1 : ¬firstCol i) (h2 : laterCol i) (h3 : lastCol i) (h4 : ¬firstPoint i) (h5 : lastPoint i)
    (x0 x1 : Vec F S8x256x3 .f32) (xs0 : Vec F S8x256 .f32) (xs1 : Vec F S8x4096 .f32) :
    Σ' (L2 : List (View.Piece (Elt F) S8x256 .f32)) (L3 : List (View.Piece (Elt F) S8x4096 .f32)) (LR : List (View.Piece (Elt F) S8x256 .f32)), { LC : List (View.Piece (Elt F) S8x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (arg6.view.loc (c : Thread nD τ) ↦[arg6.view.set]{fullShare} arg6.view.writes (Elt F) (harg6.unread xs0) LR)
                ∗ (arg7.view.loc (c : Thread nD τ) ↦[arg7.view.set]{fullShare} arg7.view.writes (Elt F) (harg7.unread xs1) LC)) -∗ K ⟨⟩))
          ⊢ wp frame (wpE (defs₀ (F := F)) Variants.none c none) E (cc0__fused_min_kernel i arg2 harg2 arg3 harg3 arg4 harg4 arg5 harg5 arg6 harg6 arg7 harg7) K } := by
  refine ⟨?_, ?_, ?_, ?_, fun E K => ?run⟩
  case run =>
    simp only [cc0__fused_min_kernel_eq_skeleton]; unfold cc0__fused_min_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact h1 | exact h2 | exact h3 | exact h4 | exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexact HS0
    iexact HS1

end Cert.Kernel.Tile

end
-- ==== Proof.Kernel.Carry.lean ====
/-
  What the kernel carries from grid point to grid point, and its frame. After every point the two scratch
  arrays hold definite contents: the running row minimum of the current row tile over the column tiles walked
  so far, and the running column minimum over all the tiles walked so far. This module names, case by case,
  what a point leaves in the scratch arrays and in the result windows (the pieces the runs found, read back),
  folds that along the 256 points, states the region's invariant over the fold, and discharges the body's
  obligation at every point; the launch theorem then gives the run of the whole program, and its frame.
-/
import proofs.«130830_j11184094838808_2_alg».proof.Proof.Kernel.RunFirst
import proofs.«130830_j11184094838808_2_alg».proof.Proof.Kernel.RunMid
import proofs.«130830_j11184094838808_2_alg».proof.Proof.Kernel.RunRowStart
import proofs.«130830_j11184094838808_2_alg».proof.Proof.Kernel.RunRowEnd
import proofs.«130830_j11184094838808_2_alg».proof.Proof.Kernel.RunLast

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Whole-buffer evidence for the two scratch arrays. -/
abbrev hRow : (rowAcc : Memref sig .tc .vmem S8x256 .f32).IsWhole := Memref.isWhole_whole _
abbrev hCol : (colAcc : Memref sig .tc .vmem S8x4096 .f32).IsWhole := Memref.isWhole_whole _

/-- Contents nothing reads: what a result window is said to hold at a point that leaves it idle. -/
def idleRowWin : Vec F S8x256 .f32 := VO2.read (Elt F) VO2.junk
def idleColWin : Vec F S8x4096 .f32 := VO3.read (Elt F) VO3.junk

/-! ## The five runs at a grid point, on the memrefs the pipeline passes there -/

abbrev firstAt (c : Dev nD) (t : Fin cfg0.N) (hz : t.val = 0) :=
  runFirst (F := F) c (grid0.coords t) (ms0 t) (hs0 t) (ms1 t) (hs1 t) (ms2 t) (hs2 t) (ms3 t) (hs3 t) rowAcc (Memref.isWhole_whole _) colAcc (Memref.isWhole_whole _) ((firstCol_iff t).mpr (by omega)) (fun h => (laterCol_iff t).mp h (by omega)) (fun h => absurd ((lastCol_iff t).mp h) (by omega)) ((firstPoint_iff t).mpr hz) (fun h => absurd ((lastPoint_iff t).mp h) (by omega)) (iblk m c 0 t) (iblk m c 1 t)
abbrev rowStartAt (c : Dev nD) (t : Fin cfg0.N) (hz : ¬t.val = 0) (h0 : t.val % 16 = 0) (xs1 : Vec F S8x4096 .f32) :=
  runRowStart (F := F) c (grid0.coords t) (ms0 t) (hs0 t) (ms1 t) (hs1 t) (ms2 t) (hs2 t) (ms3 t) (hs3 t) rowAcc (Memref.isWhole_whole _) colAcc (Memref.isWhole_whole _) ((firstCol_iff t).mpr h0) (fun h => (laterCol_iff t).mp h h0) (fun h => absurd ((lastCol_iff t).mp h) (by omega)) (fun h => hz ((firstPoint_iff t).mp h)) (fun h => absurd ((lastPoint_iff t).mp h) (by omega)) (iblk m c 0 t) (iblk m c 1 t) xs1
abbrev midAt (c : Dev nD) (t : Fin cfg0.N) (h0 : ¬t.val % 16 = 0) (h15 : ¬t.val % 16 = 15) (xs0 : Vec F S8x256 .f32) (xs1 : Vec F S8x4096 .f32) :=
  runMid (F := F) c (grid0.coords t) (ms0 t) (hs0 t) (ms1 t) (hs1 t) (ms2 t) (hs2 t) (ms3 t) (hs3 t) rowAcc (Memref.isWhole_whole _) colAcc (Memref.isWhole_whole _) (fun h => h0 ((firstCol_iff t).mp h)) ((laterCol_iff t).mpr h0) (fun h => h15 ((lastCol_iff t).mp h)) (fun h => absurd ((firstPoint_iff t).mp h) (by omega)) (fun h => absurd ((lastPoint_iff t).mp h) (by omega)) (iblk m c 0 t) (iblk m c 1 t) xs0 xs1
abbrev rowEndAt (c : Dev nD) (t : Fin cfg0.N) (h15 : t.val % 16 = 15) (hl : ¬t.val = 255) (xs0 : Vec F S8x256 .f32) (xs1 : Vec F S8x4096 .f32) :=
  runRowEnd (F := F) c (grid0.coords t) (ms0 t) (hs0 t) (ms1 t) (hs1 t) (ms2 t) (hs2 t) (ms3 t) (hs3 t) rowAcc (Memref.isWhole_whole _) colAcc (Memref.isWhole_whole _) (fun h => absurd ((firstCol_iff t).mp h) (by omega)) ((laterCol_iff t).mpr (by omega)) ((lastCol_iff t).mpr h15) (fun h => absurd ((firstPoint_iff t).mp h) (by omega)) (fun h => hl ((lastPoint_iff t).mp h)) (iblk m c 0 t) (iblk m c 1 t) xs0 xs1
abbrev lastAt (c : Dev nD) (t : Fin cfg0.N) (hl : t.val = 255) (xs0 : Vec F S8x256 .f32) (xs1 : Vec F S8x4096 .f32) :=
  runLast (F := F) c (grid0.coords t) (ms0 t) (hs0 t) (ms1 t) (hs1 t) (ms2 t) (hs2 t) (ms3 t) (hs3 t) rowAcc (Memref.isWhole_whole _) colAcc (Memref.isWhole_whole _) (fun h => absurd ((firstCol_iff t).mp h) (by omega)) ((laterCol_iff t).mpr (by omega)) ((lastCol_iff t).mpr (by omega)) (fun h => absurd ((firstPoint_iff t).mp h) (by omega)) ((lastPoint_iff t).mpr hl) (iblk m c 0 t) (iblk m c 1 t) xs0 xs1

/-! ## What one point leaves: the row-minimum window, the column-minimum window, the two scratch arrays -/

/-- The four contents after the body at point `t`, from what the scratch arrays held before it (`xs0`, `xs1`;
    not read at the first point, `xs0` not read on the first column tile of a row). A window the point leaves
    idle is given contents nothing reads. -/
def step (c : Dev nD) (t : Fin cfg0.N) (xs0 : Vec F S8x256 .f32) (xs1 : Vec F S8x4096 .f32) :
    Vec F S8x256 .f32 × Vec F S8x4096 .f32 × Vec F S8x256 .f32 × Vec F S8x4096 .f32 :=
  if hz : t.val = 0 then
    (idleRowWin, idleColWin,
      VR.read (Elt F) (VR.writes (Elt F) VR.junk (firstAt m c t hz).1),
      VC.read (Elt F) (VC.writes (Elt F) VC.junk (firstAt m c t hz).2.1))
  else if h0 : t.val % 16 = 0 then
    (idleRowWin, idleColWin,
      VR.read (Elt F) (VR.writes (Elt F) VR.junk (rowStartAt m c t hz h0 xs1).1),
      VC.read (Elt F) (VC.writes (Elt F) (hCol.unread xs1) (rowStartAt m c t hz h0 xs1).2.1))
  else if h15 : t.val % 16 = 15 then
    if hl : t.val = 255 then
      (VO2.read (Elt F) (VO2.writes (Elt F) VO2.junk (lastAt m c t hl xs0 xs1).1),
        VO3.read (Elt F) (VO3.writes (Elt F) VO3.junk (lastAt m c t hl xs0 xs1).2.1),
        VR.read (Elt F) (VR.writes (Elt F) (hRow.unread xs0) (lastAt m c t hl xs0 xs1).2.2.1),
        VC.read (Elt F) (VC.writes (Elt F) (hCol.unread xs1) (lastAt m c t hl xs0 xs1).2.2.2.1))
    else
      (VO2.read (Elt F) (VO2.writes (Elt F) VO2.junk (rowEndAt m c t h15 hl xs0 xs1).1), idleColWin,
        VR.read (Elt F) (VR.writes (Elt F) (hRow.unread xs0) (rowEndAt m c t h15 hl xs0 xs1).2.1),
        VC.read (Elt F) (VC.writes (Elt F) (hCol.unread xs1) (rowEndAt m c t h15 hl xs0 xs1).2.2.1))
  else
    (idleRowWin, idleColWin,
      VR.read (Elt F) (VR.writes (Elt F) (hRow.unread xs0) (midAt m c t h0 h15 xs0 xs1).1),
      VC.read (Elt F) (VC.writes (Elt F) (hCol.unread xs1) (midAt m c t h0 h15 xs0 xs1).2.1))

/-- THE FOLD: the four contents after the body at position `n`, each point run over what the point before left
    in the scratch arrays. -/
def outsAt (c : Dev nD) : (n : ℕ) → n < cfg0.N →
    Vec F S8x256 .f32 × Vec F S8x4096 .f32 × Vec F S8x256 .f32 × Vec F S8x4096 .f32
  | 0, hn => step m c ⟨0, hn⟩ idleRowWin idleColWin
  | n + 1, hn => step m c ⟨n + 1, hn⟩ (outsAt c n (Nat.lt_of_succ_lt hn)).2.2.1 (outsAt c n (Nat.lt_of_succ_lt hn)).2.2.2

/-- The fold at a point after the first: one step over the point before. -/
theorem outsAt_pos (c : Dev nD) (t : Fin cfg0.N) (hz : ¬t.val = 0) :
    outsAt m c t.val t.isLt = step m c t (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd rfl hz
  | succ n => rfl

/-- The fold at the first point: the step that reads nothing of the scratch arrays. -/
theorem outsAt_zero (c : Dev nD) (t : Fin cfg0.N) (hz : t.val = 0) :
    outsAt m c t.val t.isLt = step m c t idleRowWin idleColWin := by
  obtain ⟨n, hn⟩ := t
  cases n with
  | zero => rfl
  | succ n => exact absurd hz (Nat.succ_ne_zero n)

/-! ## The region's invariant -/

/-- Before position `n`: at the first point the scratch arrays hold anything; afterwards what the point before
    left in them. The generator register is at some state throughout. -/
def PhiS (c : Dev nD) : (n : ℕ) → n ≤ cfg0.N → sProp 𝕄
  | 0, _ => Pipeline.ΦA spec0 c
  | n + 1, hn => iprop(iprop(owns (c : Thread nD τ) rowAcc fullShare (outsAt m c n hn).2.2.1
      ∗ owns (c : Thread nD τ) colAcc fullShare (outsAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) rowAcc fullShare (outsAt m c n hn).2.2.1
      ∗ owns (c : Thread nD τ) colAcc fullShare (outsAt m c n hn).2.2.2) ∗ (∃ r, prngReg c r)) := rfl

theorem PhiS_pos (c : Dev nD) (n : ℕ) (h : n ≤ cfg0.N) (hz : n ≠ 0) :
    PhiS m c n h = iprop(iprop(owns (c : Thread nD τ) rowAcc fullShare (outsAt m c (n - 1) (by omega)).2.2.1
      ∗ owns (c : Thread nD τ) colAcc fullShare (outsAt m c (n - 1) (by omega)).2.2.2) ∗ (∃ r, prngReg c r)) := by
  cases n with
  | zero => exact absurd rfl hz
  | succ n => rfl

/-! ## The pipeline's proof data -/

/-- On core `c`: the arrays as the region finds them; after the body each input window at its block, each
    result window at the fold's component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]

/-- Each input window's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  unfold Dat.leavesExact; rw [live_0 t, after_0]
theorem leaves_1 (c : Dev nD) (t : Fin cfg0.N) :
    (dats m 0 c).leavesExact 1 t = owns (c : Thread nD τ) (ms1 t) fullShare (iblk m c 1 t) := by
  unfold Dat.leavesExact; rw [live_1 t, after_1]
theorem leaves_2 (c : Dev nD) (t : Fin cfg0.N) (h15 : t.val % 16 = 15) :
    (dats m 0 c).leavesExact 2 t = owns (c : Thread nD τ) (ms2 t) fullShare (outsAt m c t.val t.isLt).1 := by
  unfold Dat.leavesExact; rw [live_2 t h15, after_2]
theorem leaves_3 (c : Dev nD) (t : Fin cfg0.N) (hl : t.val = 255) :
    (dats m 0 c).leavesExact 3 t = owns (c : Thread nD τ) (ms3 t) fullShare (outsAt m c t.val t.isLt).2.1 := by
  unfold Dat.leavesExact; rw [live_3 t hl, after_3]

end Cert.Kernel.Tile

end
-- ==== Proof.Kernel.Obligation.lean ====
/-
  The body's obligation at every grid point, the run of the whole program, and its frame. At each point the
  closed forms of the five conditions say which of the five runs applies; the invariant hands that run the
  scratch arrays at what the point before left (at anything, where the run does not read them) and takes
  them back at this point's contents.
-/
import proofs.«130830_j11184094838808_2_alg».proof.Proof.Kernel.Carry

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer at written contents is owned at what reads back -/

/-- A whole memref whose buffer holds `f` is owned at `f` read through it. -/
theorem owns_of_writes {S : Shape} (c : Dev nD) (M : Memref sig .tc .vmem S .f32) (f : M.view.ty.Contents (Elt F)) :
    (M.view.loc (c : Thread nD τ) ↦[M.view.set]{fullShare} f : sProp 𝕄) ⊢ owns (c : Thread nD τ) M fullShare (M.view.read (Elt F) f) := by
  unfold owns
  iintro H
  iexists _
  isplitr
  swap
  · iexact H
  · ipureintro; rfl

/-- When the pieces written cover the buffer, what reads back depends neither on what the buffer held nor on the
    memref it is read through. -/
theorem owns_of_cover {S : Shape} (c : Dev nD) (M : Memref sig .tc .vmem S .f32) (f : M.view.ty.Contents (Elt F))
    (V' : View sig .tc .vmem S .f32) (L : List (View.Piece (Elt F) S .f32)) (hcov : ∀ y, ∃ pc ∈ L, y ∈ pc.1.set) :
    (M.view.loc (c : Thread nD τ) ↦[M.view.set]{fullShare} M.view.writes (Elt F) f L : sProp 𝕄)
      ⊢ owns (c : Thread nD τ) M fullShare (V'.read (Elt F) (V'.writes (Elt F) V'.junk L)) := by
  unfold owns
  iintro H
  iexists _
  isplitr
  swap
  · iexact H
  · ipureintro; exact View.read_writes_of_cover _ _ _ _ _ hcov

/-! ## The step, case by case -/

theorem step_first (c : Dev nD) (t : Fin cfg0.N) (hz : t.val = 0) (xs0 : Vec F S8x256 .f32) (xs1 : Vec F S8x4096 .f32) :
    step m c t xs0 xs1 = (idleRowWin, idleColWin,
      VR.read (Elt F) (VR.writes (Elt F) VR.junk (firstAt m c t hz).1),
      VC.read (Elt F) (VC.writes (Elt F) VC.junk (firstAt m c t hz).2.1)) := by
  unfold step; rw [dif_pos hz]

theorem step_rowStart (c : Dev nD) (t : Fin cfg0.N) (hz : ¬t.val = 0) (h0 : t.val % 16 = 0) (xs0 : Vec F S8x256 .f32) (xs1 : Vec F S8x4096 .f32) :
    step m c t xs0 xs1 = (idleRowWin, idleColWin,
      VR.read (Elt F) (VR.writes (Elt F) VR.junk (rowStartAt m c t hz h0 xs1).1),
      VC.read (Elt F) (VC.writes (Elt F) (hCol.unread xs1) (rowStartAt m c t hz h0 xs1).2.1)) := by
  unfold step; rw [dif_neg hz, dif_pos h0]

theorem step_mid (c : Dev nD) (t : Fin cfg0.N) (hz : ¬t.val = 0) (h0 : ¬t.val % 16 = 0) (h15 : ¬t.val % 16 = 15) (xs0 : Vec F S8x256 .f32) (xs1 : Vec F S8x4096 .f32) :
    step m c t xs0 xs1 = (idleRowWin, idleColWin,
      VR.read (Elt F) (VR.writes (Elt F) (hRow.unread xs0) (midAt m c t h0 h15 xs0 xs1).1),
      VC.read (Elt F) (VC.writes (Elt F) (hCol.unread xs1) (midAt m c t h0 h15 xs0 xs1).2.1)) := by
  unfold step; rw [dif_neg hz, dif_neg h0, dif_neg h15]

theorem step_rowEnd (c : Dev nD) (t : Fin cfg0.N) (hz : ¬t.val = 0) (h0 : ¬t.val % 16 = 0) (h15 : t.val % 16 = 15) (hl : ¬t.val = 255) (xs0 : Vec F S8x256 .f32) (xs1 : Vec F S8x4096 .f32) :
    step m c t xs0 xs1 = (VO2.read (Elt F) (VO2.writes (Elt F) VO2.junk (rowEndAt m c t h15 hl xs0 xs1).1), idleColWin,
      VR.read (Elt F) (VR.writes (Elt F) (hRow.unread xs0) (rowEndAt m c t h15 hl xs0 xs1).2.1),
      VC.read (Elt F) (VC.writes (Elt F) (hCol.unread xs1) (rowEndAt m c t h15 hl xs0 xs1).2.2.1)) := by
  unfold step; rw [dif_neg hz, dif_neg h0, dif_pos h15, dif_neg hl]

theorem step_last (c : Dev nD) (t : Fin cfg0.N) (hz : ¬t.val = 0) (h0 : ¬t.val % 16 = 0) (h15 : t.val % 16 = 15) (hl : t.val = 255) (xs0 : Vec F S8x256 .f32) (xs1 : Vec F S8x4096 .f32) :
    step m c t xs0 xs1 = (VO2.read (Elt F) (VO2.writes (Elt F) VO2.junk (lastAt m c t hl xs0 xs1).1),
      VO3.read (Elt F) (VO3.writes (Elt F) VO3.junk (lastAt m c t hl xs0 xs1).2.1),
      VR.read (Elt F) (VR.writes (Elt F) (hRow.unread xs0) (lastAt m c t hl xs0 xs1).2.2.1),
      VC.read (Elt F) (VC.writes (Elt F) (hCol.unread xs1) (lastAt m c t hl xs0 xs1).2.2.2.1)) := by
  unfold step; rw [dif_neg hz, dif_neg h0, dif_pos h15, dif_pos hl]

/-! ## Where a run's pieces cover a buffer: one of them is a store of the whole buffer -/

theorem first_row_cover (c : Dev nD) (t : Fin cfg0.N) (hz : t.val = 0) (y : S8x256.Idx) :
    ∃ pc ∈ (firstAt m c t hz).1, y ∈ pc.1.set := View.cover_of_wholeMem _ (by sl_whole_mem) y
theorem first_col_cover (c : Dev nD) (t : Fin cfg0.N) (hz : t.val = 0) (y : S8x4096.Idx) :
    ∃ pc ∈ (firstAt m c t hz).2.1, y ∈ pc.1.set := View.cover_of_wholeMem _ (by sl_whole_mem) y
theorem rowStart_row_cover (c : Dev nD) (t : Fin cfg0.N) (hz : ¬t.val = 0) (h0 : t.val % 16 = 0) (xs1 : Vec F S8x4096 .f32) (y : S8x256.Idx) :
    ∃ pc ∈ (rowStartAt m c t hz h0 xs1).1, y ∈ pc.1.set := View.cover_of_wholeMem _ (by sl_whole_mem) y
theorem rowEnd_win_cover (c : Dev nD) (t : Fin cfg0.N) (h15 : t.val % 16 = 15) (hl : ¬t.val = 255) (xs0 : Vec F S8x256 .f32) (xs1 : Vec F S8x4096 .f32) (y : S8x256.Idx) :
    ∃ pc ∈ (rowEndAt m c t h15 hl xs0 xs1).1, y ∈ pc.1.set := View.cover_of_wholeMem _ (by sl_whole_mem) y
theorem last_rowWin_cover (c : Dev nD) (t : Fin cfg0.N) (hl : t.val = 255) (xs0 : Vec F S8x256 .f32) (xs1 : Vec F S8x4096 .f32) (y : S8x256.Idx) :
    ∃ pc ∈ (lastAt m c t hl xs0 xs1).1, y ∈ pc.1.set := View.cover_of_wholeMem _ (by sl_whole_mem) y
theorem last_colWin_cover (c : Dev nD) (t : Fin cfg0.N) (hl : t.val = 255) (xs0 : Vec F S8x256 .f32) (xs1 : Vec F S8x4096 .f32) (y : S8x4096.Idx) :
    ∃ pc ∈ (lastAt m c t hl xs0 xs1).2.1, y ∈ pc.1.set := View.cover_of_wholeMem _ (by sl_whole_mem) y

/-! ## The body at any point -/

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [leaves_0, leaves_1]
  have hN : t.val < 256 := lt_of_lt_of_eq t.isLt (show cfg0.N = 256 from N_0)
  by_cases hz : t.val = 0
  · -- the first point
    rw [Dat.leavesExact_idle (dats m 0 c) 2 t (idle_2 t (by omega)) (noFlush_2 t (by omega)),
      Dat.leavesExact_idle (dats m 0 c) 3 t (idle_3 t (by omega)) (noFlush_3 t (by omega))]
    rw [outsAt_zero m c t hz, step_first m c t hz]; dsimp only
    rw [PhiS_castSucc m c t, PhiS_zero m c _ _ hz, PhiA_eq]
    iintro ⟨⟨⟨HS0, HS1⟩, Hg⟩, Ho, ⟨%d0, H0⟩, ⟨%d1, H1⟩, ⟨%d2, H2⟩, ⟨%d3, H3⟩⟩
    iapply ((firstAt m c t hz).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%e0, HS0⟩, ⟨%e1, HS1⟩⟩
    isplitl [HS0 HS1 Hg]
    · isplitl [HS0 HS1]
      · isplitl [HS0]
        · iapply (owns_of_cover c _ _ _ _ (first_row_cover m c t hz)); iexact HS0
        · iapply (owns_of_cover c _ _ _ _ (first_col_cover m c t hz)); iexact HS1
      iexact Hg
    isplitl [Ho]; · iexact Ho
    isplitl [H0]; · iexact H0
    isplitl [H1]; · iexact H1
    isplitl [H2]; · iexists _; iexact H2
    iexists _; iexact H3
  · rw [PhiS_castSucc m c t, PhiS_pos m c _ _ hz, outsAt_pos m c t hz]
    by_cases h0 : t.val % 16 = 0
    · -- the first column tile of a later row
      rw [Dat.leavesExact_idle (dats m 0 c) 2 t (idle_2 t (by omega)) (noFlush_2 t (by omega)),
        Dat.leavesExact_idle (dats m 0 c) 3 t (idle_3 t (by omega)) (noFlush_3 t (by omega))]
      rw [step_rowStart m c t hz h0]; dsimp only
      iintro ⟨⟨⟨HS0, HS1⟩, Hg⟩, Ho, ⟨%d0, H0⟩, ⟨%d1, H1⟩, ⟨%d2, H2⟩, ⟨%d3, H3⟩⟩
      iapply ((rowStartAt m c t hz h0 _).2.2 _ _ Set.univ _)
      isplitl [H0]; · iexact H0
      isplitl [H1]; · iexact H1
      isplitl [H2]; · iexact H2
      isplitl [H3]; · iexact H3
      isplitl [HS0]; · iexists _; iexact HS0
      isplitl [HS1]; · iexact HS1
      iintro ⟨H0, H1, H2, H3, ⟨%e0, HS0⟩, HS1⟩
      isplitl [HS0 HS1 Hg]
      · isplitl [HS0 HS1]
        · isplitl [HS0]
          · iapply (owns_of_cover c _ _ _ _ (rowStart_row_cover m c t hz h0 _)); iexact HS0
          · iapply (owns_of_writes c _ _); iexact HS1
        iexact Hg
      isplitl [Ho]; · iexact Ho
      isplitl [H0]; · iexact H0
      isplitl [H1]; · iexact H1
      isplitl [H2]; · iexists _; iexact H2
      iexists _; iexact H3
    · by_cases h15 : t.val % 16 = 15
      · by_cases hl : t.val = 255
        · -- the last point
          rw [leaves_2 m c t h15, leaves_3 m c t hl, outsAt_pos m c t hz]
          rw [step_last m c t hz h0 h15 hl]; dsimp only
          iintro ⟨⟨⟨HS0, HS1⟩, Hg⟩, Ho, ⟨%d0, H0⟩, ⟨%d1, H1⟩, ⟨%d2, H2⟩, ⟨%d3, H3⟩⟩
          iapply ((lastAt m c t hl _ _).2.2.2.2 Set.univ _)
          isplitl [H0]; · iexact H0
          isplitl [H1]; · iexact H1
          isplitl [H2]; · iexists _; iexact H2
          isplitl [H3]; · iexists _; iexact H3
          isplitl [HS0]; · iexact HS0
          isplitl [HS1]; · iexact HS1
          iintro ⟨H0, H1, ⟨%e2, H2⟩, ⟨%e3, H3⟩, HS0, HS1⟩
          isplitl [HS0 HS1 Hg]
          · isplitl [HS0 HS1]
            · isplitl [HS0]
              · iapply (owns_of_writes c _ _); iexact HS0
              · iapply (owns_of_writes c _ _); iexact HS1
            iexact Hg
          isplitl [Ho]; · iexact Ho
          isplitl [H0]; · iexact H0
          isplitl [H1]; · iexact H1
          isplitl [H2]
          · iapply (owns_of_cover c _ _ _ _ (last_rowWin_cover m c t hl _ _)); iexact H2
          · iapply (owns_of_cover c _ _ _ _ (last_colWin_cover m c t hl _ _)); iexact H3
        · -- the last column tile of a row before the last
          rw [leaves_2 m c t h15, Dat.leavesExact_idle (dats m 0 c) 3 t (idle_3 t hl) (noFlush_3 t hl), outsAt_pos m c t hz]
          rw [step_rowEnd m c t hz h0 h15 hl]; dsimp only
          iintro ⟨⟨⟨HS0, HS1⟩, Hg⟩, Ho, ⟨%d0, H0⟩, ⟨%d1, H1⟩, ⟨%d2, H2⟩, ⟨%d3, H3⟩⟩
          iapply ((rowEndAt m c t h15 hl _ _).2.2.2 _ Set.univ _)
          isplitl [H0]; · iexact H0
          isplitl [H1]; · iexact H1
          isplitl [H2]; · iexists _; iexact H2
          isplitl [H3]; · iexact H3
          isplitl [HS0]; · iexact HS0
          isplitl [HS1]; · iexact HS1
          iintro ⟨H0, H1, ⟨%e2, H2⟩, H3, HS0, HS1⟩
          isplitl [HS0 HS1 Hg]
          · isplitl [HS0 HS1]
            · isplitl [HS0]
              · iapply (owns_of_writes c _ _); iexact HS0
              · iapply (owns_of_writes c _ _); iexact HS1
            iexact Hg
          isplitl [Ho]; · iexact Ho
          isplitl [H0]; · iexact H0
          isplitl [H1]; · iexact H1
          isplitl [H2]
          · iapply (owns_of_cover c _ _ _ _ (rowEnd_win_cover m c t h15 hl _ _)); iexact H2
          · iexists _; iexact H3
      · -- a column tile in the middle of a row
        rw [Dat.leavesExact_idle (dats m 0 c) 2 t (idle_2 t h15) (noFlush_2 t h15),
          Dat.leavesExact_idle (dats m 0 c) 3 t (idle_3 t (by omega)) (noFlush_3 t (by omega))]
        rw [step_mid m c t hz h0 h15]; dsimp only
        iintro ⟨⟨⟨HS0, HS1⟩, Hg⟩, Ho, ⟨%d0, H0⟩, ⟨%d1, H1⟩, ⟨%d2, H2⟩, ⟨%d3, H3⟩⟩
        iapply ((midAt m c t h0 h15 _ _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]
            · iapply (owns_of_writes c _ _); iexact HS0
            · iapply (owns_of_writes c _ _); iexact HS1
          iexact Hg
        isplitl [Ho]; · iexact Ho
        isplitl [H0]; · iexact H0
        isplitl [H1]; · iexact H1
        isplitl [H2]; · iexists _; iexact H2
        iexists _; iexact H3

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the named contents of the scratch arrays can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

/-- In particular after the last. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, and in every final state each array of the pipeline
    holds what the library computes from the proof data, every other buffer what the host lines after the
    region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Tile

end
-- ==== Proof.KernelIdeal.Cases.lean ====
/-
  The grid of the fused nearest-neighbour kernel is 16 row tiles by 16 column tiles, walked row-major: point
  t is row tile t / 16 and column tile t % 16. The body branches five times on the coordinates:
  on the first column tile of a row (the running row minimum is started), on the other column tiles (it is
  lowered), on the last column tile (it is written out), at the very first point (the running column minimum
  is filled with +inf) and at the very last (it is written out). This module states the five conditions as
  the body computes them, decides each over the 256 points in closed form, says where the two result windows
  are idle, and opens the region's invariant to the two scratch arrays the body carries between points.
-/
import proofs.«130830_j11184094838808_2_alg».proof.Proof.Gen.KernelIdeal.Frame
import proofs.«130830_j11184094838808_2_alg».proof.Proof.Gen.KernelIdeal.Skeleton

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The five branch conditions, as the body computes them from the coordinates -/

/-- The column tile is the first of its row. -/
abbrev firstCol (i : grid0.Coords) : Prop :=
  (Scalar.cmpi .ne (Scalar.extui (Scalar.cmpi .eq (BitVec.ofNat 32 (i 1).val) 0#32)) 0#32) = 1#1
/-- The column tile is not the first of its row. -/
abbrev laterCol (i : grid0.Coords) : Prop :=
  (Scalar.cmpi .ne (Scalar.extui (Scalar.cmpi .ne (BitVec.ofNat 32 (i 1).val) 0#32)) 0#32) = 1#1
/-- The column tile is the last of its row. -/
abbrev lastCol (i : grid0.Coords) : Prop := k0_cond3 i = 1#1
/-- The point is the first of the grid. -/
abbrev firstPoint (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The point is the last of the grid. -/
abbrev lastPoint (i : grid0.Coords) : Prop := k0_cond5 i = 1#1

theorem firstCol_iff : ∀ t : Fin cfg0.N, firstCol (grid0.coords t) ↔ t.val % 16 = 0 :=
  (by decide +kernel : ∀ t : Fin grid0.N, firstCol (grid0.coords t) ↔ t.val % 16 = 0)
theorem laterCol_iff : ∀ t : Fin cfg0.N, laterCol (grid0.coords t) ↔ t.val % 16 ≠ 0 :=
  (by decide +kernel : ∀ t : Fin grid0.N, laterCol (grid0.coords t) ↔ t.val % 16 ≠ 0)
theorem lastCol_iff : ∀ t : Fin cfg0.N, lastCol (grid0.coords t) ↔ t.val % 16 = 15 :=
  (by decide +kernel : ∀ t : Fin grid0.N, lastCol (grid0.coords t) ↔ t.val % 16 = 15)
theorem firstPoint_iff : ∀ t : Fin cfg0.N, firstPoint (grid0.coords t) ↔ t.val = 0 :=
  (by decide +kernel : ∀ t : Fin grid0.N, firstPoint (grid0.coords t) ↔ t.val = 0)
theorem lastPoint_iff : ∀ t : Fin cfg0.N, lastPoint (grid0.coords t) ↔ t.val = 255 :=
  (by decide +kernel : ∀ t : Fin grid0.N, lastPoint (grid0.coords t) ↔ t.val = 255)

/-! ## Where the windows are idle and where they are written back -/

/-- The two input windows are never idle. -/
theorem live_0 : ∀ t : Fin cfg0.N, cfg0.idle 0 (grid0.coords t) = false := by decide +kernel
theorem live_1 : ∀ t : Fin cfg0.N, cfg0.idle 1 (grid0.coords t) = false := by decide +kernel
/-- The row-minimum window is stored on the last column tile only, and written back exactly there. -/
theorem idle_2 : ∀ t : Fin cfg0.N, ¬ t.val % 16 = 15 → cfg0.idle 2 (grid0.coords t) = true := by decide +kernel
theorem live_2 : ∀ t : Fin cfg0.N, t.val % 16 = 15 → cfg0.idle 2 (grid0.coords t) = false := by decide +kernel
theorem noFlush_2 : ∀ t : Fin cfg0.N, ¬ t.val % 16 = 15 → (cfg0.win 2).flush t = false := by decide +kernel
/-- The column-minimum window is stored at the last point only, and written back exactly there. -/
theorem idle_3 : ∀ t : Fin cfg0.N, ¬ t.val = 255 → cfg0.idle 3 (grid0.coords t) = true := by decide +kernel
theorem live_3 : ∀ t : Fin cfg0.N, t.val = 255 → cfg0.idle 3 (grid0.coords t) = false := by decide +kernel
theorem noFlush_3 : ∀ t : Fin cfg0.N, ¬ t.val = 255 → (cfg0.win 3).flush t = false := by decide +kernel

/-! ## The memrefs the body is called with -/

abbrev ms0 (t : Fin cfg0.N) : Memref sig .tc .vmem S8x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x4096 .f32 := win0_3.stage (cfg0.slots t 3)
abbrev hs3 (t : Fin cfg0.N) : (ms3 t).IsWhole := hstage0_3 ((cfg0.slots t 3).cast nbuf0_3)
/-- The running row minimum of the current row tile: one value per batch and row of the tile. -/
abbrev rowAcc : Memref sig .tc .vmem S8x256 .f32 := Memref.whole cc0_scratch0
/-- The running column minimum: one value per batch and column of the whole array. -/
abbrev colAcc : Memref sig .tc .vmem S8x4096 .f32 := Memref.whole cc0_scratch1
/-- Views through which the contents of the result windows and of the two scratch arrays are stated. -/
abbrev VO2 : View sig .tc .vmem S8x256 .f32 := (Memref.whole cc0_stg2_0 : Memref sig .tc .vmem S8x256 .f32).view
abbrev VO3 : View sig .tc .vmem S8x4096 .f32 := (Memref.whole cc0_stg3_0 : Memref sig .tc .vmem S8x4096 .f32).view
abbrev VR : View sig .tc .vmem S8x256 .f32 := rowAcc.view
abbrev VC : View sig .tc .vmem S8x4096 .f32 := colAcc.view

/-- What the region holds beside its windows: the two scratch arrays at some contents and the generator register. -/
theorem PhiA_eq (c : Dev nD) :
    (Pipeline.ΦA spec0 c : sProp 𝕄)
      = iprop(iprop((∃ d, owns (c : Thread nD τ) rowAcc fullShare d) ∗ (∃ d, owns (c : Thread nD τ) colAcc fullShare d)) ∗ (∃ r, prngReg c r)) := by
  unfold Pipeline.ΦA; rw [scopedRest0_eq]; simp only [rowAcc, colAcc, owns_whole]; try rfl

end Cert.KernelIdeal.Tile

end
-- ==== Proof.KernelIdeal.RunFirst.lean ====
/-
  The body at the first point of the grid: the running row minimum is started from this tile's row minima,
  the running column minimum is filled with +inf everywhere and then lowered, under this column tile, by this
  tile's column minima; neither result window is touched. Nothing is read of what the scratch arrays held.
-/
import proofs.«130830_j11184094838808_2_alg».proof.Proof.KernelIdeal.Cases

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the two scratch arrays at the first point, with the run: both scratch arrays may hold anything before, and end overwritten by the pieces. -/
noncomputable def runFirst (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (arg6 : Memref sig .tc .vmem S8x256 .f32) (harg6 : arg6.IsWhole) (arg7 : Memref sig .tc .vmem S8x4096 .f32) (harg7 : arg7.IsWhole)
    (h1 : firstCol i) (h2 : ¬laterCol i) (h3 : ¬lastCol i) (h4 : firstPoint i) (h5 : ¬lastPoint i)
    (x0 x1 : Vec F S8x256x3 .f32) :
    Σ' (LR : List (View.Piece (Elt F) S8x256 .f32)), { LC : List (View.Piece (Elt F) S8x4096 .f32) //
      ∀ (xi2 : Vec F S8x256 .f32) (xi3 : Vec F S8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ owns (c : Thread nD τ) arg5 fullShare xi3
                ∗ (∃ f, arg6.view.loc (c : Thread nD τ) ↦[arg6.view.set]{fullShare} arg6.view.writes (Elt F) f LR)
                ∗ (∃ f, arg7.view.loc (c : Thread nD τ) ↦[arg7.view.set]{fullShare} arg7.view.writes (Elt F) f LC)) -∗ K ⟨⟩))
          ⊢ wp frame (wpE (defs₀ (F := F)) Variants.none c none) E (cc0__fused_min_kernel i arg2 harg2 arg3 harg3 arg4 harg4 arg5 harg5 arg6 harg6 arg7 harg7) K } := by
  refine ⟨?_, ?_, fun xi2 xi3 E K => ?run⟩
  case run =>
    simp only [cc0__fused_min_kernel_eq_skeleton]; unfold cc0__fused_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact h1 | exact h2 | exact h3 | exact h4 | exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Tile

end
-- ==== Proof.KernelIdeal.RunMid.lean ====
/-
  The body at a point in the middle of a row of the grid (neither the first nor the last column tile): the
  running row minimum is lowered by this tile's row minima, the slice of the running column minimum under
  this column tile is lowered by this tile's column minima, and neither result window is touched.
-/
import proofs.«130830_j11184094838808_2_alg».proof.Proof.KernelIdeal.Cases

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the two scratch arrays at a middle point, with the run: from the two
    input tiles at `x0`, `x1`, the result windows at any contents (handed back as found) and the scratch arrays
    at `xs0`, `xs1`, the body ends with the scratch arrays at their former contents overwritten by the pieces. -/
noncomputable def runMid (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (arg6 : Memref sig .tc .vmem S8x256 .f32) (harg6 : arg6.IsWhole) (arg7 : Memref sig .tc .vmem S8x4096 .f32) (harg7 : arg7.IsWhole)
    (h1 : ¬firstCol i) (h2 : laterCol i) (h3 : ¬lastCol i) (h4 : ¬firstPoint i) (h5 : ¬lastPoint i)
    (x0 x1 : Vec F S8x256x3 .f32) (xs0 : Vec F S8x256 .f32) (xs1 : Vec F S8x4096 .f32) :
    Σ' (LR : List (View.Piece (Elt F) S8x256 .f32)), { LC : List (View.Piece (Elt F) S8x4096 .f32) //
      ∀ (xi2 : Vec F S8x256 .f32) (xi3 : Vec F S8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (arg6.view.loc (c : Thread nD τ) ↦[arg6.view.set]{fullShare} arg6.view.writes (Elt F) (harg6.unread xs0) LR)
                ∗ (arg7.view.loc (c : Thread nD τ) ↦[arg7.view.set]{fullShare} arg7.view.writes (Elt F) (harg7.unread xs1) LC)) -∗ K ⟨⟩))
          ⊢ wp frame (wpE (defs₀ (F := F)) Variants.none c none) E (cc0__fused_min_kernel i arg2 harg2 arg3 harg3 arg4 harg4 arg5 harg5 arg6 harg6 arg7 harg7) K } := by
  refine ⟨?_, ?_, fun xi2 xi3 E K => ?run⟩
  case run =>
    simp only [cc0__fused_min_kernel_eq_skeleton]; unfold cc0__fused_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact h1 | exact h2 | exact h3 | exact h4 | exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexact HS0
    iexact HS1

end Cert.KernelIdeal.Tile

end
-- ==== Proof.KernelIdeal.RunRowStart.lean ====
/-
  The body at the first column tile of a row other than the first: the running row minimum is started
  afresh from this tile's row minima (what it held is not read), the slice of the running column minimum under
  this column tile is lowered by this tile's column minima; neither result window is touched.
-/
import proofs.«130830_j11184094838808_2_alg».proof.Proof.KernelIdeal.Cases

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the two scratch arrays at the start of a later row, with the run: the row scratch may hold anything before, the column scratch holds `xs1`. -/
noncomputable def runRowStart (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (arg6 : Memref sig .tc .vmem S8x256 .f32) (harg6 : arg6.IsWhole) (arg7 : Memref sig .tc .vmem S8x4096 .f32) (harg7 : arg7.IsWhole)
    (h1 : firstCol i) (h2 : ¬laterCol i) (h3 : ¬lastCol i) (h4 : ¬firstPoint i) (h5 : ¬lastPoint i)
    (x0 x1 : Vec F S8x256x3 .f32) (xs1 : Vec F S8x4096 .f32) :
    Σ' (LR : List (View.Piece (Elt F) S8x256 .f32)), { LC : List (View.Piece (Elt F) S8x4096 .f32) //
      ∀ (xi2 : Vec F S8x256 .f32) (xi3 : Vec F S8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ owns (c : Thread nD τ) arg7 fullShare xs1
            ∗ (iprop(owns (c : Thread nD τ) arg2 fullShare x0 ∗ owns (c : Thread nD τ) arg3 fullShare x1 ∗ owns (c : Thread nD τ) arg4 fullShare xi2
                ∗ owns (c : Thread nD τ) arg5 fullShare xi3
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs1) LC)) -∗ K ⟨⟩))
          ⊢ wp frame (wpE (defs₀ (F := F)) Variants.none c none) E (cc0__fused_min_kernel i arg2 harg2 arg3 harg3 arg4 harg4 arg5 harg5 arg6 harg6 arg7 harg7) K } := by
  refine ⟨?_, ?_, fun xi2 xi3 E K => ?run⟩
  case run =>
    simp only [cc0__fused_min_kernel_eq_skeleton]; unfold cc0__fused_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%fs1, %hfs1, HS1⟩, Hk⟩
    obtain rfl := harg2.eq_unread hf0; obtain rfl := harg3.eq_unread hf1
    obtain rfl := harg4.eq_unread hf2; obtain rfl := harg5.eq_unread hf3; obtain rfl := harg7.eq_unread hfs1
    sl_exec (disch := first | exact h1 | exact h2 | exact h3 | exact h4 | exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexact HS1

end Cert.KernelIdeal.Tile

end
-- ==== Proof.KernelIdeal.RunRowEnd.lean ====
/-
  The body at the last column tile of a row other than the last: the running row minimum is lowered by this
  tile's row minima and copied into the row-minimum window, the slice of the running column minimum under this
  column tile is lowered by this tile's column minima; the column-minimum window is not touched.
-/
import proofs.«130830_j11184094838808_2_alg».proof.Proof.KernelIdeal.Cases

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the row-minimum window and in the two scratch arrays at the end of a row, with the run: the window may hold anything before, the scratch arrays hold `xs0`, `xs1`. -/
noncomputable def runRowEnd (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (arg6 : Memref sig .tc .vmem S8x256 .f32) (harg6 : arg6.IsWhole) (arg7 : Memref sig .tc .vmem S8x4096 .f32) (harg7 : arg7.IsWhole)
    (h1 : ¬firstCol i) (h2 : laterCol i) (h3 : lastCol i) (h4 : ¬firstPoint i) (h5 : ¬lastPoint i)
    (x0 x1 : Vec F S8x256x3 .f32) (xs0 : Vec F S8x256 .f32) (xs1 : Vec F S8x4096 .f32) :
    Σ' (L2 : List (View.Piece (Elt F) S8x256 .f32)) (LR : List (View.Piece (Elt F) S8x256 .f32)), { LC : List (View.Piece (Elt F) S8x4096 .f32) //
      ∀ (xi3 : Vec F S8x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ owns (c : Thread nD τ) arg5 fullShare xi3
                ∗ (arg6.view.loc (c : Thread nD τ) ↦[arg6.view.set]{fullShare} arg6.view.writes (Elt F) (harg6.unread xs0) LR)
                ∗ (arg7.view.loc (c : Thread nD τ) ↦[arg7.view.set]{fullShare} arg7.view.writes (Elt F) (harg7.unread xs1) LC)) -∗ K ⟨⟩))
          ⊢ wp frame (wpE (defs₀ (F := F)) Variants.none c none) E (cc0__fused_min_kernel i arg2 harg2 arg3 harg3 arg4 harg4 arg5 harg5 arg6 harg6 arg7 harg7) K } := by
  refine ⟨?_, ?_, ?_, fun xi3 E K => ?run⟩
  case run =>
    simp only [cc0__fused_min_kernel_eq_skeleton]; unfold cc0__fused_min_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg5.eq_unread hf3; obtain rfl := harg6.eq_unread hfs0; obtain rfl := harg7.eq_unread hfs1
    sl_exec (disch := first | exact h1 | exact h2 | exact h3 | exact h4 | exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [HS0]; · iexact HS0
    iexact HS1

end Cert.KernelIdeal.Tile

end
-- ==== Proof.KernelIdeal.RunLast.lean ====
/-
  The body at the last point of the grid: the running row minimum is lowered by this tile's row minima and
  copied into the row-minimum window, the slice of the running column minimum under this column tile is lowered
  by this tile's column minima, and the whole running column minimum is copied into the column-minimum window.
-/
import proofs.«130830_j11184094838808_2_alg».proof.Proof.KernelIdeal.Cases

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the two result windows and in the two scratch arrays at the last point, with the run: the windows may hold anything before, the scratch arrays hold `xs0`, `xs1`. -/
noncomputable def runLast (c : Dev nD) (i : grid0.Coords) (arg2 : Memref sig .tc .vmem S8x256x3 .f32) (harg2 : arg2.IsWhole) (arg3 : Memref sig .tc .vmem S8x256x3 .f32) (harg3 : arg3.IsWhole) (arg4 : Memref sig .tc .vmem S8x256 .f32) (harg4 : arg4.IsWhole) (arg5 : Memref sig .tc .vmem S8x4096 .f32) (harg5 : arg5.IsWhole) (arg6 : Memref sig .tc .vmem S8x256 .f32) (harg6 : arg6.IsWhole) (arg7 : Memref sig .tc .vmem S8x4096 .f32) (harg7 : arg7.IsWhole)
    (h1 : ¬firstCol i) (h2 : laterCol i) (h3 : lastCol i) (h4 : ¬firstPoint i) (h5 : lastPoint i)
    (x0 x1 : Vec F S8x256x3 .f32) (xs0 : Vec F S8x256 .f32) (xs1 : Vec F S8x4096 .f32) :
    Σ' (L2 : List (View.Piece (Elt F) S8x256 .f32)) (L3 : List (View.Piece (Elt F) S8x4096 .f32)) (LR : List (View.Piece (Elt F) S8x256 .f32)), { LC : List (View.Piece (Elt F) S8x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (arg6.view.loc (c : Thread nD τ) ↦[arg6.view.set]{fullShare} arg6.view.writes (Elt F) (harg6.unread xs0) LR)
                ∗ (arg7.view.loc (c : Thread nD τ) ↦[arg7.view.set]{fullShare} arg7.view.writes (Elt F) (harg7.unread xs1) LC)) -∗ K ⟨⟩))
          ⊢ wp frame (wpE (defs₀ (F := F)) Variants.none c none) E (cc0__fused_min_kernel i arg2 harg2 arg3 harg3 arg4 harg4 arg5 harg5 arg6 harg6 arg7 harg7) K } := by
  refine ⟨?_, ?_, ?_, ?_, fun E K => ?run⟩
  case run =>
    simp only [cc0__fused_min_kernel_eq_skeleton]; unfold cc0__fused_min_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact h1 | exact h2 | exact h3 | exact h4 | exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexact HS0
    iexact HS1

end Cert.KernelIdeal.Tile

end
-- ==== Proof.KernelIdeal.Carry.lean ====
/-
  What the kernel carries from grid point to grid point, and its frame. After every point the two scratch
  arrays hold definite contents: the running row minimum of the current row tile over the column tiles walked
  so far, and the running column minimum over all the tiles walked so far. This module names, case by case,
  what a point leaves in the scratch arrays and in the result windows (the pieces the runs found, read back),
  folds that along the 256 points, states the region's invariant over the fold, and discharges the body's
  obligation at every point; the launch theorem then gives the run of the whole program, and its frame.
-/
import proofs.«130830_j11184094838808_2_alg».proof.Proof.KernelIdeal.RunFirst
import proofs.«130830_j11184094838808_2_alg».proof.Proof.KernelIdeal.RunMid
import proofs.«130830_j11184094838808_2_alg».proof.Proof.KernelIdeal.RunRowStart
import proofs.«130830_j11184094838808_2_alg».proof.Proof.KernelIdeal.RunRowEnd
import proofs.«130830_j11184094838808_2_alg».proof.Proof.KernelIdeal.RunLast

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Whole-buffer evidence for the two scratch arrays. -/
abbrev hRow : (rowAcc : Memref sig .tc .vmem S8x256 .f32).IsWhole := Memref.isWhole_whole _
abbrev hCol : (colAcc : Memref sig .tc .vmem S8x4096 .f32).IsWhole := Memref.isWhole_whole _

/-- Contents nothing reads: what a result window is said to hold at a point that leaves it idle. -/
def idleRowWin : Vec F S8x256 .f32 := VO2.read (Elt F) VO2.junk
def idleColWin : Vec F S8x4096 .f32 := VO3.read (Elt F) VO3.junk

/-! ## The five runs at a grid point, on the memrefs the pipeline passes there -/

abbrev firstAt (c : Dev nD) (t : Fin cfg0.N) (hz : t.val = 0) :=
  runFirst (F := F) c (grid0.coords t) (ms0 t) (hs0 t) (ms1 t) (hs1 t) (ms2 t) (hs2 t) (ms3 t) (hs3 t) rowAcc (Memref.isWhole_whole _) colAcc (Memref.isWhole_whole _) ((firstCol_iff t).mpr (by omega)) (fun h => (laterCol_iff t).mp h (by omega)) (fun h => absurd ((lastCol_iff t).mp h) (by omega)) ((firstPoint_iff t).mpr hz) (fun h => absurd ((lastPoint_iff t).mp h) (by omega)) (iblk m c 0 t) (iblk m c 1 t)
abbrev rowStartAt (c : Dev nD) (t : Fin cfg0.N) (hz : ¬t.val = 0) (h0 : t.val % 16 = 0) (xs1 : Vec F S8x4096 .f32) :=
  runRowStart (F := F) c (grid0.coords t) (ms0 t) (hs0 t) (ms1 t) (hs1 t) (ms2 t) (hs2 t) (ms3 t) (hs3 t) rowAcc (Memref.isWhole_whole _) colAcc (Memref.isWhole_whole _) ((firstCol_iff t).mpr h0) (fun h => (laterCol_iff t).mp h h0) (fun h => absurd ((lastCol_iff t).mp h) (by omega)) (fun h => hz ((firstPoint_iff t).mp h)) (fun h => absurd ((lastPoint_iff t).mp h) (by omega)) (iblk m c 0 t) (iblk m c 1 t) xs1
abbrev midAt (c : Dev nD) (t : Fin cfg0.N) (h0 : ¬t.val % 16 = 0) (h15 : ¬t.val % 16 = 15) (xs0 : Vec F S8x256 .f32) (xs1 : Vec F S8x4096 .f32) :=
  runMid (F := F) c (grid0.coords t) (ms0 t) (hs0 t) (ms1 t) (hs1 t) (ms2 t) (hs2 t) (ms3 t) (hs3 t) rowAcc (Memref.isWhole_whole _) colAcc (Memref.isWhole_whole _) (fun h => h0 ((firstCol_iff t).mp h)) ((laterCol_iff t).mpr h0) (fun h => h15 ((lastCol_iff t).mp h)) (fun h => absurd ((firstPoint_iff t).mp h) (by omega)) (fun h => absurd ((lastPoint_iff t).mp h) (by omega)) (iblk m c 0 t) (iblk m c 1 t) xs0 xs1
abbrev rowEndAt (c : Dev nD) (t : Fin cfg0.N) (h15 : t.val % 16 = 15) (hl : ¬t.val = 255) (xs0 : Vec F S8x256 .f32) (xs1 : Vec F S8x4096 .f32) :=
  runRowEnd (F := F) c (grid0.coords t) (ms0 t) (hs0 t) (ms1 t) (hs1 t) (ms2 t) (hs2 t) (ms3 t) (hs3 t) rowAcc (Memref.isWhole_whole _) colAcc (Memref.isWhole_whole _) (fun h => absurd ((firstCol_iff t).mp h) (by omega)) ((laterCol_iff t).mpr (by omega)) ((lastCol_iff t).mpr h15) (fun h => absurd ((firstPoint_iff t).mp h) (by omega)) (fun h => hl ((lastPoint_iff t).mp h)) (iblk m c 0 t) (iblk m c 1 t) xs0 xs1
abbrev lastAt (c : Dev nD) (t : Fin cfg0.N) (hl : t.val = 255) (xs0 : Vec F S8x256 .f32) (xs1 : Vec F S8x4096 .f32) :=
  runLast (F := F) c (grid0.coords t) (ms0 t) (hs0 t) (ms1 t) (hs1 t) (ms2 t) (hs2 t) (ms3 t) (hs3 t) rowAcc (Memref.isWhole_whole _) colAcc (Memref.isWhole_whole _) (fun h => absurd ((firstCol_iff t).mp h) (by omega)) ((laterCol_iff t).mpr (by omega)) ((lastCol_iff t).mpr (by omega)) (fun h => absurd ((firstPoint_iff t).mp h) (by omega)) ((lastPoint_iff t).mpr hl) (iblk m c 0 t) (iblk m c 1 t) xs0 xs1

/-! ## What one point leaves: the row-minimum window, the column-minimum window, the two scratch arrays -/

/-- The four contents after the body at point `t`, from what the scratch arrays held before it (`xs0`, `xs1`;
    not read at the first point, `xs0` not read on the first column tile of a row). A window the point leaves
    idle is given contents nothing reads. -/
def step (c : Dev nD) (t : Fin cfg0.N) (xs0 : Vec F S8x256 .f32) (xs1 : Vec F S8x4096 .f32) :
    Vec F S8x256 .f32 × Vec F S8x4096 .f32 × Vec F S8x256 .f32 × Vec F S8x4096 .f32 :=
  if hz : t.val = 0 then
    (idleRowWin, idleColWin,
      VR.read (Elt F) (VR.writes (Elt F) VR.junk (firstAt m c t hz).1),
      VC.read (Elt F) (VC.writes (Elt F) VC.junk (firstAt m c t hz).2.1))
  else if h0 : t.val % 16 = 0 then
    (idleRowWin, idleColWin,
      VR.read (Elt F) (VR.writes (Elt F) VR.junk (rowStartAt m c t hz h0 xs1).1),
      VC.read (Elt F) (VC.writes (Elt F) (hCol.unread xs1) (rowStartAt m c t hz h0 xs1).2.1))
  else if h15 : t.val % 16 = 15 then
    if hl : t.val = 255 then
      (VO2.read (Elt F) (VO2.writes (Elt F) VO2.junk (lastAt m c t hl xs0 xs1).1),
        VO3.read (Elt F) (VO3.writes (Elt F) VO3.junk (lastAt m c t hl xs0 xs1).2.1),
        VR.read (Elt F) (VR.writes (Elt F) (hRow.unread xs0) (lastAt m c t hl xs0 xs1).2.2.1),
        VC.read (Elt F) (VC.writes (Elt F) (hCol.unread xs1) (lastAt m c t hl xs0 xs1).2.2.2.1))
    else
      (VO2.read (Elt F) (VO2.writes (Elt F) VO2.junk (rowEndAt m c t h15 hl xs0 xs1).1), idleColWin,
        VR.read (Elt F) (VR.writes (Elt F) (hRow.unread xs0) (rowEndAt m c t h15 hl xs0 xs1).2.1),
        VC.read (Elt F) (VC.writes (Elt F) (hCol.unread xs1) (rowEndAt m c t h15 hl xs0 xs1).2.2.1))
  else
    (idleRowWin, idleColWin,
      VR.read (Elt F) (VR.writes (Elt F) (hRow.unread xs0) (midAt m c t h0 h15 xs0 xs1).1),
      VC.read (Elt F) (VC.writes (Elt F) (hCol.unread xs1) (midAt m c t h0 h15 xs0 xs1).2.1))

/-- THE FOLD: the four contents after the body at position `n`, each point run over what the point before left
    in the scratch arrays. -/
def outsAt (c : Dev nD) : (n : ℕ) → n < cfg0.N →
    Vec F S8x256 .f32 × Vec F S8x4096 .f32 × Vec F S8x256 .f32 × Vec F S8x4096 .f32
  | 0, hn => step m c ⟨0, hn⟩ idleRowWin idleColWin
  | n + 1, hn => step m c ⟨n + 1, hn⟩ (outsAt c n (Nat.lt_of_succ_lt hn)).2.2.1 (outsAt c n (Nat.lt_of_succ_lt hn)).2.2.2

/-- The fold at a point after the first: one step over the point before. -/
theorem outsAt_pos (c : Dev nD) (t : Fin cfg0.N) (hz : ¬t.val = 0) :
    outsAt m c t.val t.isLt = step m c t (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd rfl hz
  | succ n => rfl

/-- The fold at the first point: the step that reads nothing of the scratch arrays. -/
theorem outsAt_zero (c : Dev nD) (t : Fin cfg0.N) (hz : t.val = 0) :
    outsAt m c t.val t.isLt = step m c t idleRowWin idleColWin := by
  obtain ⟨n, hn⟩ := t
  cases n with
  | zero => rfl
  | succ n => exact absurd hz (Nat.succ_ne_zero n)

/-! ## The region's invariant -/

/-- Before position `n`: at the first point the scratch arrays hold anything; afterwards what the point before
    left in them. The generator register is at some state throughout. -/
def PhiS (c : Dev nD) : (n : ℕ) → n ≤ cfg0.N → sProp 𝕄
  | 0, _ => Pipeline.ΦA spec0 c
  | n + 1, hn => iprop(iprop(owns (c : Thread nD τ) rowAcc fullShare (outsAt m c n hn).2.2.1
      ∗ owns (c : Thread nD τ) colAcc fullShare (outsAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) rowAcc fullShare (outsAt m c n hn).2.2.1
      ∗ owns (c : Thread nD τ) colAcc fullShare (outsAt m c n hn).2.2.2) ∗ (∃ r, prngReg c r)) := rfl

theorem PhiS_pos (c : Dev nD) (n : ℕ) (h : n ≤ cfg0.N) (hz : n ≠ 0) :
    PhiS m c n h = iprop(iprop(owns (c : Thread nD τ) rowAcc fullShare (outsAt m c (n - 1) (by omega)).2.2.1
      ∗ owns (c : Thread nD τ) colAcc fullShare (outsAt m c (n - 1) (by omega)).2.2.2) ∗ (∃ r, prngReg c r)) := by
  cases n with
  | zero => exact absurd rfl hz
  | succ n => rfl

/-! ## The pipeline's proof data -/

/-- On core `c`: the arrays as the region finds them; after the body each input window at its block, each
    result window at the fold's component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]

/-- Each input window's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  unfold Dat.leavesExact; rw [live_0 t, after_0]
theorem leaves_1 (c : Dev nD) (t : Fin cfg0.N) :
    (dats m 0 c).leavesExact 1 t = owns (c : Thread nD τ) (ms1 t) fullShare (iblk m c 1 t) := by
  unfold Dat.leavesExact; rw [live_1 t, after_1]
theorem leaves_2 (c : Dev nD) (t : Fin cfg0.N) (h15 : t.val % 16 = 15) :
    (dats m 0 c).leavesExact 2 t = owns (c : Thread nD τ) (ms2 t) fullShare (outsAt m c t.val t.isLt).1 := by
  unfold Dat.leavesExact; rw [live_2 t h15, after_2]
theorem leaves_3 (c : Dev nD) (t : Fin cfg0.N) (hl : t.val = 255) :
    (dats m 0 c).leavesExact 3 t = owns (c : Thread nD τ) (ms3 t) fullShare (outsAt m c t.val t.isLt).2.1 := by
  unfold Dat.leavesExact; rw [live_3 t hl, after_3]

end Cert.KernelIdeal.Tile

end
-- ==== Proof.KernelIdeal.Obligation.lean ====
/-
  The body's obligation at every grid point, the run of the whole program, and its frame. At each point the
  closed forms of the five conditions say which of the five runs applies; the invariant hands that run the
  scratch arrays at what the point before left (at anything, where the run does not read them) and takes
  them back at this point's contents.
-/
import proofs.«130830_j11184094838808_2_alg».proof.Proof.KernelIdeal.Carry

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer at written contents is owned at what reads back -/

/-- A whole memref whose buffer holds `f` is owned at `f` read through it. -/
theorem owns_of_writes {S : Shape} (c : Dev nD) (M : Memref sig .tc .vmem S .f32) (f : M.view.ty.Contents (Elt F)) :
    (M.view.loc (c : Thread nD τ) ↦[M.view.set]{fullShare} f : sProp 𝕄) ⊢ owns (c : Thread nD τ) M fullShare (M.view.read (Elt F) f) := by
  unfold owns
  iintro H
  iexists _
  isplitr
  swap
  · iexact H
  · ipureintro; rfl

/-- When the pieces written cover the buffer, what reads back depends neither on what the buffer held nor on the
    memref it is read through. -/
theorem owns_of_cover {S : Shape} (c : Dev nD) (M : Memref sig .tc .vmem S .f32) (f : M.view.ty.Contents (Elt F))
    (V' : View sig .tc .vmem S .f32) (L : List (View.Piece (Elt F) S .f32)) (hcov : ∀ y, ∃ pc ∈ L, y ∈ pc.1.set) :
    (M.view.loc (c : Thread nD τ) ↦[M.view.set]{fullShare} M.view.writes (Elt F) f L : sProp 𝕄)
      ⊢ owns (c : Thread nD τ) M fullShare (V'.read (Elt F) (V'.writes (Elt F) V'.junk L)) := by
  unfold owns
  iintro H
  iexists _
  isplitr
  swap
  · iexact H
  · ipureintro; exact View.read_writes_of_cover _ _ _ _ _ hcov

/-! ## The step, case by case -/

theorem step_first (c : Dev nD) (t : Fin cfg0.N) (hz : t.val = 0) (xs0 : Vec F S8x256 .f32) (xs1 : Vec F S8x4096 .f32) :
    step m c t xs0 xs1 = (idleRowWin, idleColWin,
      VR.read (Elt F) (VR.writes (Elt F) VR.junk (firstAt m c t hz).1),
      VC.read (Elt F) (VC.writes (Elt F) VC.junk (firstAt m c t hz).2.1)) := by
  unfold step; rw [dif_pos hz]

theorem step_rowStart (c : Dev nD) (t : Fin cfg0.N) (hz : ¬t.val = 0) (h0 : t.val % 16 = 0) (xs0 : Vec F S8x256 .f32) (xs1 : Vec F S8x4096 .f32) :
    step m c t xs0 xs1 = (idleRowWin, idleColWin,
      VR.read (Elt F) (VR.writes (Elt F) VR.junk (rowStartAt m c t hz h0 xs1).1),
      VC.read (Elt F) (VC.writes (Elt F) (hCol.unread xs1) (rowStartAt m c t hz h0 xs1).2.1)) := by
  unfold step; rw [dif_neg hz, dif_pos h0]

theorem step_mid (c : Dev nD) (t : Fin cfg0.N) (hz : ¬t.val = 0) (h0 : ¬t.val % 16 = 0) (h15 : ¬t.val % 16 = 15) (xs0 : Vec F S8x256 .f32) (xs1 : Vec F S8x4096 .f32) :
    step m c t xs0 xs1 = (idleRowWin, idleColWin,
      VR.read (Elt F) (VR.writes (Elt F) (hRow.unread xs0) (midAt m c t h0 h15 xs0 xs1).1),
      VC.read (Elt F) (VC.writes (Elt F) (hCol.unread xs1) (midAt m c t h0 h15 xs0 xs1).2.1)) := by
  unfold step; rw [dif_neg hz, dif_neg h0, dif_neg h15]

theorem step_rowEnd (c : Dev nD) (t : Fin cfg0.N) (hz : ¬t.val = 0) (h0 : ¬t.val % 16 = 0) (h15 : t.val % 16 = 15) (hl : ¬t.val = 255) (xs0 : Vec F S8x256 .f32) (xs1 : Vec F S8x4096 .f32) :
    step m c t xs0 xs1 = (VO2.read (Elt F) (VO2.writes (Elt F) VO2.junk (rowEndAt m c t h15 hl xs0 xs1).1), idleColWin,
      VR.read (Elt F) (VR.writes (Elt F) (hRow.unread xs0) (rowEndAt m c t h15 hl xs0 xs1).2.1),
      VC.read (Elt F) (VC.writes (Elt F) (hCol.unread xs1) (rowEndAt m c t h15 hl xs0 xs1).2.2.1)) := by
  unfold step; rw [dif_neg hz, dif_neg h0, dif_pos h15, dif_neg hl]

theorem step_last (c : Dev nD) (t : Fin cfg0.N) (hz : ¬t.val = 0) (h0 : ¬t.val % 16 = 0) (h15 : t.val % 16 = 15) (hl : t.val = 255) (xs0 : Vec F S8x256 .f32) (xs1 : Vec F S8x4096 .f32) :
    step m c t xs0 xs1 = (VO2.read (Elt F) (VO2.writes (Elt F) VO2.junk (lastAt m c t hl xs0 xs1).1),
      VO3.read (Elt F) (VO3.writes (Elt F) VO3.junk (lastAt m c t hl xs0 xs1).2.1),
      VR.read (Elt F) (VR.writes (Elt F) (hRow.unread xs0) (lastAt m c t hl xs0 xs1).2.2.1),
      VC.read (Elt F) (VC.writes (Elt F) (hCol.unread xs1) (lastAt m c t hl xs0 xs1).2.2.2.1)) := by
  unfold step; rw [dif_neg hz, dif_neg h0, dif_pos h15, dif_pos hl]

/-! ## Where a run's pieces cover a buffer: one of them is a store of the whole buffer -/

theorem first_row_cover (c : Dev nD) (t : Fin cfg0.N) (hz : t.val = 0) (y : S8x256.Idx) :
    ∃ pc ∈ (firstAt m c t hz).1, y ∈ pc.1.set := View.cover_of_wholeMem _ (by sl_whole_mem) y
theorem first_col_cover (c : Dev nD) (t : Fin cfg0.N) (hz : t.val = 0) (y : S8x4096.Idx) :
    ∃ pc ∈ (firstAt m c t hz).2.1, y ∈ pc.1.set := View.cover_of_wholeMem _ (by sl_whole_mem) y
theorem rowStart_row_cover (c : Dev nD) (t : Fin cfg0.N) (hz : ¬t.val = 0) (h0 : t.val % 16 = 0) (xs1 : Vec F S8x4096 .f32) (y : S8x256.Idx) :
    ∃ pc ∈ (rowStartAt m c t hz h0 xs1).1, y ∈ pc.1.set := View.cover_of_wholeMem _ (by sl_whole_mem) y
theorem rowEnd_win_cover (c : Dev nD) (t : Fin cfg0.N) (h15 : t.val % 16 = 15) (hl : ¬t.val = 255) (xs0 : Vec F S8x256 .f32) (xs1 : Vec F S8x4096 .f32) (y : S8x256.Idx) :
    ∃ pc ∈ (rowEndAt m c t h15 hl xs0 xs1).1, y ∈ pc.1.set := View.cover_of_wholeMem _ (by sl_whole_mem) y
theorem last_rowWin_cover (c : Dev nD) (t : Fin cfg0.N) (hl : t.val = 255) (xs0 : Vec F S8x256 .f32) (xs1 : Vec F S8x4096 .f32) (y : S8x256.Idx) :
    ∃ pc ∈ (lastAt m c t hl xs0 xs1).1, y ∈ pc.1.set := View.cover_of_wholeMem _ (by sl_whole_mem) y
theorem last_colWin_cover (c : Dev nD) (t : Fin cfg0.N) (hl : t.val = 255) (xs0 : Vec F S8x256 .f32) (xs1 : Vec F S8x4096 .f32) (y : S8x4096.Idx) :
    ∃ pc ∈ (lastAt m c t hl xs0 xs1).2.1, y ∈ pc.1.set := View.cover_of_wholeMem _ (by sl_whole_mem) y

/-! ## The body at any point -/

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [leaves_0, leaves_1]
  have hN : t.val < 256 := lt_of_lt_of_eq t.isLt (show cfg0.N = 256 from N_0)
  by_cases hz : t.val = 0
  · -- the first point
    rw [Dat.leavesExact_idle (dats m 0 c) 2 t (idle_2 t (by omega)) (noFlush_2 t (by omega)),
      Dat.leavesExact_idle (dats m 0 c) 3 t (idle_3 t (by omega)) (noFlush_3 t (by omega))]
    rw [outsAt_zero m c t hz, step_first m c t hz]; dsimp only
    rw [PhiS_castSucc m c t, PhiS_zero m c _ _ hz, PhiA_eq]
    iintro ⟨⟨⟨HS0, HS1⟩, Hg⟩, Ho, ⟨%d0, H0⟩, ⟨%d1, H1⟩, ⟨%d2, H2⟩, ⟨%d3, H3⟩⟩
    iapply ((firstAt m c t hz).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%e0, HS0⟩, ⟨%e1, HS1⟩⟩
    isplitl [HS0 HS1 Hg]
    · isplitl [HS0 HS1]
      · isplitl [HS0]
        · iapply (owns_of_cover c _ _ _ _ (first_row_cover m c t hz)); iexact HS0
        · iapply (owns_of_cover c _ _ _ _ (first_col_cover m c t hz)); iexact HS1
      iexact Hg
    isplitl [Ho]; · iexact Ho
    isplitl [H0]; · iexact H0
    isplitl [H1]; · iexact H1
    isplitl [H2]; · iexists _; iexact H2
    iexists _; iexact H3
  · rw [PhiS_castSucc m c t, PhiS_pos m c _ _ hz, outsAt_pos m c t hz]
    by_cases h0 : t.val % 16 = 0
    · -- the first column tile of a later row
      rw [Dat.leavesExact_idle (dats m 0 c) 2 t (idle_2 t (by omega)) (noFlush_2 t (by omega)),
        Dat.leavesExact_idle (dats m 0 c) 3 t (idle_3 t (by omega)) (noFlush_3 t (by omega))]
      rw [step_rowStart m c t hz h0]; dsimp only
      iintro ⟨⟨⟨HS0, HS1⟩, Hg⟩, Ho, ⟨%d0, H0⟩, ⟨%d1, H1⟩, ⟨%d2, H2⟩, ⟨%d3, H3⟩⟩
      iapply ((rowStartAt m c t hz h0 _).2.2 _ _ Set.univ _)
      isplitl [H0]; · iexact H0
      isplitl [H1]; · iexact H1
      isplitl [H2]; · iexact H2
      isplitl [H3]; · iexact H3
      isplitl [HS0]; · iexists _; iexact HS0
      isplitl [HS1]; · iexact HS1
      iintro ⟨H0, H1, H2, H3, ⟨%e0, HS0⟩, HS1⟩
      isplitl [HS0 HS1 Hg]
      · isplitl [HS0 HS1]
        · isplitl [HS0]
          · iapply (owns_of_cover c _ _ _ _ (rowStart_row_cover m c t hz h0 _)); iexact HS0
          · iapply (owns_of_writes c _ _); iexact HS1
        iexact Hg
      isplitl [Ho]; · iexact Ho
      isplitl [H0]; · iexact H0
      isplitl [H1]; · iexact H1
      isplitl [H2]; · iexists _; iexact H2
      iexists _; iexact H3
    · by_cases h15 : t.val % 16 = 15
      · by_cases hl : t.val = 255
        · -- the last point
          rw [leaves_2 m c t h15, leaves_3 m c t hl, outsAt_pos m c t hz]
          rw [step_last m c t hz h0 h15 hl]; dsimp only
          iintro ⟨⟨⟨HS0, HS1⟩, Hg⟩, Ho, ⟨%d0, H0⟩, ⟨%d1, H1⟩, ⟨%d2, H2⟩, ⟨%d3, H3⟩⟩
          iapply ((lastAt m c t hl _ _).2.2.2.2 Set.univ _)
          isplitl [H0]; · iexact H0
          isplitl [H1]; · iexact H1
          isplitl [H2]; · iexists _; iexact H2
          isplitl [H3]; · iexists _; iexact H3
          isplitl [HS0]; · iexact HS0
          isplitl [HS1]; · iexact HS1
          iintro ⟨H0, H1, ⟨%e2, H2⟩, ⟨%e3, H3⟩, HS0, HS1⟩
          isplitl [HS0 HS1 Hg]
          · isplitl [HS0 HS1]
            · isplitl [HS0]
              · iapply (owns_of_writes c _ _); iexact HS0
              · iapply (owns_of_writes c _ _); iexact HS1
            iexact Hg
          isplitl [Ho]; · iexact Ho
          isplitl [H0]; · iexact H0
          isplitl [H1]; · iexact H1
          isplitl [H2]
          · iapply (owns_of_cover c _ _ _ _ (last_rowWin_cover m c t hl _ _)); iexact H2
          · iapply (owns_of_cover c _ _ _ _ (last_colWin_cover m c t hl _ _)); iexact H3
        · -- the last column tile of a row before the last
          rw [leaves_2 m c t h15, Dat.leavesExact_idle (dats m 0 c) 3 t (idle_3 t hl) (noFlush_3 t hl), outsAt_pos m c t hz]
          rw [step_rowEnd m c t hz h0 h15 hl]; dsimp only
          iintro ⟨⟨⟨HS0, HS1⟩, Hg⟩, Ho, ⟨%d0, H0⟩, ⟨%d1, H1⟩, ⟨%d2, H2⟩, ⟨%d3, H3⟩⟩
          iapply ((rowEndAt m c t h15 hl _ _).2.2.2 _ Set.univ _)
          isplitl [H0]; · iexact H0
          isplitl [H1]; · iexact H1
          isplitl [H2]; · iexists _; iexact H2
          isplitl [H3]; · iexact H3
          isplitl [HS0]; · iexact HS0
          isplitl [HS1]; · iexact HS1
          iintro ⟨H0, H1, ⟨%e2, H2⟩, H3, HS0, HS1⟩
          isplitl [HS0 HS1 Hg]
          · isplitl [HS0 HS1]
            · isplitl [HS0]
              · iapply (owns_of_writes c _ _); iexact HS0
              · iapply (owns_of_writes c _ _); iexact HS1
            iexact Hg
          isplitl [Ho]; · iexact Ho
          isplitl [H0]; · iexact H0
          isplitl [H1]; · iexact H1
          isplitl [H2]
          · iapply (owns_of_cover c _ _ _ _ (rowEnd_win_cover m c t h15 hl _ _)); iexact H2
          · iexists _; iexact H3
      · -- a column tile in the middle of a row
        rw [Dat.leavesExact_idle (dats m 0 c) 2 t (idle_2 t h15) (noFlush_2 t h15),
          Dat.leavesExact_idle (dats m 0 c) 3 t (idle_3 t (by omega)) (noFlush_3 t (by omega))]
        rw [step_mid m c t hz h0 h15]; dsimp only
        iintro ⟨⟨⟨HS0, HS1⟩, Hg⟩, Ho, ⟨%d0, H0⟩, ⟨%d1, H1⟩, ⟨%d2, H2⟩, ⟨%d3, H3⟩⟩
        iapply ((midAt m c t h0 h15 _ _).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]
            · iapply (owns_of_writes c _ _); iexact HS0
            · iapply (owns_of_writes c _ _); iexact HS1
          iexact Hg
        isplitl [Ho]; · iexact Ho
        isplitl [H0]; · iexact H0
        isplitl [H1]; · iexact H1
        isplitl [H2]; · iexists _; iexact H2
        iexists _; iexact H3

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the named contents of the scratch arrays can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

/-- In particular after the last. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, and in every final state each array of the pipeline
    holds what the library computes from the proof data, every other buffer what the host lines after the
    region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Tile

end
-- ==== Proof.Nearest.lean ====
/-
  The mathematics both programs compute, stated once over the extended reals and over no program.
  For two points u, v of three coordinates the clamped squared distance is
      max (|u|² + |v|² − 2 (u · v), 0),
  each of the three terms a sum over the coordinates. The nearest-neighbour distance of a point to a family
  of points is the minimum of these over the family, started from +inf; a minimum is used through its
  universal property only: z lies below it exactly when z lies below every member.
-/
import Idealize.ShloMosaic.PureOps.Ideal
import Idealize.ShloMosaic.PureOps.Ideal.Laws
import Idealize.ShloMosaic.Lib.ValueIdx

noncomputable section

open scoped BigOperators

namespace Cert.Nearest

open Idealize.ShloMosaic Idealize.ShloMosaic.ValueIdx

/-- The float +inf, the value every minimum starts from. -/
abbrev posInf : Ideal .f32 := Ideal.ofBits .f32 0x7F800000#32
/-- The floats 2 and 0, kept as their words: both programs spell them the same way. -/
abbrev two : Ideal .f32 := Ideal.ofBits .f32 0x40000000#32
abbrev zero : Ideal .f32 := Ideal.ofBits .f32 0x00000000#32

/-- +inf is the top of the extended reals. -/
theorem posInf_eq_top : posInf = (⊤ : EReal) := by
  simp [posInf, Ideal.ofBits, Ideal.ieee]

/-- The clamped squared distance of two points of three coordinates. -/
def sqDist (u v : Fin 3 → Ideal .f32) : Ideal .f32 :=
  max (((∑ k : Fin 3, u k * u k) + (∑ k : Fin 3, v k * v k)) - two * (∑ k : Fin 3, u k * v k)) zero

/-- The minimum of a finite family, from +inf. -/
def minOver {n : ℕ} (f : Fin n → Ideal .f32) : Ideal .f32 :=
  (Finset.univ : Finset (Fin n)).fold min posInf f

/-- Below the minimum of a family is below every member. -/
theorem le_minOver {n : ℕ} (f : Fin n → Ideal .f32) (z : EReal) : z ≤ minOver f ↔ ∀ k, z ≤ f k := by
  unfold minOver
  rw [Finset.le_fold_min, posInf_eq_top]
  exact ⟨fun h k => h.2 k (Finset.mem_univ k), fun h => ⟨le_top, fun k _ => h k⟩⟩

/-- Whatever has the minimum's universal property is the minimum. -/
theorem eq_minOver {n : ℕ} (f : Fin n → Ideal .f32) (a : EReal) (h : ∀ z : EReal, z ≤ a ↔ ∀ k, z ≤ f k) :
    a = minOver f :=
  eq_of_forall_le_iff fun z => (h z).trans (le_minOver f z).symm

/-- Lowering by +inf changes nothing. -/
theorem min_posInf_left (x : EReal) : min posInf x = x := by
  rw [posInf_eq_top]; exact min_eq_right le_top

/-- Below a minimum of two is below both. -/
theorem le_min_iff' (z a b : EReal) : z ≤ min a b ↔ z ≤ a ∧ z ≤ b := le_min_iff

end Cert.Nearest

end
-- ==== Proof.KernelIdeal.TileValue.lean ====
/-
  The tile's arithmetic, read at an index over the extended reals. For a tile of 256 rows (points of the first
  cloud) against 256 columns (points of the second) in each of 8 batches, entry (b, p, q) of the body's distance
  tile is the clamped squared distance of row point p and column point q; its minimum along q is the tile's row
  minimum, its minimum along p the tile's column minimum.
-/
import proofs.«130830_j11184094838808_2_alg».proof.Proof.Gen.KernelIdeal.Skeleton
import proofs.«130830_j11184094838808_2_alg».proof.Proof.Nearest
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

set_option maxRecDepth 16384

noncomputable section

open scoped BigOperators

namespace Cert.KernelIdeal.TileValue

open Idealize.ShloMosaic Idealize.ShloMosaic.ValueIdx Idealize.ShloMosaic.View
open Cert.KernelIdeal Cert.KernelIdeal.Gen Cert.Nearest

/-! ## Layout: a per-row value laid along the columns, a per-column value laid along the rows -/

/-- A value per (batch, row) given a trailing unit axis reads, at (b, p, 0), the value at (b, p). -/
theorem cast_col_apply (v : FVec Ideal S8x256 .f32) (b : Fin 8) (p : Fin 256) (u : Fin 1) :
    shapeCast S8x256x1 v shapeCasts_S8x256_S8x256x1 (ix3 b p u) = v (ix2 b p) :=
  shapeCast_apply v _ _ _ (by
    have hu : u.val = 0 := by omega
    rw [Shape.rowMajor_val_two, Shape.rowMajor_val_three]
    show b.val * 256 + p.val = (b.val * 256 + p.val) * 1 + u.val
    rw [hu, Nat.mul_one, Nat.add_zero])

/-- A value per (batch, column) given a middle unit axis reads, at (b, 0, q), the value at (b, q). -/
theorem cast_row_apply (v : FVec Ideal S8x256 .f32) (b : Fin 8) (u : Fin 1) (q : Fin 256) :
    shapeCast S8x1x256 v shapeCasts_S8x256_S8x1x256 (ix3 b u q) = v (ix2 b q) :=
  shapeCast_apply v _ _ _ (by
    have hu : u.val = 0 := by omega
    rw [Shape.rowMajor_val_two, Shape.rowMajor_val_three]
    show b.val * 256 + q.val = (b.val * 1 + u.val) * 256 + q.val
    rw [hu, Nat.mul_one, Nat.add_zero])

/-- The per-row value repeated along the columns. -/
theorem bcast_col_apply (w : FVec Ideal S8x256x1 .f32) (b : Fin 8) (p q : Fin 256) :
    broadcastTo S8x256x256 w broadcasts_S8x256x1_S8x256x256 (ix3 b p q) = w (ix3 b p (0 : Fin 1)) := by
  refine broadcastTo_apply w _ (ix3 b p q) (ix3 b p (0 : Fin 1)) fun ax => ?_
  match ax with
  | ⟨0, _⟩ => rfl
  | ⟨1, _⟩ => rfl
  | ⟨2, _⟩ => rfl

/-- The per-column value repeated along the rows. -/
theorem bcast_row_apply (w : FVec Ideal S8x1x256 .f32) (b : Fin 8) (p q : Fin 256) :
    broadcastTo S8x256x256 w broadcasts_S8x1x256_S8x256x256 (ix3 b p q) = w (ix3 b (0 : Fin 1) q) := by
  refine broadcastTo_apply w _ (ix3 b p q) (ix3 b (0 : Fin 1) q) fun ax => ?_
  match ax with
  | ⟨0, _⟩ => rfl
  | ⟨1, _⟩ => rfl
  | ⟨2, _⟩ => rfl

/-! ## The three sums over the coordinates -/

/-- The sum over the three coordinates of a point. -/
theorem coordSum_apply (v : FVec Ideal S8x256x3 .f32) (b : Fin 8) (p : Fin 256) :
    multiReduction .add [2] S8x256 v 0x00000000#32 reduces_S8x256x3_S8x256 (.inl rfl) rfl (ix2 b p)
      = ∑ k : Fin 3, v (ix3 b p k) := by
  refine (Ideal.multiReduction_add_single v 0x00000000#32 reduces_S8x256x3_S8x256 (.inl rfl) rfl (ix2 b p)).trans ?_
  refine Finset.sum_congr rfl fun k _ => congrArg v ?_
  funext a; apply Fin.ext
  match a with
  | ⟨0, _⟩ => rfl
  | ⟨1, _⟩ => rfl
  | ⟨2, _⟩ => rfl

theorem lhs_0 (i : S8x256x256.Idx) (q : dot_S8x256x3_S8x256x3_S8x256x256_2_2_1_1_0_0.contr.Idx) : (dot_S8x256x3_S8x256x3_S8x256x256_2_2_1_1_0_0.lhsIdx i q 0).val = (i 0).val := by
  unfold DotDims.lhsIdx
  rw [dif_pos (show (0 : Fin S8x256x3.rank) ∈ dot_S8x256x3_S8x256x3_S8x256x256_2_2_1_1_0_0.lhsBatch by decide)]
  rfl
theorem lhs_1 (i : S8x256x256.Idx) (q : dot_S8x256x3_S8x256x3_S8x256x256_2_2_1_1_0_0.contr.Idx) : (dot_S8x256x3_S8x256x3_S8x256x256_2_2_1_1_0_0.lhsIdx i q 1).val = (i 1).val := by
  unfold DotDims.lhsIdx
  rw [dif_neg (show ¬(1 : Fin S8x256x3.rank) ∈ dot_S8x256x3_S8x256x3_S8x256x256_2_2_1_1_0_0.lhsBatch by decide), dif_pos (show (1 : Fin S8x256x3.rank) ∈ dot_S8x256x3_S8x256x3_S8x256x256_2_2_1_1_0_0.lhsNonContracting by decide)]
  rfl
theorem lhs_2 (i : S8x256x256.Idx) (q : dot_S8x256x3_S8x256x3_S8x256x256_2_2_1_1_0_0.contr.Idx) : (dot_S8x256x3_S8x256x3_S8x256x256_2_2_1_1_0_0.lhsIdx i q 2).val = (q ⟨0, by decide⟩).val :=
  dot_S8x256x3_S8x256x3_S8x256x256_2_2_1_1_0_0.lhsIdx_val_of_single rfl i q
theorem rhs_0 (i : S8x256x256.Idx) (q : dot_S8x256x3_S8x256x3_S8x256x256_2_2_1_1_0_0.contr.Idx) : (dot_S8x256x3_S8x256x3_S8x256x256_2_2_1_1_0_0.rhsIdx i q 0).val = (i 0).val := by
  unfold DotDims.rhsIdx
  rw [dif_pos (show (0 : Fin S8x256x3.rank) ∈ dot_S8x256x3_S8x256x3_S8x256x256_2_2_1_1_0_0.rhsBatch by decide)]
  rfl
theorem rhs_1 (i : S8x256x256.Idx) (q : dot_S8x256x3_S8x256x3_S8x256x256_2_2_1_1_0_0.contr.Idx) : (dot_S8x256x3_S8x256x3_S8x256x256_2_2_1_1_0_0.rhsIdx i q 1).val = (i 2).val := by
  unfold DotDims.rhsIdx
  rw [dif_neg (show ¬(1 : Fin S8x256x3.rank) ∈ dot_S8x256x3_S8x256x3_S8x256x256_2_2_1_1_0_0.rhsBatch by decide), dif_pos (show (1 : Fin S8x256x3.rank) ∈ dot_S8x256x3_S8x256x3_S8x256x256_2_2_1_1_0_0.rhsNonContracting by decide)]
  rfl
theorem rhs_2 (i : S8x256x256.Idx) (q : dot_S8x256x3_S8x256x3_S8x256x256_2_2_1_1_0_0.contr.Idx) : (dot_S8x256x3_S8x256x3_S8x256x256_2_2_1_1_0_0.rhsIdx i q 2).val = (q ⟨0, by decide⟩).val :=
  dot_S8x256x3_S8x256x3_S8x256x256_2_2_1_1_0_0.rhsIdx_val_of_single rfl i q

/-- The product of the row points with the column points, batch by batch: entry (b, p, q) is the inner product of
    row point p and column point q. -/
theorem inner_apply (x0 x1 : FVec Ideal S8x256x3 .f32) (b : Fin 8) (p q : Fin 256) :
    matmul dot_S8x256x3_S8x256x3_S8x256x256_2_2_1_1_0_0 (some .fp32) x0 x1 (constant S8x256x256 .f32 0x00000000#32) (ix3 b p q)
      = ∑ k : Fin 3, x0 (ix3 b p k) * x1 (ix3 b q k) := by
  refine (Ideal.matmul_constant_zero_apply dot_S8x256x3_S8x256x3_S8x256x256_2_2_1_1_0_0 (some .fp32) x0 x1 (ix3 b p q)).trans ?_
  rw [← Equiv.sum_comp (ValueIdx.contrEquiv1 dot_S8x256x3_S8x256x3_S8x256x256_2_2_1_1_0_0 3 rfl rfl).symm]
  refine Finset.sum_congr rfl fun k _ => ?_
  have hk := ValueIdx.contrEquiv1_symm_val dot_S8x256x3_S8x256x3_S8x256x256_2_2_1_1_0_0 3 rfl rfl k
  have el : dot_S8x256x3_S8x256x3_S8x256x256_2_2_1_1_0_0.lhsIdx (ix3 b p q) ((ValueIdx.contrEquiv1 dot_S8x256x3_S8x256x3_S8x256x256_2_2_1_1_0_0 3 rfl rfl).symm k) = ix3 b p k := funext fun a => Fin.ext (by
    match a with
    | ⟨0, _⟩ => exact lhs_0 _ _
    | ⟨1, _⟩ => exact lhs_1 _ _
    | ⟨2, _⟩ => exact (lhs_2 _ _).trans hk)
  have er : dot_S8x256x3_S8x256x3_S8x256x256_2_2_1_1_0_0.rhsIdx (ix3 b p q) ((ValueIdx.contrEquiv1 dot_S8x256x3_S8x256x3_S8x256x256_2_2_1_1_0_0 3 rfl rfl).symm k) = ix3 b q k := funext fun a => Fin.ext (by
    match a with
    | ⟨0, _⟩ => exact rhs_0 _ _
    | ⟨1, _⟩ => exact rhs_1 _ _
    | ⟨2, _⟩ => exact (rhs_2 _ _).trans hk)
  rw [el, er]

/-! ## The two minima of a tile -/

/-- The minimum along the columns of a tile, from +inf. -/
theorem minAlongCols_apply (v : FVec Ideal S8x256x256 .f32) (b : Fin 8) (p : Fin 256) :
    multiReduction .minimumf [2] S8x256 v 0x7F800000#32 reduces_S8x256x256_S8x256 (.inl rfl) rfl (ix2 b p)
      = minOver fun q : Fin 256 => v (ix3 b p q) := by
  refine (multiReduction_minimumf_eq_fold v 0x7F800000#32 reduces_S8x256x256_S8x256 (.inl rfl) rfl (ix2 b p)).trans ?_
  refine (Shape.Reduces.fold_filter_drop_single reduces_S8x256x256_S8x256 FloatOps.minimumf _ v (ix2 b p)).trans ?_
  have hf : (v ∘ reduces_S8x256x256_S8x256.lift (ix2 b p)) = fun q : Fin 256 => v (ix3 b p q) :=
    funext fun q => congrArg v (by
      funext a; apply Fin.ext
      match a with
      | ⟨0, _⟩ => rfl
      | ⟨1, _⟩ => rfl
      | ⟨2, _⟩ => rfl)
  rw [hf]; rfl

/-- The minimum along the rows of a tile, from +inf. -/
theorem minAlongRows_apply (v : FVec Ideal S8x256x256 .f32) (b : Fin 8) (q : Fin 256) :
    multiReduction .minimumf [1] S8x256 v 0x7F800000#32 reduces_S8x256x256_S8x256_2 (.inl rfl) rfl (ix2 b q)
      = minOver fun p : Fin 256 => v (ix3 b p q) := by
  refine (multiReduction_minimumf_eq_fold v 0x7F800000#32 reduces_S8x256x256_S8x256_2 (.inl rfl) rfl (ix2 b q)).trans ?_
  refine (Shape.Reduces.fold_filter_drop_single reduces_S8x256x256_S8x256_2 FloatOps.minimumf _ v (ix2 b q)).trans ?_
  have hf : (v ∘ reduces_S8x256x256_S8x256_2.lift (ix2 b q)) = fun p : Fin 256 => v (ix3 b p q) :=
    funext fun p => congrArg v (by
      funext a; apply Fin.ext
      match a with
      | ⟨0, _⟩ => rfl
      | ⟨1, _⟩ => rfl
      | ⟨2, _⟩ => rfl)
  rw [hf]; rfl

/-! ## The body's values at an index -/

/-- Entry (b, p, q) of the distance tile is the clamped squared distance of row point p and column point q. -/
theorem dist_apply (x0 x1 : Vec Ideal S8x256x3 .f32) (b : Fin 8) (p q : Fin 256) :
    k0_pay3 (F := Ideal) x0 x1 (ix3 b p q) = sqDist (fun k => x0 (ix3 b p k)) (fun k => x1 (ix3 b q k)) := by
  unfold k0_pay3 sqDist
  dsimp only
  refine congrArg₂ max (congrArg₂ (· - ·) (congrArg₂ (· + ·) ?_ ?_) (congrArg₂ (· * ·) rfl ?_)) rfl
  · refine (bcast_col_apply _ b p q).trans ?_
    refine (cast_col_apply _ b p 0).trans ?_
    exact coordSum_apply _ b p
  · refine (bcast_row_apply _ b p q).trans ?_
    refine (cast_row_apply _ b 0 q).trans ?_
    exact coordSum_apply _ b q
  · exact inner_apply x0 x1 b p q

/-- The tile's row minimum: for row point p, the least distance to a column point of the tile. -/
theorem tileRowMin_apply (x0 x1 : Vec Ideal S8x256x3 .f32) (b : Fin 8) (p : Fin 256) :
    k0_pay4 (F := Ideal) x0 x1 (ix2 b p)
      = minOver fun q : Fin 256 => sqDist (fun k => x0 (ix3 b p k)) (fun k => x1 (ix3 b q k)) := by
  unfold k0_pay4
  refine (minAlongCols_apply _ b p).trans ?_
  exact congrArg minOver (funext fun q => dist_apply x0 x1 b p q)

/-- The tile's column minimum: for column point q, the least distance to a row point of the tile. -/
theorem tileColMin_apply (x0 x1 : Vec Ideal S8x256x3 .f32) (b : Fin 8) (q : Fin 256) :
    k0_pay5 (F := Ideal) x0 x1 (ix2 b q)
      = minOver fun p : Fin 256 => sqDist (fun k => x0 (ix3 b p k)) (fun k => x1 (ix3 b q k)) := by
  unfold k0_pay5
  refine (minAlongRows_apply _ b q).trans ?_
  exact congrArg minOver (funext fun p => dist_apply x0 x1 b p q)

/-- Starting the running row minimum: the tile's row minimum. -/
theorem startRow_eq (x0 x1 : Vec Ideal S8x256x3 .f32) : k0_pay6 (F := Ideal) x0 x1 = k0_pay4 (F := Ideal) x0 x1 := by
  unfold k0_pay6
  exact shapeCast_self _ _

/-- Lowering the running row minimum by the tile's. -/
theorem lowerRow_apply (x0 x1 : Vec Ideal S8x256x3 .f32) (acc : Vec Ideal S8x256 .f32) (i : S8x256.Idx) :
    k0_pay7 (F := Ideal) x0 x1 acc i = min (acc i) (k0_pay4 (F := Ideal) x0 x1 i) := by
  unfold k0_pay7
  rw [shapeCast_self]
  rfl

/-- The fill of the running column minimum: +inf everywhere. -/
theorem fill_apply (i : S8x4096.Idx) : k0_pay1 (F := Ideal) i = posInf := by
  unfold k0_pay1
  rw [shapeCast_self]
  rfl

/-- Lowering a slice of the running column minimum by the tile's column minimum. -/
theorem lowerCol_apply (colMin : FVec Ideal S8x256 .f32) (cur : Vec Ideal S8x256 .f32) (i : S8x256.Idx) :
    k0_pay2 (F := Ideal) colMin cur i = min (cur i) (colMin i) := by
  unfold k0_pay2
  rw [shapeCast_self]
  rfl

end Cert.KernelIdeal.TileValue

end
-- ==== Proof.KernelIdeal.SliceStore.lean ====
/-
  Reading back what a store leaves, over the extended reals. A load of a whole buffer reads its contents. The
  store through the slice of the running column minimum that starts at column o and is 256 columns wide
  leaves, at column o + j, its payload at j — the former value there lowered by the tile's column minimum —
  and leaves every column outside the slice as it was.
-/
import proofs.«130830_j11184094838808_2_alg».proof.Proof.KernelIdeal.Cases
import proofs.«130830_j11184094838808_2_alg».proof.Proof.KernelIdeal.TileValue
import Idealize.ShloMosaic.Lib.ValueIdx
import Idealize.ShloMosaic.Lib.Pipeline.Value
import Idealize.ShloMosaic.Lib.WritesUnit

set_option maxRecDepth 16384

noncomputable section

namespace Cert.KernelIdeal.Tile

open Idealize.ShloMosaic Idealize.ShloMosaic.TcCoe Idealize.ShloMosaic.ValueIdx
open Idealize.SL.Sem
open Cert.KernelIdeal Cert.KernelIdeal.Gen Cert.Nearest

variable {F : FTy → Type} [FloatOps F]

theorem zeros2 : (![0, 0] : Fin 2 → ℕ) = fun _ => 0 := by
  funext a; match a with | ⟨0, _⟩ => rfl | ⟨1, _⟩ => rfl
theorem zeros3 : (![0, 0, 0] : Fin 3 → ℕ) = fun _ => 0 := by
  funext a; match a with | ⟨0, _⟩ => rfl | ⟨1, _⟩ => rfl | ⟨2, _⟩ => rfl

/-- The slice of the running column minimum the body touches at point t starts at column (t mod 16) · 256. -/
theorem sliceStart : ∀ t : Fin cfg0.N, k0_off1 (grid0.coords t) = ![0, t.val % 16 * 256] :=
  (by decide +kernel : ∀ t : Fin grid0.N, k0_off1 (grid0.coords t) = ![0, t.val % 16 * 256])

/-- A whole-buffer load of a tile of points reads the tile. -/
theorem loadTile (M : Memref sig .tc .vmem S8x256x3 .f32) (h : M.IsWhole) (X : Vec F S8x256x3 .f32) :
    View.readAt (Elt F) M.view (Rect.unit ![0, 0, 0] ![8, 256, 3] inb_S8x256x3_S8x256x3_0_0_0).toLoadRect (h.unread X) = X := by
  rw [View.readAt_eq_ld, h.read_unread]
  exact View.ld_unit_zero (S := S8x256x3) zeros3 _ X

/-- A whole-buffer load of a per-row array reads it. -/
theorem loadRows (M : Memref sig .tc .vmem S8x256 .f32) (h : M.IsWhole) (X : Vec F S8x256 .f32) :
    View.readAt (Elt F) M.view (Rect.unit ![0, 0] ![8, 256] inb_S8x256_S8x256_0_0).toLoadRect (h.unread X) = X := by
  rw [View.readAt_eq_ld, h.read_unread]
  exact View.ld_unit_zero (S := S8x256) zeros2 _ X

/-- A load of the slice at column o reads, at (b, j), the array at (b, o + j). -/
theorem loadSlice (M : Memref sig .tc .vmem S8x4096 .f32) (h : M.IsWhole) (X : Vec F S8x4096 .f32)
    (off : Fin 2 → ℕ) (o : ℕ) (hoff : off = ![0, o]) (inb : ∀ a, off a + S8x256.size a ≤ S8x4096.size a)
    (b : Fin 8) (j : Fin 256) (Q : Fin 4096) (hQ : Q.val = o + j.val) :
    View.readAt (Elt F) M.view (Rect.unit (s := S8x4096) off S8x256.size inb).toLoadRect (h.unread X) (ix2 b j) = X (ix2 b Q) := by
  subst hoff
  rw [View.readAt_eq_ld, h.read_unread]
  show X ((Rect.unit (s := S8x4096) ![0, o] S8x256.size inb).idx (ix2 b j)) = X (ix2 b Q)
  refine congrArg X (funext fun a => Fin.ext ?_)
  match a with
  | ⟨0, _⟩ => show 0 + 1 * b.val = b.val; omega
  | ⟨1, _⟩ => show o + 1 * j.val = Q.val; omega

/-- Inside the slice a one-piece store leaves its payload. -/
theorem storeSlice_in (V : View sig .tc .vmem S8x4096 .f32) (f : V.ty.Contents (Elt F))
    (off : Fin 2 → ℕ) (o : ℕ) (hoff : off = ![0, o]) (inb : ∀ a, off a + S8x256.size a ≤ S8x4096.size a)
    (w : (Rect.unit (s := S8x4096) off S8x256.size inb).shape.Idx → Elt F .f32) (L : List (View.Piece (Elt F) S8x4096 .f32))
    (b : Fin 8) (j : Fin 256) (Q : Fin 4096) (hQ : Q.val = o + j.val) :
    V.read (Elt F) (V.writes (Elt F) f ((⟨Rect.unit (s := S8x4096) off S8x256.size inb, w⟩ : View.Piece (Elt F) S8x4096 .f32) :: L)) (ix2 b Q)
      = w (ix2 b j) :=
  View.read_writes_cons_unit_of_mem V f inb w L (ix2 b Q) (ix2 b j) hoff (fun a => by
    match a with
    | ⟨0, _⟩ => show b.val = 0 + b.val; omega
    | ⟨1, _⟩ => show Q.val = o + j.val; exact hQ)

/-- Outside the slice it leaves what was there. -/
theorem storeSlice_out (V : View sig .tc .vmem S8x4096 .f32) (f : V.ty.Contents (Elt F))
    (off : Fin 2 → ℕ) (o : ℕ) (hoff : off = ![0, o]) (inb : ∀ a, off a + S8x256.size a ≤ S8x4096.size a)
    (w : (Rect.unit (s := S8x4096) off S8x256.size inb).shape.Idx → Elt F .f32) (L : List (View.Piece (Elt F) S8x4096 .f32))
    (b : Fin 8) (Q : Fin 4096) (hQ : Q.val < o ∨ o + 256 ≤ Q.val) :
    V.read (Elt F) (V.writes (Elt F) f ((⟨Rect.unit (s := S8x4096) off S8x256.size inb, w⟩ : View.Piece (Elt F) S8x4096 .f32) :: L)) (ix2 b Q)
      = V.read (Elt F) (V.writes (Elt F) f L) (ix2 b Q) :=
  View.read_writes_cons_unit_of_not_mem V f inb w L (ix2 b Q) hoff (1 : Fin 2) (by
    show Q.val < o ∨ o + 256 ≤ Q.val; exact hQ)

/-- A store of the whole per-column array leaves its payload, whatever was stored before. -/
theorem storeAllCols (V : View sig .tc .vmem S8x4096 .f32) (f : V.ty.Contents (Elt F))
    (w : S8x4096.Idx → Elt F .f32) (L : List (View.Piece (Elt F) S8x4096 .f32)) :
    V.read (Elt F) (V.writes (Elt F) f ((⟨Rect.unit (s := S8x4096) ![0, 0] ![8, 4096] inb_S8x4096_S8x4096_0_0, w⟩ : View.Piece (Elt F) S8x4096 .f32) :: L)) = w := by
  rw [View.read_writes_eq_canon _ _ _ (fun y => ⟨_, List.mem_cons_self, View.mem_set_unit_zero zeros2 inb_S8x4096_S8x4096_0_0 y⟩)]
  exact View.canon_cons_unit_zero (S := S8x4096) zeros2 _ w L

/-- A store of the whole per-row array leaves its payload. -/
theorem storeAllRows (V : View sig .tc .vmem S8x256 .f32) (f : V.ty.Contents (Elt F))
    (w : S8x256.Idx → Elt F .f32) (L : List (View.Piece (Elt F) S8x256 .f32)) :
    V.read (Elt F) (V.writes (Elt F) f ((⟨Rect.unit (s := S8x256) ![0, 0] ![8, 256] inb_S8x256_S8x256_0_0, w⟩ : View.Piece (Elt F) S8x256 .f32) :: L)) = w := by
  rw [View.read_writes_eq_canon _ _ _ (fun y => ⟨_, List.mem_cons_self, View.mem_set_unit_zero zeros2 inb_S8x256_S8x256_0_0 y⟩)]
  exact View.canon_cons_unit_zero (S := S8x256) zeros2 _ w L

end Cert.KernelIdeal.Tile

end
-- ==== Proof.KernelIdeal.Pieces.lean ====
/-
  What the stores of one grid point leave in the scratch arrays and in the result windows, read back as
  functions, case by case: the row scratch and the row-minimum window end at the tile's row minimum (the
  first column tile of a row) or at the former running minimum lowered by it; the column scratch ends, under
  the current column tile, at its former value lowered by the tile's column minimum, and elsewhere as it was
  (at the first point: as the +inf fill left it); the column-minimum window ends at the column scratch.
-/
import proofs.«130830_j11184094838808_2_alg».proof.Proof.KernelIdeal.Carry
import proofs.«130830_j11184094838808_2_alg».proof.Proof.KernelIdeal.SliceStore

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Nearest

/-! ## The row scratch and the row-minimum window, at any float instance -/

section Rows
variable (m : (ℓ : Loc nD τ sig) → Buf (Elt F) ℓ)

theorem first_row (c : Dev nD) (t : Fin cfg0.N) (hz : t.val = 0) :
    VR.read (Elt F) (VR.writes (Elt F) VR.junk (firstAt m c t hz).1) = k0_pay6 (iblk m c 0 t) (iblk m c 1 t) := by
  unfold firstAt runFirst; dsimp only
  refine (storeAllRows VR _ _ []).trans ?_
  exact congrArg₂ k0_pay6 (loadTile _ _ _) (loadTile _ _ _)

theorem rowStart_row (c : Dev nD) (t : Fin cfg0.N) (hz : ¬t.val = 0) (h0 : t.val % 16 = 0) (xs1 : Vec F S8x4096 .f32) :
    VR.read (Elt F) (VR.writes (Elt F) VR.junk (rowStartAt m c t hz h0 xs1).1) = k0_pay6 (iblk m c 0 t) (iblk m c 1 t) := by
  unfold rowStartAt runRowStart; dsimp only
  refine (storeAllRows VR _ _ []).trans ?_
  exact congrArg₂ k0_pay6 (loadTile _ _ _) (loadTile _ _ _)

theorem mid_row (c : Dev nD) (t : Fin cfg0.N) (h0 : ¬t.val % 16 = 0) (h15 : ¬t.val % 16 = 15) (xs0 : Vec F S8x256 .f32) (xs1 : Vec F S8x4096 .f32) :
    VR.read (Elt F) (VR.writes (Elt F) (hRow.unread xs0) (midAt m c t h0 h15 xs0 xs1).1) = k0_pay7 (iblk m c 0 t) (iblk m c 1 t) xs0 := by
  unfold midAt runMid; dsimp only
  refine (storeAllRows VR _ _ []).trans ?_
  exact (congrArg₂ (fun a b => k0_pay7 a b _) (loadTile _ _ _) (loadTile _ _ _)).trans (congrArg (k0_pay7 _ _) (loadRows rowAcc hRow xs0))

theorem rowEnd_row (c : Dev nD) (t : Fin cfg0.N) (h15 : t.val % 16 = 15) (hl : ¬t.val = 255) (xs0 : Vec F S8x256 .f32) (xs1 : Vec F S8x4096 .f32) :
    VR.read (Elt F) (VR.writes (Elt F) (hRow.unread xs0) (rowEndAt m c t h15 hl xs0 xs1).2.1) = k0_pay7 (iblk m c 0 t) (iblk m c 1 t) xs0 := by
  unfold rowEndAt runRowEnd; dsimp only
  refine (storeAllRows VR _ _ []).trans ?_
  exact (congrArg₂ (fun a b => k0_pay7 a b _) (loadTile _ _ _) (loadTile _ _ _)).trans (congrArg (k0_pay7 _ _) (loadRows rowAcc hRow xs0))

theorem last_row (c : Dev nD) (t : Fin cfg0.N) (hl : t.val = 255) (xs0 : Vec F S8x256 .f32) (xs1 : Vec F S8x4096 .f32) :
    VR.read (Elt F) (VR.writes (Elt F) (hRow.unread xs0) (lastAt m c t hl xs0 xs1).2.2.1) = k0_pay7 (iblk m c 0 t) (iblk m c 1 t) xs0 := by
  unfold lastAt runLast; dsimp only
  refine (storeAllRows VR _ _ []).trans ?_
  exact (congrArg₂ (fun a b => k0_pay7 a b _) (loadTile _ _ _) (loadTile _ _ _)).trans (congrArg (k0_pay7 _ _) (loadRows rowAcc hRow xs0))

/-- The row-minimum window receives the row scratch as just lowered. -/
theorem rowEnd_win (c : Dev nD) (t : Fin cfg0.N) (h15 : t.val % 16 = 15) (hl : ¬t.val = 255) (xs0 : Vec F S8x256 .f32) (xs1 : Vec F S8x4096 .f32) :
    VO2.read (Elt F) (VO2.writes (Elt F) VO2.junk (rowEndAt m c t h15 hl xs0 xs1).1) = k0_pay7 (iblk m c 0 t) (iblk m c 1 t) xs0 := by
  unfold rowEndAt runRowEnd; dsimp only
  refine (storeAllRows VO2 _ _ []).trans ?_
  sl_unfold_words
  refine (View.readCov_unit_zero _ zeros2 _ _).trans ?_
  exact (congrArg₂ (fun a b => k0_pay7 a b _) (loadTile _ _ _) (loadTile _ _ _)).trans (congrArg (k0_pay7 _ _) (loadRows rowAcc hRow xs0))

theorem last_rowWin (c : Dev nD) (t : Fin cfg0.N) (hl : t.val = 255) (xs0 : Vec F S8x256 .f32) (xs1 : Vec F S8x4096 .f32) :
    VO2.read (Elt F) (VO2.writes (Elt F) VO2.junk (lastAt m c t hl xs0 xs1).1) = k0_pay7 (iblk m c 0 t) (iblk m c 1 t) xs0 := by
  unfold lastAt runLast; dsimp only
  refine (storeAllRows VO2 _ _ []).trans ?_
  sl_unfold_words
  refine (View.readCov_unit_zero _ zeros2 _ _).trans ?_
  exact (congrArg₂ (fun a b => k0_pay7 a b _) (loadTile _ _ _) (loadTile _ _ _)).trans (congrArg (k0_pay7 _ _) (loadRows rowAcc hRow xs0))

/-- The column-minimum window receives the column scratch as just lowered. -/
theorem last_colWin (c : Dev nD) (t : Fin cfg0.N) (hl : t.val = 255) (xs0 : Vec F S8x256 .f32) (xs1 : Vec F S8x4096 .f32) :
    VO3.read (Elt F) (VO3.writes (Elt F) VO3.junk (lastAt m c t hl xs0 xs1).2.1)
      = VC.read (Elt F) (VC.writes (Elt F) (hCol.unread xs1) (lastAt m c t hl xs0 xs1).2.2.2.1) := by
  unfold lastAt runLast; dsimp only
  refine (storeAllCols VO3 _ _ []).trans ?_
  sl_unfold_words
  rw [View.readAt_eq_ld]
  exact View.ld_unit_zero (S := S8x4096) zeros2 _ _

end Rows

/-! ## The column scratch, over the extended reals -/

section Cols
variable (m : (ℓ : Loc nD τ sig) → Buf (Elt Ideal) ℓ)

theorem rowStart_col_in (c : Dev nD) (t : Fin cfg0.N) (hz : ¬t.val = 0) (h0 : t.val % 16 = 0) (xs1 : Vec Ideal S8x4096 .f32) (b : Fin 8) (j : Fin 256) (Q : Fin 4096)
    (hQ : Q.val = t.val % 16 * 256 + j.val) :
    VC.read (Elt Ideal) (VC.writes (Elt Ideal) (hCol.unread xs1) (rowStartAt m c t hz h0 xs1).2.1) (ix2 b Q)
      = min (xs1 (ix2 b Q)) (k0_pay5 (F := Ideal) (iblk m c 0 t) (iblk m c 1 t) (ix2 b j)) := by
  unfold rowStartAt runRowStart; dsimp only
  refine (storeSlice_in VC _ _ _ (sliceStart t) _ _ [] b j Q hQ).trans ?_
  refine (TileValue.lowerCol_apply _ _ _).trans ?_
  refine congrArg₂ min ?_ ?_
  · exact loadSlice colAcc hCol xs1 _ _ (sliceStart t) _ b j Q hQ
  · exact congrFun (congrArg₂ (k0_pay5 (F := Ideal)) (loadTile _ _ _) (loadTile _ _ _)) _

theorem rowStart_col_out (c : Dev nD) (t : Fin cfg0.N) (hz : ¬t.val = 0) (h0 : t.val % 16 = 0) (xs1 : Vec Ideal S8x4096 .f32) (b : Fin 8) (Q : Fin 4096)
    (hQ : Q.val < t.val % 16 * 256 ∨ t.val % 16 * 256 + 256 ≤ Q.val) :
    VC.read (Elt Ideal) (VC.writes (Elt Ideal) (hCol.unread xs1) (rowStartAt m c t hz h0 xs1).2.1) (ix2 b Q) = xs1 (ix2 b Q) := by
  unfold rowStartAt runRowStart; dsimp only
  refine (storeSlice_out VC _ _ _ (sliceStart t) _ _ [] b Q hQ).trans ?_
  exact congrFun (hCol.read_unread xs1) _

theorem mid_col_in (c : Dev nD) (t : Fin cfg0.N) (h0 : ¬t.val % 16 = 0) (h15 : ¬t.val % 16 = 15) (xs0 : Vec Ideal S8x256 .f32) (xs1 : Vec Ideal S8x4096 .f32) (b : Fin 8) (j : Fin 256) (Q : Fin 4096)
    (hQ : Q.val = t.val % 16 * 256 + j.val) :
    VC.read (Elt Ideal) (VC.writes (Elt Ideal) (hCol.unread xs1) (midAt m c t h0 h15 xs0 xs1).2.1) (ix2 b Q)
      = min (xs1 (ix2 b Q)) (k0_pay5 (F := Ideal) (iblk m c 0 t) (iblk m c 1 t) (ix2 b j)) := by
  unfold midAt runMid; dsimp only
  refine (storeSlice_in VC _ _ _ (sliceStart t) _ _ [] b j Q hQ).trans ?_
  refine (TileValue.lowerCol_apply _ _ _).trans ?_
  refine congrArg₂ min ?_ ?_
  · exact loadSlice colAcc hCol xs1 _ _ (sliceStart t) _ b j Q hQ
  · exact congrFun (congrArg₂ (k0_pay5 (F := Ideal)) (loadTile _ _ _) (loadTile _ _ _)) _

theorem mid_col_out (c : Dev nD) (t : Fin cfg0.N) (h0 : ¬t.val % 16 = 0) (h15 : ¬t.val % 16 = 15) (xs0 : Vec Ideal S8x256 .f32) (xs1 : Vec Ideal S8x4096 .f32) (b : Fin 8) (Q : Fin 4096)
    (hQ : Q.val < t.val % 16 * 256 ∨ t.val % 16 * 256 + 256 ≤ Q.val) :
    VC.read (Elt Ideal) (VC.writes (Elt Ideal) (hCol.unread xs1) (midAt m c t h0 h15 xs0 xs1).2.1) (ix2 b Q) = xs1 (ix2 b Q) := by
  unfold midAt runMid; dsimp only
  refine (storeSlice_out VC _ _ _ (sliceStart t) _ _ [] b Q hQ).trans ?_
  exact congrFun (hCol.read_unread xs1) _

theorem rowEnd_col_in (c : Dev nD) (t : Fin cfg0.N) (h15 : t.val % 16 = 15) (hl : ¬t.val = 255) (xs0 : Vec Ideal S8x256 .f32) (xs1 : Vec Ideal S8x4096 .f32) (b : Fin 8) (j : Fin 256) (Q : Fin 4096)
    (hQ : Q.val = t.val % 16 * 256 + j.val) :
    VC.read (Elt Ideal) (VC.writes (Elt Ideal) (hCol.unread xs1) (rowEndAt m c t h15 hl xs0 xs1).2.2.1) (ix2 b Q)
      = min (xs1 (ix2 b Q)) (k0_pay5 (F := Ideal) (iblk m c 0 t) (iblk m c 1 t) (ix2 b j)) := by
  unfold rowEndAt runRowEnd; dsimp only
  refine (storeSlice_in VC _ _ _ (sliceStart t) _ _ [] b j Q hQ).trans ?_
  refine (TileValue.lowerCol_apply _ _ _).trans ?_
  refine congrArg₂ min ?_ ?_
  · exact loadSlice colAcc hCol xs1 _ _ (sliceStart t) _ b j Q hQ
  · exact congrFun (congrArg₂ (k0_pay5 (F := Ideal)) (loadTile _ _ _) (loadTile _ _ _)) _

theorem rowEnd_col_out (c : Dev nD) (t : Fin cfg0.N) (h15 : t.val % 16 = 15) (hl : ¬t.val = 255) (xs0 : Vec Ideal S8x256 .f32) (xs1 : Vec Ideal S8x4096 .f32) (b : Fin 8) (Q : Fin 4096)
    (hQ : Q.val < t.val % 16 * 256 ∨ t.val % 16 * 256 + 256 ≤ Q.val) :
    VC.read (Elt Ideal) (VC.writes (Elt Ideal) (hCol.unread xs1) (rowEndAt m c t h15 hl xs0 xs1).2.2.1) (ix2 b Q) = xs1 (ix2 b Q) := by
  unfold rowEndAt runRowEnd; dsimp only
  refine (storeSlice_out VC _ _ _ (sliceStart t) _ _ [] b Q hQ).trans ?_
  exact congrFun (hCol.read_unread xs1) _

theorem last_col_in (c : Dev nD) (t : Fin cfg0.N) (hl : t.val = 255) (xs0 : Vec Ideal S8x256 .f32) (xs1 : Vec Ideal S8x4096 .f32) (b : Fin 8) (j : Fin 256) (Q : Fin 4096)
    (hQ : Q.val = t.val % 16 * 256 + j.val) :
    VC.read (Elt Ideal) (VC.writes (Elt Ideal) (hCol.unread xs1) (lastAt m c t hl xs0 xs1).2.2.2.1) (ix2 b Q)
      = min (xs1 (ix2 b Q)) (k0_pay5 (F := Ideal) (iblk m c 0 t) (iblk m c 1 t) (ix2 b j)) := by
  unfold lastAt runLast; dsimp only
  refine (storeSlice_in VC _ _ _ (sliceStart t) _ _ [] b j Q hQ).trans ?_
  refine (TileValue.lowerCol_apply _ _ _).trans ?_
  refine congrArg₂ min ?_ ?_
  · exact loadSlice colAcc hCol xs1 _ _ (sliceStart t) _ b j Q hQ
  · sl_unfold_words
    dsimp only
    exact congrFun (congrArg₂ (k0_pay5 (F := Ideal)) (loadTile _ _ _) (loadTile _ _ _)) _

theorem last_col_out (c : Dev nD) (t : Fin cfg0.N) (hl : t.val = 255) (xs0 : Vec Ideal S8x256 .f32) (xs1 : Vec Ideal S8x4096 .f32) (b : Fin 8) (Q : Fin 4096)
    (hQ : Q.val < t.val % 16 * 256 ∨ t.val % 16 * 256 + 256 ≤ Q.val) :
    VC.read (Elt Ideal) (VC.writes (Elt Ideal) (hCol.unread xs1) (lastAt m c t hl xs0 xs1).2.2.2.1) (ix2 b Q) = xs1 (ix2 b Q) := by
  unfold lastAt runLast; dsimp only
  refine (storeSlice_out VC _ _ _ (sliceStart t) _ _ [] b Q hQ).trans ?_
  exact congrFun (hCol.read_unread xs1) _

/-- At the first point the column scratch is filled with +inf and then lowered under the first column tile. -/
theorem first_col_in (c : Dev nD) (t : Fin cfg0.N) (hz : t.val = 0) (b : Fin 8) (j : Fin 256) (Q : Fin 4096)
    (hQ : Q.val = t.val % 16 * 256 + j.val) :
    VC.read (Elt Ideal) (VC.writes (Elt Ideal) VC.junk (firstAt m c t hz).2.1) (ix2 b Q)
      = k0_pay5 (F := Ideal) (iblk m c 0 t) (iblk m c 1 t) (ix2 b j) := by
  unfold firstAt runFirst; dsimp only
  refine (storeSlice_in VC _ _ _ (sliceStart t) _ _ _ b j Q hQ).trans ?_
  refine (TileValue.lowerCol_apply _ _ _).trans ?_
  sl_unfold_words
  refine (congrArg₂ min ?_ ?_).trans (min_posInf_left _)
  · rw [View.readAt_eq_ld]
    show VC.read (Elt Ideal) (VC.writes (Elt Ideal) VC.junk [(⟨Rect.unit (s := S8x4096) ![0, 0] ![8, 4096] inb_S8x4096_S8x4096_0_0, k0_pay1 (F := Ideal)⟩ : View.Piece (Elt Ideal) S8x4096 .f32)]) _ = posInf
    rw [storeAllCols VC _ _ []]
    exact TileValue.fill_apply _
  · exact congrFun (congrArg₂ (k0_pay5 (F := Ideal)) (loadTile _ _ _) (loadTile _ _ _)) _

theorem first_col_out (c : Dev nD) (t : Fin cfg0.N) (hz : t.val = 0) (b : Fin 8) (Q : Fin 4096)
    (hQ : Q.val < t.val % 16 * 256 ∨ t.val % 16 * 256 + 256 ≤ Q.val) :
    VC.read (Elt Ideal) (VC.writes (Elt Ideal) VC.junk (firstAt m c t hz).2.1) (ix2 b Q) = posInf := by
  unfold firstAt runFirst; dsimp only
  refine (storeSlice_out VC _ _ _ (sliceStart t) _ _ _ b Q hQ).trans ?_
  sl_unfold_words
  rw [storeAllCols VC _ _ []]
  exact TileValue.fill_apply _

end Cols

end Cert.KernelIdeal.Tile

end
-- ==== Proof.KernelIdeal.Blocks.lean ====
/-
  The kernel's windows as pieces of their arrays. The grid is 16 row tiles by 16 column tiles, point t being row
  tile t / 16 and column tile t % 16. The first input window at point t is rows (t / 16)·256 … of the first
  argument, the second is rows (t % 16)·256 … of the second argument. The row-minimum result is written back tile
  by tile, at the last column tile of each row tile; the column-minimum result is written back once, whole, at the
  last point. So the row-minimum array ends holding whatever function the written-back tiles are the tiles of,
  and the column-minimum array ends holding what the last point leaves.
-/
import proofs.«130830_j11184094838808_2_alg».proof.Proof.KernelIdeal.Carry
import Idealize.ShloMosaic.Lib.Pipeline.Value
import Idealize.ShloMosaic.Lib.ValueIdx

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- A grid point's number is below 256. -/
theorem point_lt (t : Fin cfg0.N) : t.val < 256 := lt_of_lt_of_eq t.isLt (show cfg0.N = 256 from N_0)

/-- Row p of point t's row tile, as a row of the whole array. -/
def rowOf (t : Fin cfg0.N) (p : Fin 256) : Fin 4096 :=
  ⟨t.val / 16 * 256 + p.val, by have := point_lt t; have := p.isLt; omega⟩
/-- Row q of point t's column tile, as a row of the whole array. -/
def colOf (t : Fin cfg0.N) (q : Fin 256) : Fin 4096 :=
  ⟨t.val % 16 * 256 + q.val, by have := q.isLt; omega⟩

/-! ## The index maps over the grid -/

/-- The first input window's block index at point t: (0, t / 16, 0). -/
theorem idx0 : ∀ t : Fin cfg0.N, win0_0.index t (0 : Fin 3) = 0 ∧ win0_0.index t (1 : Fin 3) = t.val / 16
    ∧ win0_0.index t (2 : Fin 3) = 0 :=
  (by decide +kernel : ∀ t : Fin grid0.N, _)
/-- The second input window's block index at point t: (0, t % 16, 0). -/
theorem idx1 : ∀ t : Fin cfg0.N, win0_1.index t (0 : Fin 3) = 0 ∧ win0_1.index t (1 : Fin 3) = t.val % 16
    ∧ win0_1.index t (2 : Fin 3) = 0 :=
  (by decide +kernel : ∀ t : Fin grid0.N, _)
/-- The row-minimum window's block index at point t: (0, t / 16). -/
theorem idx2 : ∀ t : Fin cfg0.N, win0_2.index t (0 : Fin 2) = 0 ∧ win0_2.index t (1 : Fin 2) = t.val / 16 :=
  (by decide +kernel : ∀ t : Fin grid0.N, _)
/-- The column-minimum window's block index at every point: (0, 0). -/
theorem idx3 : ∀ t : Fin cfg0.N, win0_3.index t (0 : Fin 2) = 0 ∧ win0_3.index t (1 : Fin 2) = 0 :=
  (by decide +kernel : ∀ t : Fin grid0.N, _)

/-! ## The input blocks -/

/-- The first input window's block at point t is the rows of its row tile. -/
theorem rowBlock_apply (c : Dev nD) (t : Fin cfg0.N) (b : Fin 8) (p : Fin 256) (k : Fin 3) :
    iblk m c 0 t (ix3 b p k) = m ((c : Thread nD τ).loc main_arg0) (ix3 b (rowOf t p) k) := by
  obtain ⟨e0, e1, e2⟩ := idx0 t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 8 + 1 * b.val = b.val; omega
  | ⟨1, _⟩ => show win0_0.index t (1 : Fin 3) * 256 + 1 * p.val = t.val / 16 * 256 + p.val; omega
  | ⟨2, _⟩ => show win0_0.index t (2 : Fin 3) * 3 + 1 * k.val = k.val; omega

/-- The second input window's block at point t is the rows of its column tile. -/
theorem colBlock_apply (c : Dev nD) (t : Fin cfg0.N) (b : Fin 8) (q : Fin 256) (k : Fin 3) :
    iblk m c 1 t (ix3 b q k) = m ((c : Thread nD τ).loc main_arg1) (ix3 b (colOf t q) k) := by
  obtain ⟨e0, e1, e2⟩ := idx1 t
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 8 + 1 * b.val = b.val; omega
  | ⟨1, _⟩ => show win0_1.index t (1 : Fin 3) * 256 + 1 * q.val = t.val % 16 * 256 + q.val; omega
  | ⟨2, _⟩ => show win0_1.index t (2 : Fin 3) * 3 + 1 * k.val = k.val; omega

/-! ## The row-minimum window: written back tile by tile -/

/-- A function on the row-minimum array, read through point t's block at (b, p), is read at row p of t's row tile. -/
theorem rowWin_read (c : Dev nD) (G : Buf (Elt F) ((cfg0.win 2).arr.view.loc (c.tc : Thread nD τ)))
    (t : Fin cfg0.N) (b : Fin 8) (p : Fin 256) :
    ((cfg0.win 2).blk t).view.read (Elt F) G (ix2 b p) = G (ix2 b (rowOf t p)) := by
  obtain ⟨e0, e1⟩ := idx2 t
  rw [View.read_apply]
  refine congrArg G ?_
  funext a
  apply Fin.ext
  match a with
  | ⟨0, _⟩ => show win0_2.index t (0 : Fin 2) * 8 + 1 * b.val = b.val; omega
  | ⟨1, _⟩ => show win0_2.index t (1 : Fin 2) * 256 + 1 * p.val = t.val / 16 * 256 + p.val; omega

/-- What a point that writes the row-minimum window back writes is its block of `G`, when the tiles left there are
    `G`'s tiles. -/
theorem flushed_rowWin (c : Dev nD) (G : Buf (Elt F) ((cfg0.win 2).arr.view.loc (c.tc : Thread nD τ)))
    (h : ∀ t : Fin cfg0.N, t.val % 16 = 15 → ∀ (b : Fin 8) (p : Fin 256),
      (outsAt m c t.val t.isLt).1 (ix2 b p) = G (ix2 b (rowOf t p)))
    (t : Fin cfg0.N) (hf : (cfg0.win 2).flush t = true) :
    (dats m 0 c).flushed 2 t = ((cfg0.win 2).blk t).view.read (Elt F) G := by
  have h15 : t.val % 16 = 15 := (flush0_2 t).mp hf
  show (cfg0.win 2).cut (grid0.coords t) ((dats m 0 c).after 2 t) = _
  rw [after_2]
  funext j
  obtain ⟨b, p, rfl⟩ : ∃ (b : Fin 8) (p : Fin 256), j = ix2 b p := ⟨j 0, j 1, eq_ix2 (n0 := 8) (n1 := 256) j⟩
  show (outsAt m c t.val t.isLt).1 (ix2 b p) = _
  exact (h t h15 b p).trans (rowWin_read c G t b p).symm

/-- An index of the row-minimum array is in point t's block iff each coordinate is in the block's range. -/
theorem mem_rowBlk (t : Fin cfg0.N) (i : S8x4096.Idx) :
    i ∈ ((cfg0.win 2).blk t).view.set ↔ ∀ a : Fin 2, win0_2.index t a * S8x256.size a ≤ (i a).val
      ∧ (i a).val < win0_2.index t a * S8x256.size a + S8x256.size a := by
  show i ∈ ((View.whole main_v7_0).slice (win0_2.rect t)).set ↔ _
  rw [View.set_slice_whole, Rect.mem_set_unit]
  exact Iff.rfl

/-- THE ROW-MINIMUM ARRAY after the run: the function whose tiles the last column tile of each row tile leaves. -/
theorem final_rowWin (c : Dev nD) (G : Buf (Elt F) ((cfg0.win 2).arr.view.loc (c.tc : Thread nD τ)))
    (h : ∀ t : Fin cfg0.N, t.val % 16 = 15 → ∀ (b : Fin 8) (p : Fin 256),
      (outsAt m c t.val t.isLt).1 (ix2 b p) = G (ix2 b (rowOf t p))) :
    (dats m 0 c).arrAt 2 cfg0.N = G :=
  (dats m 0 c).arrAt_eq_of_cover 2 G (flushed_rowWin m c G h) fun i => by
    have hi0 : (i 0).val < 8 := (i 0).isLt
    have hi1 : (i 1).val < 4096 := (i 1).isLt
    have hN : cfg0.N = 256 := N_0
    let t : Fin cfg0.N := ⟨(i 1).val / 256 * 16 + 15, by omega⟩
    have htv : t.val = (i 1).val / 256 * 16 + 15 := rfl
    obtain ⟨e0, e1⟩ := idx2 t
    refine ⟨t, (flush0_2 t).mpr (by omega), ?_⟩
    rw [mem_rowBlk]
    intro a
    match a with
    | ⟨0, _⟩ => show win0_2.index t (0 : Fin 2) * 8 ≤ (i 0).val ∧ (i 0).val < win0_2.index t (0 : Fin 2) * 8 + 8; omega
    | ⟨1, _⟩ => show win0_2.index t (1 : Fin 2) * 256 ≤ (i 1).val ∧ (i 1).val < win0_2.index t (1 : Fin 2) * 256 + 256; omega

/-! ## The column-minimum window: written back once, whole -/

/-- A function on the column-minimum array, read through a point's block, is the function: the one block is the
    whole array. -/
theorem colWin_read (c : Dev nD) (G : Buf (Elt F) ((cfg0.win 3).arr.view.loc (c.tc : Thread nD τ)))
    (t : Fin cfg0.N) (b : Fin 8) (p : Fin 4096) :
    ((cfg0.win 3).blk t).view.read (Elt F) G (ix2 b p) = G (ix2 b p) := by
  obtain ⟨e0, e1⟩ := idx3 t
  rw [View.read_apply]
  refine congrArg G ?_
  funext a
  apply Fin.ext
  match a with
  | ⟨0, _⟩ => show win0_3.index t (0 : Fin 2) * 8 + 1 * b.val = b.val; omega
  | ⟨1, _⟩ => show win0_3.index t (1 : Fin 2) * 4096 + 1 * p.val = p.val; omega

/-- What the point that writes the column-minimum window back writes is `G`, when `G` is what is left there. -/
theorem flushed_colWin (c : Dev nD) (G : Buf (Elt F) ((cfg0.win 3).arr.view.loc (c.tc : Thread nD τ)))
    (h : ∀ t : Fin cfg0.N, t.val = 255 → (outsAt m c t.val t.isLt).2.1 = G)
    (t : Fin cfg0.N) (hf : (cfg0.win 3).flush t = true) :
    (dats m 0 c).flushed 3 t = ((cfg0.win 3).blk t).view.read (Elt F) G := by
  have hl : t.val = 255 := by have := (flush0_3 t).mp hf; have := point_lt t; omega
  show (cfg0.win 3).cut (grid0.coords t) ((dats m 0 c).after 3 t) = _
  rw [after_3, h t hl]
  funext j
  obtain ⟨b, p, rfl⟩ : ∃ (b : Fin 8) (p : Fin 4096), j = ix2 b p := ⟨j 0, j 1, eq_ix2 (n0 := 8) (n1 := 4096) j⟩
  show G (ix2 b p) = _
  exact (colWin_read c G t b p).symm

/-- An index of the column-minimum array is in a point's block iff each coordinate is in the block's range. -/
theorem mem_colBlk (t : Fin cfg0.N) (i : S8x4096.Idx) :
    i ∈ ((cfg0.win 3).blk t).view.set ↔ ∀ a : Fin 2, win0_3.index t a * S8x4096.size a ≤ (i a).val
      ∧ (i a).val < win0_3.index t a * S8x4096.size a + S8x4096.size a := by
  show i ∈ ((View.whole main_v7_1).slice (win0_3.rect t)).set ↔ _
  rw [View.set_slice_whole, Rect.mem_set_unit]
  exact Iff.rfl

/-- THE COLUMN-MINIMUM ARRAY after the run: what the last point leaves in the window. -/
theorem final_colWin (c : Dev nD) (G : Buf (Elt F) ((cfg0.win 3).arr.view.loc (c.tc : Thread nD τ)))
    (h : ∀ t : Fin cfg0.N, t.val = 255 → (outsAt m c t.val t.isLt).2.1 = G) :
    (dats m 0 c).arrAt 3 cfg0.N = G :=
  (dats m 0 c).arrAt_eq_of_cover 3 G (flushed_colWin m c G h) fun i => by
    have hi0 : (i 0).val < 8 := (i 0).isLt
    have hi1 : (i 1).val < 4096 := (i 1).isLt
    have hN : cfg0.N = 256 := N_0
    let t : Fin cfg0.N := ⟨255, by omega⟩
    have htv : t.val = 255 := rfl
    obtain ⟨e0, e1⟩ := idx3 t
    refine ⟨t, (flush0_3 t).mpr (by omega), ?_⟩
    rw [mem_colBlk]
    intro a
    match a with
    | ⟨0, _⟩ => show win0_3.index t (0 : Fin 2) * 8 ≤ (i 0).val ∧ (i 0).val < win0_3.index t (0 : Fin 2) * 8 + 8; omega
    | ⟨1, _⟩ => show win0_3.index t (1 : Fin 2) * 4096 ≤ (i 1).val ∧ (i 1).val < win0_3.index t (1 : Fin 2) * 4096 + 4096; omega

end Cert.KernelIdeal.Tile

end
-- ==== Proof.Prefix.lean ====
/-
  A minimum grown tile by tile. Let f be a family indexed by 0 … 4095, cut into 16 tiles of 256. If acc is
  the minimum of f over the first r tiles and tile is the minimum of f over tile r, then min acc tile is the
  minimum over the first r + 1 tiles; after 16 tiles it is the minimum of the whole family. Minima are
  carried by their universal property.
-/
import proofs.«130830_j11184094838808_2_alg».proof.Proof.Nearest

noncomputable section

namespace Cert.Nearest

/-- "a is the minimum of f over the indices below n": z lies below a exactly when it lies below f there. -/
def IsMinBelow (f : Fin 4096 → EReal) (n : ℕ) (a : EReal) : Prop :=
  ∀ z : EReal, z ≤ a ↔ ∀ Q : Fin 4096, Q.val < n → z ≤ f Q

/-- Over no index the minimum is +inf. -/
theorem isMinBelow_zero (f : Fin 4096 → EReal) : IsMinBelow f 0 posInf := fun z => by
  rw [posInf_eq_top]
  exact ⟨fun _ Q hQ => absurd hQ (Nat.not_lt_zero _), fun _ => le_top⟩

/-- One more tile: `idx` names the members of tile r. -/
theorem IsMinBelow.extend {f : Fin 4096 → EReal} {r : ℕ} (hr : r < 16) {acc tile : EReal}
    (idx : Fin 256 → Fin 4096) (hidx : ∀ q : Fin 256, (idx q).val = r * 256 + q.val)
    (hacc : IsMinBelow f (r * 256) acc)
    (htile : ∀ z : EReal, z ≤ tile ↔ ∀ q : Fin 256, z ≤ f (idx q)) :
    IsMinBelow f ((r + 1) * 256) (min acc tile) := fun z => by
  rw [le_min_iff, hacc z, htile z]
  constructor
  · rintro ⟨h1, h2⟩ Q hQ
    by_cases hlt : Q.val < r * 256
    · exact h1 Q hlt
    · have hq : Q.val - r * 256 < 256 := by omega
      have := h2 ⟨Q.val - r * 256, hq⟩
      have e : idx ⟨Q.val - r * 256, hq⟩ = Q := Fin.ext (by rw [hidx]; show r * 256 + (Q.val - r * 256) = Q.val; omega)
      rw [e] at this
      exact this
  · intro h
    exact ⟨fun Q hQ => h Q (by omega), fun q => h _ (by rw [hidx]; have := q.isLt; omega)⟩

/-- The first tile alone. -/
theorem IsMinBelow.first {f : Fin 4096 → EReal} {tile : EReal}
    (idx : Fin 256 → Fin 4096) (hidx : ∀ q : Fin 256, (idx q).val = q.val)
    (htile : ∀ z : EReal, z ≤ tile ↔ ∀ q : Fin 256, z ≤ f (idx q)) :
    IsMinBelow f 256 tile := by
  have h := (isMinBelow_zero f).extend (r := 0) (by omega) idx (fun q => by rw [hidx]; omega) htile
  rwa [min_posInf_left] at h

/-- The same minimum, its bound written differently. -/
theorem IsMinBelow.of_eq {f : Fin 4096 → EReal} {n n' : ℕ} {a : EReal} (h : IsMinBelow f n a) (e : n = n') : IsMinBelow f n' a := e ▸ h

/-- After all 16 tiles: the minimum of the family. -/
theorem IsMinBelow.full {f : Fin 4096 → EReal} {a : EReal} (h : IsMinBelow f 4096 a) : a = minOver f :=
  eq_minOver f a fun z => (h z).trans ⟨fun hq k => hq k k.isLt, fun hk Q _ => hk Q⟩

end Cert.Nearest

end
-- ==== Proof.KernelIdeal.Invariant.lean ====
/-
  What the two scratch arrays hold after every grid point, over the extended reals. Write d(b, P, Q) for the
  clamped squared distance of point P of the first cloud and point Q of the second, in batch b. After the point
  of row tile ri and column tile ci,
    · the row scratch holds, at row p of the tile, the minimum of d(b, ri·256 + p, Q) over the columns
      Q < (ci + 1)·256 walked so far in this row of the grid;
    · the column scratch holds, at column Q, the minimum of d(b, P, Q) over the rows P walked so far for that
      column: P < (ri + 1)·256 if Q's tile has been reached in this row of the grid (Q / 256 ≤ ci), else P < ri·256.
  Hence on the last column tile the row-minimum window receives the minimum over all 4096 columns, and at the
  last point the column-minimum window receives the minimum over all 4096 rows.
-/
import proofs.«130830_j11184094838808_2_alg».proof.Proof.KernelIdeal.Obligation
import proofs.«130830_j11184094838808_2_alg».proof.Proof.KernelIdeal.Pieces
import proofs.«130830_j11184094838808_2_alg».proof.Proof.KernelIdeal.Blocks
import proofs.«130830_j11184094838808_2_alg».proof.Proof.Prefix

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Nearest

variable (m : (ℓ : Loc nD τ sig) → Buf (Elt Ideal) ℓ)

/-- The clamped squared distance of point P of the first cloud and point Q of the second, in batch b. -/
def dist (c : Dev nD) (b : Fin 8) (P Q : Fin 4096) : EReal :=
  sqDist (fun k => m ((c : Thread nD τ).loc main_arg0) (ix3 b P k)) (fun k => m ((c : Thread nD τ).loc main_arg1) (ix3 b Q k))

/-! ## One tile -/

/-- An entry of the tile's distance table is the distance of the two points it stands for. -/
theorem tile_dist (c : Dev nD) (t : Fin cfg0.N) (b : Fin 8) (p q : Fin 256) :
    sqDist (fun k => iblk m c 0 t (ix3 b p k)) (fun k => iblk m c 1 t (ix3 b q k)) = dist m c b (rowOf t p) (colOf t q) := by
  unfold dist
  exact congrArg₂ sqDist (funext fun k => rowBlock_apply m c t b p k) (funext fun k => colBlock_apply m c t b q k)

/-- Below the tile's row minimum at row p: below the distance to every column point of the tile. -/
theorem le_tileRowMin (c : Dev nD) (t : Fin cfg0.N) (b : Fin 8) (p : Fin 256) (z : EReal) :
    z ≤ k0_pay4 (F := Ideal) (iblk m c 0 t) (iblk m c 1 t) (ix2 b p) ↔ ∀ q : Fin 256, z ≤ dist m c b (rowOf t p) (colOf t q) := by
  rw [TileValue.tileRowMin_apply, le_minOver]
  exact forall_congr' fun q => by rw [tile_dist]

/-- Below the tile's column minimum at column q: below the distance to every row point of the tile. -/
theorem le_tileColMin (c : Dev nD) (t : Fin cfg0.N) (b : Fin 8) (q : Fin 256) (z : EReal) :
    z ≤ k0_pay5 (F := Ideal) (iblk m c 0 t) (iblk m c 1 t) (ix2 b q) ↔ ∀ p : Fin 256, z ≤ dist m c b (rowOf t p) (colOf t q) := by
  rw [TileValue.tileColMin_apply, le_minOver]
  exact forall_congr' fun p => by rw [tile_dist]

/-! ## The invariants -/

/-- The row scratch after point t. -/
def RowInv (c : Dev nD) (t : Fin cfg0.N) (acc : Vec Ideal S8x256 .f32) : Prop :=
  ∀ (b : Fin 8) (p : Fin 256), IsMinBelow (fun Q => dist m c b (rowOf t p) Q) ((t.val % 16 + 1) * 256) (acc (ix2 b p))

/-- How many rows have been walked for column Q after point t. -/
def rowsSeen (t : ℕ) (Q : ℕ) : ℕ := if Q / 256 ≤ t % 16 then (t / 16 + 1) * 256 else t / 16 * 256

/-- The column scratch after point t. -/
def ColInv (c : Dev nD) (t : Fin cfg0.N) (acc : Vec Ideal S8x4096 .f32) : Prop :=
  ∀ (b : Fin 8) (Q : Fin 4096), IsMinBelow (fun P => dist m c b P Q) (rowsSeen t.val Q.val) (acc (ix2 b Q))

theorem rowOf_val (t : Fin cfg0.N) (p : Fin 256) : (rowOf t p).val = t.val / 16 * 256 + p.val := rfl
theorem colOf_val (t : Fin cfg0.N) (q : Fin 256) : (colOf t q).val = t.val % 16 * 256 + q.val := rfl

/-! ## The row scratch, step by step -/

/-- Started on the first column tile of a row: the tile's row minimum. -/
theorem rowInv_start (c : Dev nD) (t : Fin cfg0.N) (h0 : t.val % 16 = 0) :
    RowInv m c t (k0_pay6 (F := Ideal) (iblk m c 0 t) (iblk m c 1 t)) := fun b p => by
  rw [TileValue.startRow_eq]
  have h := IsMinBelow.first (f := fun Q => dist m c b (rowOf t p) Q) (colOf t) (fun q => by rw [colOf_val, h0]; omega)
    (le_tileRowMin m c t b p)
  exact h.of_eq (by rw [h0])

/-- Lowered on a later column tile: the minimum over one more tile of columns. -/
theorem rowInv_step (c : Dev nD) (t s : Fin cfg0.N) (hs : s.val + 1 = t.val) (h0 : ¬t.val % 16 = 0)
    (acc : Vec Ideal S8x256 .f32) (hacc : RowInv m c s acc) :
    RowInv m c t (k0_pay7 (F := Ideal) (iblk m c 0 t) (iblk m c 1 t) acc) := fun b p => by
  rw [TileValue.lowerRow_apply]
  have hN : t.val < 256 := lt_of_lt_of_eq t.isLt (show cfg0.N = 256 from N_0)
  have erow : rowOf s p = rowOf t p := Fin.ext (by rw [rowOf_val, rowOf_val]; omega)
  have hprev := (hacc b p)
  rw [erow] at hprev
  have h := IsMinBelow.extend (f := fun Q => dist m c b (rowOf t p) Q) (r := t.val % 16) (by omega) (colOf t) (fun q => colOf_val t q)
    (hprev.of_eq (by omega)) (le_tileRowMin m c t b p)
  exact h

/-! ## The column scratch, step by step -/

/-- At the first point: under the first column tile the tile's column minimum, +inf elsewhere. -/
theorem colInv_first (c : Dev nD) (t : Fin cfg0.N) (hz : t.val = 0) (new : Vec Ideal S8x4096 .f32)
    (hIn : ∀ (b : Fin 8) (j : Fin 256) (Q : Fin 4096), Q.val = t.val % 16 * 256 + j.val →
      new (ix2 b Q) = k0_pay5 (F := Ideal) (iblk m c 0 t) (iblk m c 1 t) (ix2 b j))
    (hOut : ∀ (b : Fin 8) (Q : Fin 4096), (Q.val < t.val % 16 * 256 ∨ t.val % 16 * 256 + 256 ≤ Q.val) → new (ix2 b Q) = posInf) :
    ColInv m c t new := fun b Q => by
  by_cases hin : Q.val < 256
  · have hQ : Q.val = t.val % 16 * 256 + (⟨Q.val, hin⟩ : Fin 256).val := by rw [hz]; show Q.val = 0 % 16 * 256 + Q.val; omega
    rw [hIn b ⟨Q.val, hin⟩ Q hQ]
    have eQ : colOf t ⟨Q.val, hin⟩ = Q := Fin.ext (by rw [colOf_val, hz]; show 0 % 16 * 256 + Q.val = Q.val; omega)
    have htile : ∀ z : EReal, z ≤ k0_pay5 (F := Ideal) (iblk m c 0 t) (iblk m c 1 t) (ix2 b ⟨Q.val, hin⟩) ↔ ∀ p : Fin 256, z ≤ dist m c b (rowOf t p) Q := by
      intro z; rw [le_tileColMin, eQ]
    have h := IsMinBelow.first (f := fun P => dist m c b P Q) (rowOf t) (fun p => by rw [rowOf_val, hz]; omega) htile
    exact h.of_eq (by unfold rowsSeen; rw [hz, if_pos (by omega)])
  · rw [hOut b Q (by rw [hz]; omega)]
    exact (isMinBelow_zero _).of_eq (by unfold rowsSeen; rw [hz, if_neg (by omega)])

/-- At a later point: under the current column tile lowered by the tile's column minimum, elsewhere unchanged. -/
theorem colInv_step (c : Dev nD) (t s : Fin cfg0.N) (hs : s.val + 1 = t.val) (old new : Vec Ideal S8x4096 .f32)
    (hold : ColInv m c s old)
    (hIn : ∀ (b : Fin 8) (j : Fin 256) (Q : Fin 4096), Q.val = t.val % 16 * 256 + j.val →
      new (ix2 b Q) = min (old (ix2 b Q)) (k0_pay5 (F := Ideal) (iblk m c 0 t) (iblk m c 1 t) (ix2 b j)))
    (hOut : ∀ (b : Fin 8) (Q : Fin 4096), (Q.val < t.val % 16 * 256 ∨ t.val % 16 * 256 + 256 ≤ Q.val) → new (ix2 b Q) = old (ix2 b Q)) :
    ColInv m c t new := fun b Q => by
  have hN : t.val < 256 := lt_of_lt_of_eq t.isLt (show cfg0.N = 256 from N_0)
  have hQ4 : Q.val < 4096 := Q.isLt
  by_cases hin : Q.val / 256 = t.val % 16
  · have hj : Q.val - t.val % 16 * 256 < 256 := by omega
    have hQ : Q.val = t.val % 16 * 256 + (⟨Q.val - t.val % 16 * 256, hj⟩ : Fin 256).val := by show Q.val = t.val % 16 * 256 + (Q.val - t.val % 16 * 256); omega
    rw [hIn b ⟨Q.val - t.val % 16 * 256, hj⟩ Q hQ]
    have eQ : colOf t ⟨Q.val - t.val % 16 * 256, hj⟩ = Q := Fin.ext (by rw [colOf_val]; show t.val % 16 * 256 + (Q.val - t.val % 16 * 256) = Q.val; omega)
    have htile : ∀ z : EReal, z ≤ k0_pay5 (F := Ideal) (iblk m c 0 t) (iblk m c 1 t) (ix2 b ⟨Q.val - t.val % 16 * 256, hj⟩) ↔ ∀ p : Fin 256, z ≤ dist m c b (rowOf t p) Q := by
      intro z; rw [le_tileColMin, eQ]
    have hprev := (hold b Q).of_eq (show rowsSeen s.val Q.val = t.val / 16 * 256 by unfold rowsSeen; split <;> omega)
    have h := IsMinBelow.extend (f := fun P => dist m c b P Q) (r := t.val / 16) (by omega) (rowOf t) (fun p => rowOf_val t p) hprev htile
    exact h.of_eq (by unfold rowsSeen; rw [if_pos (by omega)])
  · rw [hOut b Q (by omega)]
    exact (hold b Q).of_eq (by unfold rowsSeen; split <;> split <;> omega)

/-! ## All 256 points -/

theorem inv_all (c : Dev nD) : ∀ (n : ℕ) (hn : n < cfg0.N),
    RowInv m c ⟨n, hn⟩ (outsAt m c n hn).2.2.1 ∧ ColInv m c ⟨n, hn⟩ (outsAt m c n hn).2.2.2
  | 0, hn => by
    rw [show outsAt m c 0 hn = step m c ⟨0, hn⟩ idleRowWin idleColWin from rfl, step_first m c ⟨0, hn⟩ rfl]
    dsimp only
    refine ⟨?_, ?_⟩
    · rw [first_row]; exact rowInv_start m c ⟨0, hn⟩ rfl
    · exact colInv_first m c ⟨0, hn⟩ rfl _ (first_col_in m c ⟨0, hn⟩ rfl) (first_col_out m c ⟨0, hn⟩ rfl)
  | n + 1, hn => by
    have ih := inv_all c n (Nat.lt_of_succ_lt hn)
    have hN : n + 1 < 256 := lt_of_lt_of_eq hn (show cfg0.N = 256 from N_0)
    rw [show outsAt m c (n + 1) hn = step m c ⟨n + 1, hn⟩ (outsAt m c n (Nat.lt_of_succ_lt hn)).2.2.1 (outsAt m c n (Nat.lt_of_succ_lt hn)).2.2.2 from rfl]
    by_cases h0 : (n + 1) % 16 = 0
    · rw [step_rowStart m c ⟨n + 1, hn⟩ (Nat.succ_ne_zero n) h0]
      dsimp only
      refine ⟨?_, ?_⟩
      · rw [rowStart_row]; exact rowInv_start m c ⟨n + 1, hn⟩ h0
      · exact colInv_step m c ⟨n + 1, hn⟩ ⟨n, Nat.lt_of_succ_lt hn⟩ rfl _ _ ih.2
          (rowStart_col_in m c ⟨n + 1, hn⟩ (Nat.succ_ne_zero n) h0 _) (rowStart_col_out m c ⟨n + 1, hn⟩ (Nat.succ_ne_zero n) h0 _)
    · by_cases h15 : (n + 1) % 16 = 15
      · by_cases hl : n + 1 = 255
        · rw [step_last m c ⟨n + 1, hn⟩ (Nat.succ_ne_zero n) h0 h15 hl]
          dsimp only
          refine ⟨?_, ?_⟩
          · rw [last_row]; exact rowInv_step m c ⟨n + 1, hn⟩ ⟨n, Nat.lt_of_succ_lt hn⟩ rfl h0 _ ih.1
          · exact colInv_step m c ⟨n + 1, hn⟩ ⟨n, Nat.lt_of_succ_lt hn⟩ rfl _ _ ih.2
              (last_col_in m c ⟨n + 1, hn⟩ hl _ _) (last_col_out m c ⟨n + 1, hn⟩ hl _ _)
        · rw [step_rowEnd m c ⟨n + 1, hn⟩ (Nat.succ_ne_zero n) h0 h15 hl]
          dsimp only
          refine ⟨?_, ?_⟩
          · rw [rowEnd_row]; exact rowInv_step m c ⟨n + 1, hn⟩ ⟨n, Nat.lt_of_succ_lt hn⟩ rfl h0 _ ih.1
          · exact colInv_step m c ⟨n + 1, hn⟩ ⟨n, Nat.lt_of_succ_lt hn⟩ rfl _ _ ih.2
              (rowEnd_col_in m c ⟨n + 1, hn⟩ h15 hl _ _) (rowEnd_col_out m c ⟨n + 1, hn⟩ h15 hl _ _)
      · rw [step_mid m c ⟨n + 1, hn⟩ (Nat.succ_ne_zero n) h0 h15]
        dsimp only
        refine ⟨?_, ?_⟩
        · rw [mid_row]; exact rowInv_step m c ⟨n + 1, hn⟩ ⟨n, Nat.lt_of_succ_lt hn⟩ rfl h0 _ ih.1
        · exact colInv_step m c ⟨n + 1, hn⟩ ⟨n, Nat.lt_of_succ_lt hn⟩ rfl _ _ ih.2
            (mid_col_in m c ⟨n + 1, hn⟩ h0 h15 _ _) (mid_col_out m c ⟨n + 1, hn⟩ h0 h15 _ _)

/-! ## What the two result windows receive -/

/-- On the last column tile of a row the row-minimum window receives the row scratch. -/
theorem rowWin_eq_scratch (c : Dev nD) (t : Fin cfg0.N) (h15 : t.val % 16 = 15) :
    (outsAt m c t.val t.isLt).1 = (outsAt m c t.val t.isLt).2.2.1 := by
  have hN : t.val < 256 := lt_of_lt_of_eq t.isLt (show cfg0.N = 256 from N_0)
  have hz : ¬t.val = 0 := by omega
  have h0 : ¬t.val % 16 = 0 := by omega
  rw [outsAt_pos m c t hz]
  by_cases hl : t.val = 255
  · rw [step_last m c t hz h0 h15 hl]; dsimp only; rw [last_rowWin, last_row]
  · rw [step_rowEnd m c t hz h0 h15 hl]; dsimp only; rw [rowEnd_win, rowEnd_row]

/-- … which by then is the minimum over all the columns. -/
theorem rowWin_value (c : Dev nD) (t : Fin cfg0.N) (h15 : t.val % 16 = 15) (b : Fin 8) (p : Fin 256) :
    (outsAt m c t.val t.isLt).1 (ix2 b p) = minOver fun Q : Fin 4096 => dist m c b (rowOf t p) Q := by
  rw [rowWin_eq_scratch m c t h15]
  have h := (inv_all m c t.val t.isLt).1 b p
  exact (h.of_eq (by show (t.val % 16 + 1) * 256 = 4096; rw [h15])).full

/-- At the last point the column-minimum window receives the column scratch, by then the minimum over all the rows. -/
theorem colWin_value (c : Dev nD) (t : Fin cfg0.N) (hl : t.val = 255) (b : Fin 8) (Q : Fin 4096) :
    (outsAt m c t.val t.isLt).2.1 (ix2 b Q) = minOver fun P : Fin 4096 => dist m c b P Q := by
  have hz : ¬t.val = 0 := by omega
  have h := (inv_all m c t.val t.isLt).2 b Q
  have e : (outsAt m c t.val t.isLt).2.1 = (outsAt m c t.val t.isLt).2.2.2 := by
    rw [outsAt_pos m c t hz, step_last m c t hz (by omega) (by omega) hl]; dsimp only; rw [last_colWin]
  rw [e]
  have hQ := Q.isLt
  exact (h.of_eq (by unfold rowsSeen; rw [hl, if_pos (by omega)])).full

end Cert.KernelIdeal.Tile

end
-- ==== Proof.RefNearest.lean ====
/-
  The reference's distance matrix and its two minimum-reductions, read at an index. The entry (b, P, Q) of the
  matrix is the clamped squared distance of the P-th point of X and the Q-th point of Y in batch b; reducing over
  the last axis gives each point of X its nearest distance to Y, reducing over the middle axis gives each point
  of Y its nearest distance to X.
-/
import proofs.«130830_j11184094838808_2_alg».proof.Proof.Gen.ReferenceIdeal.Read
import proofs.«130830_j11184094838808_2_alg».proof.Proof.Nearest
import Idealize.ShloMosaic.Lib.ValueIdx
import Idealize.ShloMosaic.PureOps.Ideal.Laws
import Idealize.ShloMosaic.PureOps.Reduce

noncomputable section

open scoped BigOperators

namespace Cert.ReferenceIdeal.RefValue

open Idealize.ShloMosaic Idealize.ShloMosaic.ValueIdx Cert.ReferenceIdeal Cert.ReferenceIdeal.Gen Cert.ReferenceIdeal.Read

/-- The entry (b, P, Q) of the distance matrix is the clamped squared distance of X's point P and Y's point Q. -/
theorem dist_apply (X Y : (⟨S8x4096x3, .f32⟩ : BufTy).Contents (Elt Ideal)) (b : Fin 8) (P Q : Fin 4096) :
    val_main_v21 (F := Ideal) X Y (ix3 b P Q)
      = Cert.Nearest.sqDist (fun k => X (ix3 b P k)) (fun k => Y (ix3 b Q k)) := by
  rw [val_main_v21_apply, val_main_v19_apply, val_main_v16_apply, val_main_v14_apply, val_main_v12_apply,
    val_main_v8_apply, val_main_v15_apply, val_main_v13_apply, val_main_v10_apply, val_main_v18_apply,
    val_main_v17_apply, val_main_v11_apply, val_main_v20_apply, val_main_cst_2_apply, val_main_cst_3_apply,
    val_main_cst_4_apply, val_main_cst_5_apply]
  have e8 : ∀ k : Fin 3, idx_main_v8 (idx_main_v12 (idx_main_v14 (ix3 b P Q))) k = ix3 b P k := fun k =>
    funext fun a => Fin.ext (by match a with | ⟨0, _⟩ => rfl | ⟨1, _⟩ => rfl | ⟨2, _⟩ => rfl)
  have e10 : ∀ k : Fin 3, idx_main_v10 (idx_main_v13 (idx_main_v15 (ix3 b P Q))) k = ix3 b Q k := fun k =>
    funext fun a => Fin.ext (by match a with | ⟨0, _⟩ => rfl | ⟨1, _⟩ => rfl | ⟨2, _⟩ => rfl)
  have el : ∀ k : Fin 3, lidx_main_v11 (ix3 b P Q) k = ix3 b P k := fun k =>
    funext fun a => Fin.ext (by match a with | ⟨0, _⟩ => rfl | ⟨1, _⟩ => rfl | ⟨2, _⟩ => rfl)
  have er : ∀ k : Fin 3, ridx_main_v11 (ix3 b P Q) k = ix3 b Q k := fun k =>
    funext fun a => Fin.ext (by match a with | ⟨0, _⟩ => rfl | ⟨1, _⟩ => rfl | ⟨2, _⟩ => rfl)
  simp only [e8, e10, el, er, val_main_v7_apply, val_main_v9_apply, Ideal.ofBits_def, Ideal.addf_def,
    Ideal.subf_def, Ideal.mulf_def, Ideal.maximumf_def]
  unfold Cert.Nearest.sqDist
  simp only [Cert.Nearest.zero, Cert.Nearest.two, Ideal.ofBits_zero_f32, zero_add]

/-- The index (b, P) of a row with the coordinate Q put back on the last axis is (b, P, Q). -/
private theorem lift_last (h : S8x4096x4096.Reduces [2] S8x4096) (b : Fin 8) (P : Fin 4096)
    (k : Fin (S8x4096x4096.size 2)) : h.lift (ix2 b P) k = ix3 b P (⟨k.val, k.isLt⟩ : Fin 4096) := by
  funext c; apply Fin.ext
  fin_cases c <;> rfl

/-- The index (b, Q) of a column with the coordinate P put back on the middle axis is (b, P, Q). -/
private theorem lift_middle (h : S8x4096x4096.Reduces [1] S8x4096) (b : Fin 8) (Q : Fin 4096)
    (k : Fin (S8x4096x4096.size 1)) : h.lift (ix2 b Q) k = ix3 b (⟨k.val, k.isLt⟩ : Fin 4096) Q := by
  funext c; apply Fin.ext
  fin_cases c <;> rfl

/-- Reducing the distance matrix over its last axis: point P of X gets the least of its distances to Y's points. -/
theorem rowMin_apply (X Y : (⟨S8x4096x3, .f32⟩ : BufTy).Contents (Elt Ideal)) (b : Fin 8) (P : Fin 4096) :
    val_main_v22 (F := Ideal) X Y (ix2 b P)
      = Cert.Nearest.minOver fun Q : Fin 4096 =>
          Cert.Nearest.sqDist (fun k => X (ix3 b P k)) (fun k => Y (ix3 b Q k)) := by
  have h : S8x4096x4096.Reduces [2] S8x4096 := by decide
  unfold val_main_v22
  rw [Host.reduce_eq_fold_single (α := Ideal .f32) (s := S8x4096x4096) (t := S8x4096) (a := 2) (u := S_)
    (FloatOps.minimumf (F := Ideal) (φ := .f32)) (val_main_v21 (F := Ideal) X Y) (val_main_cst_6 (F := Ideal))
    reducesTo_S8x4096x4096_S8x4096_d2 h h_S_ (ix2 b P)]
  have hf : (val_main_v21 (F := Ideal) X Y ∘ h.lift (ix2 b P))
      = fun Q : Fin 4096 => Cert.Nearest.sqDist (fun k => X (ix3 b P k)) (fun k => Y (ix3 b Q k)) :=
    funext fun k => by
      show val_main_v21 (F := Ideal) X Y (h.lift (ix2 b P) k) = _
      rw [lift_last h b P k, dist_apply]
      rfl
  rw [hf]
  rfl

/-- Reducing the distance matrix over its middle axis: point Q of Y gets the least of its distances to X's points. -/
theorem colMin_apply (X Y : (⟨S8x4096x3, .f32⟩ : BufTy).Contents (Elt Ideal)) (b : Fin 8) (Q : Fin 4096) :
    val_main_v26 (F := Ideal) X Y (ix2 b Q)
      = Cert.Nearest.minOver fun P : Fin 4096 =>
          Cert.Nearest.sqDist (fun k => X (ix3 b P k)) (fun k => Y (ix3 b Q k)) := by
  have h : S8x4096x4096.Reduces [1] S8x4096 := by decide
  unfold val_main_v26
  rw [Host.reduce_eq_fold_single (α := Ideal .f32) (s := S8x4096x4096) (t := S8x4096) (a := 1) (u := S_)
    (FloatOps.minimumf (F := Ideal) (φ := .f32)) (val_main_v21 (F := Ideal) X Y) (val_main_cst_9 (F := Ideal))
    reducesTo_S8x4096x4096_S8x4096_d1 h h_S_ (ix2 b Q)]
  have hf : (val_main_v21 (F := Ideal) X Y ∘ h.lift (ix2 b Q))
      = fun P : Fin 4096 => Cert.Nearest.sqDist (fun k => X (ix3 b P k)) (fun k => Y (ix3 b Q k)) :=
    funext fun k => by
      show val_main_v21 (F := Ideal) X Y (h.lift (ix2 b Q) k) = _
      rw [lift_middle h b Q k, dist_apply]
      rfl
  rw [hf]
  rfl

end Cert.ReferenceIdeal.RefValue

end
-- ==== Proof.KernelIdeal.Algebraic.lean ====
/-
  The two programs end with the same three numbers. The kernel's two result arrays are, at (b, P), the least
  clamped squared distance from point P of the first cloud to a point of the second, and at (b, Q), the least
  from a point of the first cloud to point Q of the second — the running minima followed tile by tile; the
  reference takes the same two minima over the whole distance table. From there on both programs run the same
  host lines: the means over the points, over the two directions and over the batches, and the rate term, which
  both compute from the third input before anything else.
-/
import proofs.«130830_j11184094838808_2_alg».proof.Defs
import proofs.«130830_j11184094838808_2_alg».proof.Proof.Gen.Pre_finite_inputs
import proofs.«130830_j11184094838808_2_alg».proof.Proof.KernelIdeal.Invariant
import proofs.«130830_j11184094838808_2_alg».proof.Proof.RefNearest
import proofs.«130830_j11184094838808_2_alg».proof.Proof.Gen.ReferenceIdeal.Run
import proofs.«130830_j11184094838808_2_alg».proof.Proof.Gen.ReferenceIdeal.Read
import Idealize.ShloMosaic.Lib.StableHlo.Run

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Idealize.ShloMosaic.StableHlo Cert.Nearest

variable (m : (ℓ : Loc nD τ sig) → Buf (Elt Ideal) ℓ) (ρ : Dev nD → PrngReg)

/-! ## The kernel's two result arrays -/

/-- Nearest distance from each point of the first cloud to the second cloud. -/
def nearRow (c : Dev nD) : S8x4096.Idx → EReal := fun i => minOver fun Q : Fin 4096 => dist m c (i 0) (i 1) Q
/-- Nearest distance from the first cloud to each point of the second cloud. -/
def nearCol (c : Dev nD) : S8x4096.Idx → EReal := fun i => minOver fun P : Fin 4096 => dist m c (i 0) P (i 1)

theorem final_row (c : Dev nD) : (dats m 0 c).arrAt 2 cfg0.N = nearRow m c :=
  final_rowWin m c (nearRow m c) fun t h15 b p => rowWin_value m c t h15 b p

theorem final_col (c : Dev nD) : (dats m 0 c).arrAt 3 cfg0.N = nearCol m c :=
  final_colWin m c (nearCol m c) fun t hl => funext fun i => by
    obtain ⟨b, Q, rfl⟩ : ∃ (b : Fin 8) (Q : Fin 4096), i = ix2 b Q := ⟨i 0, i 1, eq_ix2 i⟩
    exact colWin_value m c t hl b Q

/-! ## The host lines after the region, as functions of what they read -/

/-- The reconstruction term from the two nearest-distance arrays: mean over the points, sum of the two
    directions, mean over the batches. -/
def recOf (r cc : (⟨S8x4096, .f32⟩ : BufTy).Contents (Elt Ideal)) : (⟨S_, .f32⟩ : BufTy).Contents (Elt Ideal) :=
  Host.divf (Host.reduceAdd (addf
      (Host.divf (Host.reduceAdd r (constant (F := Ideal) S_ .f32 0x00000000#32) reducesTo_S8x4096_S8_d1 h_S_)
        (broadcastInDim S8 ![] bcast_S_S8 (constant (F := Ideal) S_ .f32 0x45800000#32)))
      (Host.divf (Host.reduceAdd cc (constant (F := Ideal) S_ .f32 0x00000000#32) reducesTo_S8x4096_S8_d1 h_S_)
        (broadcastInDim S8 ![] bcast_S_S8 (constant (F := Ideal) S_ .f32 0x45800000#32))))
    (constant (F := Ideal) S_ .f32 0x00000000#32) reducesTo_S8_S_d0 h_S_) (constant (F := Ideal) S_ .f32 0x41000000#32)

/-- The total: once the reconstruction term plus once the rate term. -/
def lossOf (rec bpp : (⟨S_, .f32⟩ : BufTy).Contents (Elt Ideal)) : (⟨S_, .f32⟩ : BufTy).Contents (Elt Ideal) :=
  addf (mulf (constant (F := Ideal) S_ .f32 0x3F800000#32) rec) (mulf (constant (F := Ideal) S_ .f32 0x3F800000#32) bpp)

theorem tail_rec_of (W : Valuation τ sig (Elt Ideal)) :
    StableHlo.after (hostOps1 (F := Ideal)) W (Proc.devRef .tc main_v16)
      = recOf (W (Proc.devRef .tc main_v7_0)) (W (Proc.devRef .tc main_v7_1)) := by
  after_results; rfl

theorem tail_bpp_of (W : Valuation τ sig (Elt Ideal)) :
    StableHlo.after (hostOps1 (F := Ideal)) W (Proc.devRef .tc main_v6) = W (Proc.devRef .tc main_v6) := by
  after_results

theorem tail_loss_of (W : Valuation τ sig (Elt Ideal)) :
    StableHlo.after (hostOps1 (F := Ideal)) W (Proc.devRef .tc main_v19)
      = lossOf (recOf (W (Proc.devRef .tc main_v7_0)) (W (Proc.devRef .tc main_v7_1))) (W (Proc.devRef .tc main_v6)) := by
  after_results; rfl

/-- The rate term from the third input: the sum of −log₂ of its entries over the number of points. -/
def bppOf (z : (⟨S8x192x1024, .f32⟩ : BufTy).Contents (Elt Ideal)) : (⟨S_, .f32⟩ : BufTy).Contents (Elt Ideal) :=
  Host.divf (Host.reduceAdd (Host.negf (Host.divf (Host.log z)
      (broadcastInDim S8x192x1024 ![] bcast_S_S8x192x1024 (Host.log (constant (F := Ideal) S_ .f32 0x40000000#32)))))
    (constant (F := Ideal) S_ .f32 0x00000000#32) reducesTo_S8x192x1024_S_d0_1_2 h_S_) (constant (F := Ideal) S_ .f32 0x47000000#32)

/-- The host lines before the region leave the rate term where the later lines read it. -/
theorem entry_bpp (c : Dev nD) : V0 m c (Proc.devRef .tc main_v6) = bppOf (m ((c : Thread nD τ).loc main_arg2)) := by
  show StableHlo.after (hostOps0 (F := Ideal)) (fun b => m (c, b)) (Proc.devRef .tc main_v6) = _
  after_results; rfl

/-! ## The kernel's three results -/

theorem arr_row (c : Dev nD) : (Pipeline.withArrays spec0 c (V0 m c) fun w => (dats m 0 c).arrAt w cfg0.N) (Proc.devRef .tc main_v7_0) = nearRow m c :=
  (Pipeline.withArrays_arr spec0 launch0.win.arr_inj c (V0 m c) (fun w => (dats m 0 c).arrAt w cfg0.N) 2).trans (final_row m c)

theorem arr_col (c : Dev nD) : (Pipeline.withArrays spec0 c (V0 m c) fun w => (dats m 0 c).arrAt w cfg0.N) (Proc.devRef .tc main_v7_1) = nearCol m c :=
  (Pipeline.withArrays_arr spec0 launch0.win.arr_inj c (V0 m c) (fun w => (dats m 0 c).arrAt w cfg0.N) 3).trans (final_col m c)

theorem arr_bpp (c : Dev nD) : (Pipeline.withArrays spec0 c (V0 m c) fun w => (dats m 0 c).arrAt w cfg0.N) (Proc.devRef .tc main_v6) = bppOf (m ((c : Thread nD τ).loc main_arg2)) :=
  (Pipeline.withArrays_of_ne spec0 c (V0 m c) _ main_v6 (by exact (by decide : ∀ w, Pipeline.arrRef spec0 w ≠ main_v6))).trans (entry_bpp m c)

theorem kernel_rec (c : Dev nD) :
    Pipeline.afterTail₀ cfgs (dats m) 0 (V0 m) [hostOps1] c main_v16 = recOf (nearRow m c) (nearCol m c) := by
  unfold Pipeline.afterTail₀
  show StableHlo.after (hostOps1 (F := Ideal)) (Pipeline.withArrays spec0 c (V0 m c) fun w => (dats m 0 c).arrAt w cfg0.N) (Proc.devRef .tc main_v16) = _
  rw [tail_rec_of, arr_row, arr_col]

theorem kernel_bpp (c : Dev nD) :
    Pipeline.afterTail₀ cfgs (dats m) 0 (V0 m) [hostOps1] c main_v6 = bppOf (m ((c : Thread nD τ).loc main_arg2)) := by
  unfold Pipeline.afterTail₀
  show StableHlo.after (hostOps1 (F := Ideal)) (Pipeline.withArrays spec0 c (V0 m c) fun w => (dats m 0 c).arrAt w cfg0.N) (Proc.devRef .tc main_v6) = _
  rw [tail_bpp_of, arr_bpp]

theorem kernel_loss (c : Dev nD) :
    Pipeline.afterTail₀ cfgs (dats m) 0 (V0 m) [hostOps1] c main_v19
      = lossOf (recOf (nearRow m c) (nearCol m c)) (bppOf (m ((c : Thread nD τ).loc main_arg2))) := by
  unfold Pipeline.afterTail₀
  show StableHlo.after (hostOps1 (F := Ideal)) (Pipeline.withArrays spec0 c (V0 m c) fun w => (dats m 0 c).arrAt w cfg0.N) (Proc.devRef .tc main_v19) = _
  rw [tail_loss_of, arr_row, arr_col, arr_bpp]

/-- The kernel's run with its three results named. -/
theorem kernel_run : θ_run defs (onTc (τ := τ) (main (F := Ideal))) ⟨m, fun _ => 0, ρ⟩ (fun r => ∀ c : Dev nD,
      r.2.mem ((c.tc : Thread nD τ).loc main_v19) = lossOf (recOf (nearRow m c) (nearCol m c)) (bppOf (m ((c : Thread nD τ).loc main_arg2)))
      ∧ r.2.mem ((c.tc : Thread nD τ).loc main_v6) = bppOf (m ((c : Thread nD τ).loc main_arg2))
      ∧ r.2.mem ((c.tc : Thread nD τ).loc main_v16) = recOf (nearRow m c) (nearCol m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v19 (Pipeline.mem_restRefs_of main_v19 (by decide) (by decide))).trans (kernel_loss m c),
      ((h c).2 main_v6 (Pipeline.mem_restRefs_of main_v6 (by decide) (by decide))).trans (kernel_bpp m c),
      ((h c).2 main_v16 (Pipeline.mem_restRefs_of main_v16 (by decide) (by decide))).trans (kernel_rec m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main (F := Ideal) m ρ)

/-! ## The reference's three results are the same functions of the inputs -/

section Reference
open Cert.ReferenceIdeal.Read

/-- The reference's minimum over the columns is the kernel's row array. -/
theorem ref_rowMin (c : Dev nD) : val_main_v22 (F := Ideal) (m ((c : Thread nD τ).loc main_arg0)) (m ((c : Thread nD τ).loc main_arg1)) = nearRow m c := funext fun i => by
  obtain ⟨b, P, rfl⟩ : ∃ (b : Fin 8) (P : Fin 4096), i = ix2 b P := ⟨i 0, i 1, eq_ix2 i⟩
  exact Cert.ReferenceIdeal.RefValue.rowMin_apply _ _ b P

/-- The reference's minimum over the rows is the kernel's column array. -/
theorem ref_colMin (c : Dev nD) : val_main_v26 (F := Ideal) (m ((c : Thread nD τ).loc main_arg0)) (m ((c : Thread nD τ).loc main_arg1)) = nearCol m c := funext fun i => by
  obtain ⟨b, Q, rfl⟩ : ∃ (b : Fin 8) (Q : Fin 4096), i = ix2 b Q := ⟨i 0, i 1, eq_ix2 i⟩
  exact Cert.ReferenceIdeal.RefValue.colMin_apply _ _ b Q

theorem ref_rec (c : Dev nD) : val_main_v32 (F := Ideal) (m ((c : Thread nD τ).loc main_arg0)) (m ((c : Thread nD τ).loc main_arg1)) = recOf (nearRow m c) (nearCol m c) := by
  show recOf (val_main_v22 (F := Ideal) (m ((c : Thread nD τ).loc main_arg0)) (m ((c : Thread nD τ).loc main_arg1))) (val_main_v26 (F := Ideal) (m ((c : Thread nD τ).loc main_arg0)) (m ((c : Thread nD τ).loc main_arg1))) = _
  rw [ref_rowMin, ref_colMin]

theorem ref_bpp (c : Dev nD) : val_main_v6 (F := Ideal) (m ((c : Thread nD τ).loc main_arg2)) = bppOf (m ((c : Thread nD τ).loc main_arg2)) := rfl

theorem ref_loss (c : Dev nD) : val_main_v35 (F := Ideal) (m ((c : Thread nD τ).loc main_arg0)) (m ((c : Thread nD τ).loc main_arg1)) (m ((c : Thread nD τ).loc main_arg2))
    = lossOf (recOf (nearRow m c) (nearCol m c)) (bppOf (m ((c : Thread nD τ).loc main_arg2))) := by
  show lossOf (val_main_v32 (F := Ideal) (m ((c : Thread nD τ).loc main_arg0)) (m ((c : Thread nD τ).loc main_arg1))) (val_main_v6 (F := Ideal) (m ((c : Thread nD τ).loc main_arg2))) = _
  rw [ref_rec, ref_bpp]

end Reference

end Cert.KernelIdeal.Tile

namespace Cert.Proof

open Idealize.ShloMosaic Idealize.SL.Sem Cert.KernelIdeal.Tile

/-- From memories that agree on the three inputs both idealized programs end with the same three numbers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, _, kernel_run m ρ, ?_⟩
  refine (θ_run Cert.ReferenceIdeal.defs _ _).mono (fun _ h c => ?_) (Cert.ReferenceIdeal.Value.run (F := Ideal) m' ρ')
  obtain ⟨h35, h6, h32, ha0, ha1, ha2⟩ := h c
  refine ⟨h35.trans ?_, h6.trans ?_, h32.trans ?_, ha0, ha1, ha2⟩
  · rw [(hagree c).1, (hagree c).2.1, (hagree c).2.2]
    exact (Cert.ReferenceIdeal.Read.val_main_v35_eq _ _ _).trans (ref_loss m c)
  · rw [(hagree c).2.2]
    exact (Cert.ReferenceIdeal.Read.val_main_v6_eq _).trans (ref_bpp m c)
  · rw [(hagree c).1, (hagree c).2.1]
    exact (Cert.ReferenceIdeal.Read.val_main_v32_eq _ _).trans (ref_rec m c)

end Cert.Proof

end
-- ==== Proof.lean ====
/-
  The certificate of the fused nearest-neighbour kernel against its reference.

  For two clouds of 4096 points in each of 8 batches the programs compute, for every point of either cloud, the
  clamped squared distance to its nearest point of the other cloud, average those over the points, the two
  directions and the batches, and add a rate term computed from a third input by the same host lines in both.
  The kernel walks a 16 × 16 grid of tiles of 256 × 256 point pairs: along a row of the grid it keeps, in one
  scratch array, the running minimum of each of its 256 rows over the column tiles walked so far and writes it
  out on the last column tile; across the whole grid it keeps, in a second scratch array, the running minimum
  of each of the 4096 columns, started from +inf at the first point and written out at the last.

  The frames (each program runs to the end, faults nowhere, leaves its inputs unchanged) are proved for the
  kernel at both instances by following the two scratch arrays from point to point; the kernel's idealization
  is the kernel's own text read over the extended reals, so there is nothing to preserve; and the two results
  agree because a minimum taken tile by tile is the minimum over the whole index range.
-/
import proofs.«130830_j11184094838808_2_alg».proof.Defs
import proofs.«130830_j11184094838808_2_alg».proof.Proof.Gen.Kernel
import proofs.«130830_j11184094838808_2_alg».proof.Proof.Gen.KernelIdeal
import proofs.«130830_j11184094838808_2_alg».proof.Proof.Gen.ReferenceIdeal
import proofs.«130830_j11184094838808_2_alg».proof.Proof.Gen.Pre_finite_inputs
import proofs.«130830_j11184094838808_2_alg».proof.Proof.Gen.ReferenceIdeal.Run
import proofs.«130830_j11184094838808_2_alg».proof.Proof.Gen.ReferenceIdeal.Read
import proofs.«130830_j11184094838808_2_alg».proof.Proof.Kernel.Obligation
import proofs.«130830_j11184094838808_2_alg».proof.Proof.KernelIdeal.Obligation
import proofs.«130830_j11184094838808_2_alg».proof.Proof.KernelIdeal.Algebraic
import Idealize.ShloMosaic.Adequacy
import Idealize.ShloMosaic.Init

noncomputable section

namespace Cert.Proof

open Idealize.ShloMosaic Idealize.SL.Sem

/-- The word-level kernel's frame. -/
theorem frame_k : @Cert.frame_Kernel Cert.Kernel.Gen.facts Cert.Pre_finite_inputs.Gen.facts :=
  fun m ρ _ => Cert.Kernel.Tile.frame (F := Bits) m ρ

/-- The idealized kernel's frame. -/
theorem frame_ki : @Cert.frame_KernelIdeal Cert.KernelIdeal.Gen.facts Cert.Pre_finite_inputs.Gen.facts :=
  fun m ρ _ => Cert.KernelIdeal.Tile.frame (F := Ideal) m ρ

/-- The reference's frame: its run, the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2)
    (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
